-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v200) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x800000 : Shape := ⟨2, ![2, 800000]⟩
abbrev S800000 : Shape := ⟨1, ![800000]⟩
abbrev S800000x100 : Shape := ⟨2, ![800000, 100]⟩
abbrev S100000 : Shape := ⟨1, ![100000]⟩
abbrev S100x256 : Shape := ⟨2, ![100, 256]⟩
abbrev S256 : Shape := ⟨1, ![256]⟩
abbrev S256x256 : Shape := ⟨2, ![256, 256]⟩
abbrev S5x256x256 : Shape := ⟨3, ![5, 256, 256]⟩
abbrev S5x256 : Shape := ⟨2, ![5, 256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S800000x100 : S_.BroadcastsInDim S800000x100 (![] : Fin 0 → Fin S800000x100.rank)
  reducesTo_S800000x100_S_d0_1 : S800000x100.ReducesTo [0, 1] S_
  bcast_S_S100x256 : S_.BroadcastsInDim S100x256 (![] : Fin 0 → Fin S100x256.rank)
  reducesTo_S100x256_S_d0_1 : S100x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S5x256x256 : S_.BroadcastsInDim S5x256x256 (![] : Fin 0 → Fin S5x256x256.rank)
  reducesTo_S5x256x256_S_d0_1_2 : S5x256x256.ReducesTo [0, 1, 2] S_
  bcast_S_S5x256 : S_.BroadcastsInDim S5x256 (![] : Fin 0 → Fin S5x256.rank)
  reducesTo_S5x256_S_d0_1 : S5x256.ReducesTo [0, 1] S_

variable [Facts]

def fn_part5 {F : FTy → Type} [FloatOps F] (main_v83 : IVec S_ 1) (main_v84 : FVec F S5x256 .f32) (main_cst_32 : FVec F S_ .f32) : IVec S_ 1 :=
  let main_v85 : FVec F S5x256 .f32 := broadcastInDim S5x256 ![] bcast_S_S5x256 main_cst_32
  let main_v86 : IVec S5x256 1 := cmpf .olt main_v84 main_v85
  let main_c_33 : IVec S_ 1 := constantI S_ 1 1#1
  let main_v87 : IVec S_ 1 := (fun x v => Host.reduce IntOp.andi x v reducesTo_S5x256_S_d0_1 h_S_) main_v86 main_c_33
  let main_v88 : IVec S_ 1 := andi main_v83 main_v87
  main_v88

def fn_part4 {F : FTy → Type} [FloatOps F] (main_arg16 : FVec F S5x256x256 .f32) (main_arg17 : FVec F S5x256 .f32) (main_arg18 : FVec F S5x256x256 .f32) (main_arg19 : FVec F S5x256 .f32) (main_v63 : IVec S_ 1) (main_v67 : IVec S_ 1) : IVec S_ 1 :=
  let main_v68 : IVec S_ 1 := andi main_v63 main_v67
  let main_v69 : FVec F S5x256x256 .f32 := Host.absf main_arg16
  let main_cst_26 : FVec F S_ .f32 := constant S_ .f32 0x7F800000#32
  let main_v70 : FVec F S5x256x256 .f32 := broadcastInDim S5x256x256 ![] bcast_S_S5x256x256 main_cst_26
  let main_v71 : IVec S5x256x256 1 := cmpf .olt main_v69 main_v70
  let main_c_27 : IVec S_ 1 := constantI S_ 1 1#1
  let main_v72 : IVec S_ 1 := (fun x v => Host.reduce IntOp.andi x v reducesTo_S5x256x256_S_d0_1_2 h_S_) main_v71 main_c_27
  let main_v73 : IVec S_ 1 := andi main_v68 main_v72
  let main_v74 : FVec F S5x256 .f32 := Host.absf main_arg17
  let main_cst_28 : FVec F S_ .f32 := constant S_ .f32 0x7F800000#32
  let main_v75 : FVec F S5x256 .f32 := broadcastInDim S5x256 ![] bcast_S_S5x256 main_cst_28
  let main_v76 : IVec S5x256 1 := cmpf .olt main_v74 main_v75
  let main_c_29 : IVec S_ 1 := constantI S_ 1 1#1
  let main_v77 : IVec S_ 1 := (fun x v => Host.reduce IntOp.andi x v reducesTo_S5x256_S_d0_1 h_S_) main_v76 main_c_29
  let main_v78 : IVec S_ 1 := andi main_v73 main_v77
  let main_v79 : FVec F S5x256x256 .f32 := Host.absf main_arg18
  let main_cst_30 : FVec F S_ .f32 := constant S_ .f32 0x7F800000#32
  let main_v80 : FVec F S5x256x256 .f32 := broadcastInDim S5x256x256 ![] bcast_S_S5x256x256 main_cst_30
  let main_v81 : IVec S5x256x256 1 := cmpf .olt main_v79 main_v80
  let main_c_31 : IVec S_ 1 := constantI S_ 1 1#1
  let main_v82 : IVec S_ 1 := (fun x v => Host.reduce IntOp.andi x v reducesTo_S5x256x256_S_d0_1_2 h_S_) main_v81 main_c_31
  let main_v83 : IVec S_ 1 := andi main_v78 main_v82
  let main_v84 : FVec F S5x256 .f32 := Host.absf main_arg19
  let main_cst_32 : FVec F S_ .f32 := constant S_ .f32 0x7F800000#32
  fn_part5 (F := F) main_v83 main_v84 main_cst_32

def fn_part3 {F : FTy → Type} [FloatOps F] (main_arg13 : FVec F S256x256 .f32) (main_arg14 : FVec F S256 .f32) (main_arg15 : FVec F S256 .f32) (main_arg16 : FVec F S5x256x256 .f32) (main_arg17 : FVec F S5x256 .f32) (main_arg18 : FVec F S5x256x256 .f32) (main_arg19 : FVec F S5x256 .f32) (main_v48 : IVec S_ 1) (main_v49 : FVec F S5x256 .f32) (main_v50 : FVec F S5x256 .f32) : IVec S_ 1 :=
  let main_v51 : IVec S5x256 1 := cmpf .olt main_v49 main_v50
  let main_c_19 : IVec S_ 1 := constantI S_ 1 1#1
  let main_v52 : IVec S_ 1 := (fun x v => Host.reduce IntOp.andi x v reducesTo_S5x256_S_d0_1 h_S_) main_v51 main_c_19
  let main_v53 : IVec S_ 1 := andi main_v48 main_v52
  let main_v54 : FVec F S256x256 .f32 := Host.absf main_arg13
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg16 main_arg17 main_arg18 main_arg19 main_v63 main_v67

def fn_part2 {F : FTy → Type} [FloatOps F] (main_arg9 : FVec F S5x256x256 .f32) (main_arg10 : FVec F S5x256 .f32) (main_arg11 : FVec F S5x256x256 .f32) (main_arg12 : FVec F S5x256 .f32) (main_arg13 : FVec F S256x256 .f32) (main_arg14 : FVec F S256 .f32) (main_arg15 : FVec F S256 .f32) (main_arg16 : FVec F S5x256x256 .f32) (main_arg17 : FVec F S5x256 .f32) (main_arg18 : FVec F S5x256x256 .f32) (main_arg19 : FVec F S5x256 .f32) (main_v33 : IVec S_ 1) : IVec S_ 1 :=
  let main_v34 : FVec F S5x256x256 .f32 := Host.absf main_arg9
  let main_cst_12 : FVec F S_ .f32 := constant S_ .f32 0x7F800000#32
  let main_v35 : FVec F S5x256x256 .f32 := broadcastInDim S5x256x256 ![] bcast_S_S5x256x256 main_cst_12
  let main_v36 : IVec S5x256x256 1 := cmpf .olt main_v34 main_v35
  let main_c_13 : IVec S_ 1 := constantI S_ 1 1#1
  let main_v37 : IVec S_ 1 := (fun x v => Host.reduce IntOp.andi x v reducesTo_S5x256x256_S_d0_1_2 h_S_) main_v36 main_c_13
  let main_v38 : IVec S_ 1 := andi main_v33 main_v37
  let main_v39 : FVec F S5x256 .f32 := Host.absf main_arg10
  let main_cst_14 : FVec F S_ .f32 := constant S_ .f32 0x7F800000#32
  let main_v40 : FVec F S5x256 .f32 := broadcastInDim S5x256 ![] bcast_S_S5x256 main_cst_14
  let main_v41 : IVec S5x256 1 := cmpf .olt main_v39 main_v40
  let main_c_15 : IVec S_ 1 := constantI S_ 1 1#1
  let main_v42 : IVec S_ 1 := (fun x v => Host.reduce IntOp.andi x v reducesTo_S5x256_S_d0_1 h_S_) main_v41 main_c_15
  let main_v43 : IVec S_ 1 := andi main_v38 main_v42
  let main_v44 : FVec F S5x256x256 .f32 := Host.absf main_arg11
  let main_cst_16 : FVec F S_ .f32 := constant S_ .f32 0x7F800000#32
  let main_v45 : FVec F S5x256x256 .f32 := broadcastInDim S5x256x256 ![] bcast_S_S5x256x256 main_cst_16
  let main_v46 : IVec S5x256x256 1 := cmpf .olt main_v44 main_v45
  let main_c_17 : IVec S_ 1 := constantI S_ 1 1#1
  let main_v47 : IVec S_ 1 := (fun x v => Host.reduce IntOp.andi x v reducesTo_S5x256x256_S_d0_1_2 h_S_) main_v46 main_c_17
  let main_v48 : IVec S_ 1 := andi main_v43 main_v47
  let main_v49 : FVec F S5x256 .f32 := Host.absf main_arg12
  let main_cst_18 : FVec F S_ .f32 := constant S_ .f32 0x7F800000#32
  let main_v50 : FVec F S5x256 .f32 := broadcastInDim S5x256 ![] bcast_S_S5x256 main_cst_18
  fn_part3 (F := F) main_arg13 main_arg14 main_arg15 main_arg16 main_arg17 main_arg18 main_arg19 main_v48 main_v49 main_v50

def fn_part1 {F : FTy → Type} [FloatOps F] (main_arg6 : FVec F S256 .f32) (main_arg7 : FVec F S256x256 .f32) (main_arg8 : FVec F S256 .f32) (main_arg9 : FVec F S5x256x256 .f32) (main_arg10 : FVec F S5x256 .f32) (main_arg11 : FVec F S5x256x256 .f32) (main_arg12 : FVec F S5x256 .f32) (main_arg13 : FVec F S256x256 .f32) (main_arg14 : FVec F S256 .f32) (main_arg15 : FVec F S256 .f32) (main_arg16 : FVec F S5x256x256 .f32) (main_arg17 : FVec F S5x256 .f32) (main_arg18 : FVec F S5x256x256 .f32) (main_arg19 : FVec F S5x256 .f32) (main_v13 : IVec S_ 1) (main_v16 : IVec S100x256 1) : IVec S_ 1 :=
  let main_c_5 : IVec S_ 1 := constantI S_ 1 1#1
  let main_v17 : IVec S_ 1 := (fun x v => Host.reduce IntOp.andi x v reducesTo_S100x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S100000x256 .f32) (main_arg1 : IVec S2x800000 32) (main_arg2 : FVec F S800000 .f32) (main_arg3 : FVec F S800000x100 .f32) (main_arg4 : IVec S100000 32) (main_arg5 : FVec F S100x256 .f32) (main_arg6 : FVec F S256 .f32) (main_arg7 : FVec F S256x256 .f32) (main_arg8 : FVec F S256 .f32) (main_arg9 : FVec F S5x256x256 .f32) (main_arg10 : FVec F S5x256 .f32) (main_arg11 : FVec F S5x256x256 .f32) (main_arg12 : FVec F S5x256 .f32) (main_arg13 : FVec F S256x256 .f32) (main_arg14 : FVec F S256 .f32) (main_arg15 : FVec F S256 .f32) (main_arg16 : FVec F S5x256x256 .f32) (main_arg17 : FVec F S5x256 .f32) (main_arg18 : FVec F S5x256x256 .f32) (main_arg19 : FVec F S5x256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S800000x100 .f32 := Host.absf main_arg3
  let main_cst_2 : FVec F S_ .f32 := constant S_ .f32 0x7F800000#32
  let main_v10 : FVec F S800000x100 .f32 := broadcastInDim S800000x100 ![] bcast_S_S800000x100 main_cst_2
  let main_v11 : IVec S800000x100 1 := cmpf .olt main_v9 main_v10
  let main_c_3 : IVec S_ 1 := constantI S_ 1 1#1
  let main_v12 : IVec S_ 1 := (fun x v => Host.reduce IntOp.andi x v reducesTo_S800000x100_S_d0_1 h_S_) main_v11 main_c_3
  let main_v13 : IVec S_ 1 := andi main_v8 main_v12
  let main_v14 : FVec F S100x256 .f32 := Host.absf main_arg5
  let main_cst_4 : FVec F S_ .f32 := constant S_ .f32 0x7F800000#32
  let main_v15 : FVec F S100x256 .f32 := broadcastInDim S100x256 ![] bcast_S_S100x256 main_cst_4
  let main_v16 : IVec S100x256 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S100000x256 : Shape := ⟨2, ![100000, 256]⟩
abbrev S2x800000 : Shape := ⟨2, ![2, 800000]⟩
abbrev S800000 : Shape := ⟨1, ![800000]⟩
abbrev S800000x100 : Shape := ⟨2, ![800000, 100]⟩
abbrev S100000 : Shape := ⟨1, ![100000]⟩
abbrev S100x256 : Shape := ⟨2, ![100, 256]⟩
abbrev S256 : Shape := ⟨1, ![256]⟩
abbrev S256x256 : Shape := ⟨2, ![256, 256]⟩
abbrev S5x256x256 : Shape := ⟨3, ![5, 256, 256]⟩
abbrev S5x256 : Shape := ⟨2, ![5, 256]⟩
abbrev S1x256 : Shape := ⟨2, ![1, 256]⟩
abbrev S800000x256 : Shape := ⟨2, ![800000, 256]⟩
abbrev S8000x100 : Shape := ⟨2, ![8000, 100]⟩
abbrev S8000x256 : Shape := ⟨2, ![8000, 256]⟩
abbrev S5000x256 : Shape := ⟨2, ![5000, 256]⟩
abbrev S1x800000 : Shape := ⟨2, ![1, 800000]⟩
abbrev S_ : Shape := ⟨0, ![]⟩
abbrev S800000x1 : Shape := ⟨2, ![800000, 1]⟩
abbrev S2000x256 : Shape := ⟨2, ![2000, 256]⟩
abbrev S1x256x256 : Shape := ⟨3, ![1, 256, 256]⟩

abbrev nBuf : Space → Nat
  | .hbm => 45
  | .vmem => 29
  | .smem => 0
  | _ => 0

abbrev bufTy : (tb : Table) → Fin (tcTables nBuf tb) → BufTy
  | .hbm, ⟨0, _⟩ => ⟨S100000x256, .f32⟩
  | .hbm, ⟨1, _⟩ => ⟨S2x800000, .i32⟩
  | .hbm, ⟨2, _⟩ => ⟨S800000, .f32⟩
  | .hbm, ⟨3, _⟩ => ⟨S800000x100, .f32⟩
  | .hbm, ⟨4, _⟩ => ⟨S100000, .i32⟩
  | .hbm, ⟨5, _⟩ => ⟨S100x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S5x256x256, .f32⟩
  | .hbm, ⟨10, _⟩ => ⟨S5x256, .f32⟩
  | .hbm, ⟨11, _⟩ => ⟨S5x256x256, .f32⟩
  | .hbm, ⟨12, _⟩ => ⟨S5x256, .f32⟩
  | .hbm, ⟨13, _⟩ => ⟨S256x256, .f32⟩
  | .hbm, ⟨14, _⟩ => ⟨S256, .f32⟩
  | .hbm, ⟨15, _⟩ => ⟨S256, .f32⟩
  | .hbm, ⟨16, _⟩ => ⟨S5x256x256, .f32⟩
  | .hbm, ⟨17, _⟩ => ⟨S5x256, .f32⟩
  | .hbm, ⟨18, _⟩ => ⟨S5x256x256, .f32⟩
  | .hbm, ⟨19, _⟩ => ⟨S5x256, .f32⟩
  | .hbm, ⟨20, _⟩ => ⟨S1x256, .f32⟩
  | .hbm, ⟨21, _⟩ => ⟨S800000x256, .f32⟩
  | .hbm, ⟨22, _⟩ => ⟨S1x256, .f32⟩
  | .hbm, ⟨23, _⟩ => ⟨S100000x256, .f32⟩
  | .hbm, ⟨24, _⟩ => ⟨S1x800000, .i32⟩
  | .hbm, ⟨25, _⟩ => ⟨S800000, .i32⟩
  | .hbm, ⟨26, _⟩ => ⟨S1x800000, .i32⟩
  | .hbm, ⟨27, _⟩ => ⟨S800000, .i32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x256, .f32⟩
  | .hbm, ⟨37, _⟩ => ⟨S800000x256, .f32⟩
  | .hbm, ⟨38, _⟩ => ⟨S_, .f32⟩
  | .hbm, ⟨39, _⟩ => ⟨S100000x256, .f32⟩
  | .hbm, ⟨40, _⟩ => ⟨S800000x1, .i32⟩
  | .hbm, ⟨41, _⟩ => ⟨S100000x256, .f32⟩
  | .hbm, ⟨42, _⟩ => ⟨S1x256, .f32⟩
  | .hbm, ⟨43, _⟩ => ⟨S1x256, .f32⟩
  | .hbm, ⟨44, _⟩ => ⟨S100000x256, .f32⟩
  | .local _ .vmem, ⟨0, _⟩ => ⟨S8000x100, .f32⟩
  | .local _ .vmem, ⟨1, _⟩ => ⟨S8000x100, .f32⟩
  | .local _ .vmem, ⟨2, _⟩ => ⟨S100x256, .f32⟩
  | .local _ .vmem, ⟨3, _⟩ => ⟨S1x256, .f32⟩
  | .local _ .vmem, ⟨4, _⟩ => ⟨S8000x256, .f32⟩
  | .local _ .vmem, ⟨5, _⟩ => ⟨S8000x256, .f32⟩
  | .local _ .vmem, ⟨6, _⟩ => ⟨S5000x256, .f32⟩
  | .local _ .vmem, ⟨7, _⟩ => ⟨S5000x256, .f32⟩
  | .local _ .vmem, ⟨8, _⟩ => ⟨S256x256, .f32⟩
  | .local _ .vmem, ⟨9, _⟩ => ⟨S1x256, .f32⟩
  | .local _ .vmem, ⟨10, _⟩ => ⟨S5000x256, .f32⟩
  | .local _ .vmem, ⟨11, _⟩ => ⟨S5000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S5x256x256, .f32⟩
  | .local _ .vmem, ⟨17, _⟩ => ⟨S5x256, .f32⟩
  | .local _ .vmem, ⟨18, _⟩ => ⟨S5x256x256, .f32⟩
  | .local _ .vmem, ⟨19, _⟩ => ⟨S5x256, .f32⟩
  | .local _ .vmem, ⟨20, _⟩ => ⟨S256x256, .f32⟩
  | .local _ .vmem, ⟨21, _⟩ => ⟨S1x256, .f32⟩
  | .local _ .vmem, ⟨22, _⟩ => ⟨S1x256, .f32⟩
  | .local _ .vmem, ⟨23, _⟩ => ⟨S5x256x256, .f32⟩
  | .local _ .vmem, ⟨24, _⟩ => ⟨S5x256, .f32⟩
  | .local _ .vmem, ⟨25, _⟩ => ⟨S5x256x256, .f32⟩
  | .local _ .vmem, ⟨26, _⟩ => ⟨S5x256, .f32⟩
  | .local _ .vmem, ⟨27, _⟩ => ⟨S2000x256, .f32⟩
  | .local _ .vmem, ⟨28, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c : Ref sig .tc := ⟨.hbm, 28, rfl⟩
abbrev main_v8 : Ref sig .tc := ⟨.hbm, 29, rfl⟩
abbrev main_v9 : Ref sig .tc := ⟨.hbm, 30, rfl⟩
abbrev main_c_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg8_0 : Ref sig .tc := ⟨.vmem, 22, rfl⟩
abbrev cc2_stg9_0 : Ref sig .tc := ⟨.vmem, 23, rfl⟩
abbrev cc2_stg10_0 : Ref sig .tc := ⟨.vmem, 24, rfl⟩
abbrev cc2_stg11_0 : Ref sig .tc := ⟨.vmem, 25, rfl⟩
abbrev cc2_stg12_0 : Ref sig .tc := ⟨.vmem, 26, rfl⟩
abbrev cc2_stg13_0 : Ref sig .tc := ⟨.vmem, 27, rfl⟩
abbrev cc2_stg13_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem9_0 : DmaSem sig := 23
abbrev cc2_sem10_0 : DmaSem sig := 24
abbrev cc2_sem11_0 : DmaSem sig := 25
abbrev cc2_sem12_0 : DmaSem sig := 26
abbrev cc2_sem13_0 : DmaSem sig := 27
abbrev cc2_sem13_1 : DmaSem sig := 28

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S5x256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S5x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S5x256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S5x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S5x256x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S5x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S5x256x256 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S5x256 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S2000x256 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

class Facts₀ : Prop where
  shapeCasts_S256_S1x256 : S256.ShapeCasts S1x256
  inb_S8000x100_S8000x100_0_0 : ∀ a, (![0, 0] : Fin 2 → Nat) a + S8000x100.size a ≤ S8000x100.size a
  h_S8000x100 : 0 < S8000x100.numel
  inb_S100x256_S100x256_0_0 : ∀ a, (![0, 0] : Fin 2 → Nat) a + S100x256.size a ≤ S100x256.size a
  h_S100x256 : 0 < S100x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8000x256 : S1x256.Broadcasts S8000x256
  inb_S8000x256_S8000x256_0_0 : ∀ a, (![0, 0] : Fin 2 → Nat) a + S8000x256.size a ≤ S8000x256.size a
  h_S8000x256 : 0 < S8000x256.numel
  inb_S5000x256_S5000x256_0_0 : ∀ a, (![0, 0] : Fin 2 → Nat) a + S5000x256.size a ≤ S5000x256.size a
  h_S5000x256 : 0 < S5000x256.numel
  inb_S256x256_S256x256_0_0 : ∀ a, (![0, 0] : Fin 2 → Nat) a + S256x256.size a ≤ S256x256.size a
  h_S256x256 : 0 < S256x256.numel
  broadcasts_S1x256_S5000x256 : S1x256.Broadcasts S5000x256
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x256 : S_.BroadcastsInDim S100000x256 (![] : Fin 0 → Fin S100000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S5x256x256_S1x256x256_0_0_0 : ∀ a, (![0, 0, 0] : Fin 3 → Nat) a + S1x256x256.size a ≤ S5x256x256.size a
  h_S1x256x256 : 0 < S1x256x256.numel
  shapeCasts_S1x256x256_S256x256 : S1x256x256.ShapeCasts S256x256
  inb_S5x256_S1x256_0_0 : ∀ a, (![0, 0] : Fin 2 → Nat) a + S1x256.size a ≤ S5x256.size a
  shapeCasts_S1x256_S256 : S1x256.ShapeCasts S256
  broadcasts_S1x256_S2000x256 : S1x256.Broadcasts S2000x256
  inb_S5x256x256_S1x256x256_1_0_0 : ∀ a, (![1, 0, 0] : Fin 3 → Nat) a + S1x256x256.size a ≤ S5x256x256.size a
  inb_S5x256_S1x256_1_0 : ∀ a, (![1, 0] : Fin 2 → Nat) a + S1x256.size a ≤ S5x256.size a
  inb_S5x256x256_S1x256x256_2_0_0 : ∀ a, (![2, 0, 0] : Fin 3 → Nat) a + S1x256x256.size a ≤ S5x256x256.size a
  inb_S5x256_S1x256_2_0 : ∀ a, (![2, 0] : Fin 2 → Nat) a + S1x256.size a ≤ S5x256.size a
  inb_S5x256x256_S1x256x256_3_0_0 : ∀ a, (![3, 0, 0] : Fin 3 → Nat) a + S1x256x256.size a ≤ S5x256x256.size a
  inb_S5x256_S1x256_3_0 : ∀ a, (![3, 0] : Fin 2 → Nat) a + S1x256.size a ≤ S5x256.size a
  inb_S5x256x256_S1x256x256_4_0_0 : ∀ a, (![4, 0, 0] : Fin 3 → Nat) a + S1x256x256.size a ≤ S5x256x256.size a
  inb_S5x256_S1x256_4_0 : ∀ a, (![4, 0] : Fin 2 → Nat) a + S1x256.size a ≤ S5x256.size a
  dot_S8000x100_S100x256_S8000x256_1_0_0_1_n_n_wf : DotDims.WF S8000x100 S100x256 S8000x256 [1] [0] [0] [1] [] []
  dot_S5000x256_S256x256_S5000x256_1_0_0_1_n_n_wf : DotDims.WF S5000x256 S256x256 S5000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x100.size a ≤ S800000x100.size a
  hwx0_0 : ∀ i : grid0.Coords, EltTy.bits .f32 = 32 ∨ (Rect.block (s := S800000x100) S8000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x256.size a ≤ S100x256.size a
  hwx0_1 : ∀ i : grid0.Coords, EltTy.bits .f32 = 32 ∨ (Rect.block (s := S100x256) S100x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x256.size a ≤ S800000x256.size a
  hwx0_3 : ∀ i : grid0.Coords, EltTy.bits .f32 = 32 ∨ (Rect.block (s := S800000x256) S8000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S100000x256.size a
  hwx1_3 : ∀ i : grid1.Coords, EltTy.bits .f32 = 32 ∨ (Rect.block (s := S100000x256) S5000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S100000x256.size a
  hwx2_1 : ∀ i : grid2.Coords, EltTy.bits .f32 = 32 ∨ (Rect.block (s := S100000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S5x256x256.size a ≤ S5x256x256.size a
  hwx2_2 : ∀ i : grid2.Coords, EltTy.bits .f32 = 32 ∨ (Rect.block (s := S5x256x256) S5x256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S5x256.size a ≤ S5x256.size a
  hwx2_3 : ∀ i : grid2.Coords, EltTy.bits .f32 = 32 ∨ (Rect.block (s := S5x256) S5x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S5x256x256.size a ≤ S5x256x256.size a
  hwx2_4 : ∀ i : grid2.Coords, EltTy.bits .f32 = 32 ∨ (Rect.block (s := S5x256x256) S5x256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S5x256.size a ≤ S5x256.size a
  hwx2_5 : ∀ i : grid2.Coords, EltTy.bits .f32 = 32 ∨ (Rect.block (s := S5x256) S5x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x256.size a ≤ S256x256.size a
  hwx2_6 : ∀ i : grid2.Coords, EltTy.bits .f32 = 32 ∨ (Rect.block (s := S256x256) S256x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .f32 = 32 ∨ (Rect.block (s := S1x256) S1x256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S5x256x256.size a ≤ S5x256x256.size a
  hwx2_9 : ∀ i : grid2.Coords, EltTy.bits .f32 = 32 ∨ (Rect.block (s := S5x256x256) S5x256x256.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S5x256.size a ≤ S5x256.size a
  hwx2_10 : ∀ i : grid2.Coords, EltTy.bits .f32 = 32 ∨ (Rect.block (s := S5x256) S5x256.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S5x256x256.size a ≤ S5x256x256.size a
  hwx2_11 : ∀ i : grid2.Coords, EltTy.bits .f32 = 32 ∨ (Rect.block (s := S5x256x256) S5x256x256.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S5x256.size a ≤ S5x256.size a
  hwx2_12 : ∀ i : grid2.Coords, EltTy.bits .f32 = 32 ∨ (Rect.block (s := S5x256) S5x256.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S2000x256.size a ≤ S100000x256.size a
  hwx2_13 : ∀ i : grid2.Coords, EltTy.bits .f32 = 32 ∨ (Rect.block (s := S100000x256) S2000x256.size (cc2_transform_13 i) (hinb2_13 i)).WholeWords (EltTy.packing .f32)

variable [Facts₀]

def dot_S8000x100_S100x256_S8000x256_1_0_0_1_n_n : DotDims S8000x100 S100x256 S8000x256 where
  lhsContracting := [1]
  rhsContracting := [0]
  lhsNonContracting := [0]
  rhsNonContracting := [1]
  lhsBatch := []
  rhsBatch := []
  wf := dot_S8000x100_S100x256_S8000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg3) S8000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S100x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v18) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S5x256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S5x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S5x256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S5x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg13) S256x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v20) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v19) S1x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg16) S5x256x256.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg17) S5x256.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg18) S5x256x256.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg19) S5x256.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v21) S2000x256.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x800000 : Shape := ⟨2, ![2, 800000]⟩
abbrev S800000 : Shape := ⟨1, ![800000]⟩
abbrev S800000x100 : Shape := ⟨2, ![800000, 100]⟩
abbrev S100000 : Shape := ⟨1, ![100000]⟩
abbrev S100x256 : Shape := ⟨2, ![100, 256]⟩
abbrev S256 : Shape := ⟨1, ![256]⟩
abbrev S256x256 : Shape := ⟨2, ![256, 256]⟩
abbrev S5x256x256 : Shape := ⟨3, ![5, 256, 256]⟩
abbrev S5x256 : Shape := ⟨2, ![5, 256]⟩
abbrev S1x800000 : Shape := ⟨2, ![1, 800000]⟩
abbrev S800000x256 : Shape := ⟨2, ![800000, 256]⟩
abbrev S1x256 : Shape := ⟨2, ![1, 256]⟩
abbrev S_ : Shape := ⟨0, ![]⟩
abbrev S800000x1 : Shape := ⟨2, ![800000, 1]⟩
abbrev S1x256x256 : Shape := ⟨3, ![1, 256, 256]⟩

abbrev nBuf : Space → Nat
  | .hbm => 224
  | .vmem => 0
  | .smem => 0
  | _ => 0

abbrev hbmTy0_0 (i : Nat) : BufTy := match i % 128 with
  | 0 => ⟨S100000x256, .f32⟩
  | 1 => ⟨S2x800000, .i32⟩
  | 2 => ⟨S800000, .f32⟩
  | 3 => ⟨S800000x100, .f32⟩
  | 4 => ⟨S100000, .i32⟩
  | 5 => ⟨S100x256, .f32⟩
  | 6 => ⟨S256, .f32⟩
  | 7 => ⟨S256x256, .f32⟩
  | 8 => ⟨S256, .f32⟩
  | 9 => ⟨S5x256x256, .f32⟩
  | 10 => ⟨S5x256, .f32⟩
  | 11 => ⟨S5x256x256, .f32⟩
  | 12 => ⟨S5x256, .f32⟩
  | 13 => ⟨S256x256, .f32⟩
  | 14 => ⟨S256, .f32⟩
  | 15 => ⟨S256, .f32⟩
  | 16 => ⟨S5x256x256, .f32⟩
  | 17 => ⟨S5x256, .f32⟩
  | 18 => ⟨S5x256x256, .f32⟩
  | 19 => ⟨S5x256, .f32⟩
  | 20 => ⟨S1x800000, .i32⟩
  | 21 => ⟨S800000, .i32⟩
  | 22 => ⟨S1x800000, .i32⟩
  | 23 => ⟨S800000, .i32⟩
  | 24 => ⟨S800000x256, .f32⟩
  | 25 => ⟨S1x256, .f32⟩
  | 26 => ⟨S800000x256, .f32⟩
  | 27 => ⟨S800000x256, .f32⟩
  | 28 => ⟨S100000x256, .f32⟩
  | 29 => ⟨S1x256, .f32⟩
  | 30 => ⟨S100000x256, .f32⟩
  | 31 => ⟨S100000x256, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x256, .f32⟩
  | 41 => ⟨S800000x256, .f32⟩
  | 42 => ⟨S_, .f32⟩
  | 43 => ⟨S100000x256, .f32⟩
  | 44 => ⟨S800000x1, .i32⟩
  | 45 => ⟨S100000x256, .f32⟩
  | 46 => ⟨S1x256x256, .f32⟩
  | 47 => ⟨S256x256, .f32⟩
  | 48 => ⟨S100000x256, .f32⟩
  | 49 => ⟨S1x256, .f32⟩
  | 50 => ⟨S256, .f32⟩
  | 51 => ⟨S1x256, .f32⟩
  | 52 => ⟨S100000x256, .f32⟩
  | 53 => ⟨S100000x256, .f32⟩
  | 54 => ⟨S1x256x256, .f32⟩
  | 55 => ⟨S256x256, .f32⟩
  | 56 => ⟨S100000x256, .f32⟩
  | 57 => ⟨S100000x256, .f32⟩
  | 58 => ⟨S1x256, .f32⟩
  | 59 => ⟨S256, .f32⟩
  | 60 => ⟨S1x256, .f32⟩
  | 61 => ⟨S100000x256, .f32⟩
  | 62 => ⟨S100000x256, .f32⟩
  | 63 => ⟨S1x256x256, .f32⟩
  | 64 => ⟨S256x256, .f32⟩
  | 65 => ⟨S100000x256, .f32⟩
  | 66 => ⟨S1x256, .f32⟩
  | 67 => ⟨S256, .f32⟩
  | 68 => ⟨S1x256, .f32⟩
  | 69 => ⟨S100000x256, .f32⟩
  | 70 => ⟨S100000x256, .f32⟩
  | 71 => ⟨S1x256x256, .f32⟩
  | 72 => ⟨S256x256, .f32⟩
  | 73 => ⟨S100000x256, .f32⟩
  | 74 => ⟨S100000x256, .f32⟩
  | 75 => ⟨S1x256, .f32⟩
  | 76 => ⟨S256, .f32⟩
  | 77 => ⟨S1x256, .f32⟩
  | 78 => ⟨S100000x256, .f32⟩
  | 79 => ⟨S100000x256, .f32⟩
  | 80 => ⟨S1x256x256, .f32⟩
  | 81 => ⟨S256x256, .f32⟩
  | 82 => ⟨S100000x256, .f32⟩
  | 83 => ⟨S1x256, .f32⟩
  | 84 => ⟨S256, .f32⟩
  | 85 => ⟨S1x256, .f32⟩
  | 86 => ⟨S100000x256, .f32⟩
  | 87 => ⟨S100000x256, .f32⟩
  | 88 => ⟨S1x256x256, .f32⟩
  | 89 => ⟨S256x256, .f32⟩
  | 90 => ⟨S100000x256, .f32⟩
  | 91 => ⟨S100000x256, .f32⟩
  | 92 => ⟨S1x256, .f32⟩
  | 93 => ⟨S256, .f32⟩
  | 94 => ⟨S1x256, .f32⟩
  | 95 => ⟨S100000x256, .f32⟩
  | 96 => ⟨S100000x256, .f32⟩
  | 97 => ⟨S1x256x256, .f32⟩
  | 98 => ⟨S256x256, .f32⟩
  | 99 => ⟨S100000x256, .f32⟩
  | 100 => ⟨S1x256, .f32⟩
  | 101 => ⟨S256, .f32⟩
  | 102 => ⟨S1x256, .f32⟩
  | 103 => ⟨S100000x256, .f32⟩
  | 104 => ⟨S100000x256, .f32⟩
  | 105 => ⟨S1x256x256, .f32⟩
  | 106 => ⟨S256x256, .f32⟩
  | 107 => ⟨S100000x256, .f32⟩
  | 108 => ⟨S100000x256, .f32⟩
  | 109 => ⟨S1x256, .f32⟩
  | 110 => ⟨S256, .f32⟩
  | 111 => ⟨S1x256, .f32⟩
  | 112 => ⟨S100000x256, .f32⟩
  | 113 => ⟨S100000x256, .f32⟩
  | 114 => ⟨S1x256x256, .f32⟩
  | 115 => ⟨S256x256, .f32⟩
  | 116 => ⟨S100000x256, .f32⟩
  | 117 => ⟨S1x256, .f32⟩
  | 118 => ⟨S256, .f32⟩
  | 119 => ⟨S1x256, .f32⟩
  | 120 => ⟨S100000x256, .f32⟩
  | 121 => ⟨S100000x256, .f32⟩
  | 122 => ⟨S1x256x256, .f32⟩
  | 123 => ⟨S256x256, .f32⟩
  | 124 => ⟨S100000x256, .f32⟩
  | 125 => ⟨S100000x256, .f32⟩
  | 126 => ⟨S1x256, .f32⟩
  | 127 => ⟨S256, .f32⟩
  | _ => ⟨S100000x256, .f32⟩

abbrev hbmTy0_1 (i : Nat) : BufTy := match i % 128 with
  | 0 => ⟨S1x256, .f32⟩
  | 1 => ⟨S100000x256, .f32⟩
  | 2 => ⟨S100000x256, .f32⟩
  | 3 => ⟨S1x256, .f32⟩
  | 4 => ⟨S100000x256, .f32⟩
  | 5 => ⟨S100000x256, .f32⟩
  | 6 => ⟨S100000x256, .f32⟩
  | 7 => ⟨S1x256, .f32⟩
  | 8 => ⟨S100000x256, .f32⟩
  | 9 => ⟨S100000x256, .f32⟩
  | 10 => ⟨S100000x256, .f32⟩
  | 11 => ⟨S1x256x256, .f32⟩
  | 12 => ⟨S256x256, .f32⟩
  | 13 => ⟨S100000x256, .f32⟩
  | 14 => ⟨S1x256, .f32⟩
  | 15 => ⟨S256, .f32⟩
  | 16 => ⟨S1x256, .f32⟩
  | 17 => ⟨S100000x256, .f32⟩
  | 18 => ⟨S100000x256, .f32⟩
  | 19 => ⟨S1x256x256, .f32⟩
  | 20 => ⟨S256x256, .f32⟩
  | 21 => ⟨S100000x256, .f32⟩
  | 22 => ⟨S100000x256, .f32⟩
  | 23 => ⟨S1x256, .f32⟩
  | 24 => ⟨S256, .f32⟩
  | 25 => ⟨S1x256, .f32⟩
  | 26 => ⟨S100000x256, .f32⟩
  | 27 => ⟨S100000x256, .f32⟩
  | 28 => ⟨S1x256x256, .f32⟩
  | 29 => ⟨S256x256, .f32⟩
  | 30 => ⟨S100000x256, .f32⟩
  | 31 => ⟨S1x256, .f32⟩
  | 32 => ⟨S256, .f32⟩
  | 33 => ⟨S1x256, .f32⟩
  | 34 => ⟨S100000x256, .f32⟩
  | 35 => ⟨S100000x256, .f32⟩
  | 36 => ⟨S1x256x256, .f32⟩
  | 37 => ⟨S256x256, .f32⟩
  | 38 => ⟨S100000x256, .f32⟩
  | 39 => ⟨S100000x256, .f32⟩
  | 40 => ⟨S1x256, .f32⟩
  | 41 => ⟨S256, .f32⟩
  | 42 => ⟨S1x256, .f32⟩
  | 43 => ⟨S100000x256, .f32⟩
  | 44 => ⟨S100000x256, .f32⟩
  | 45 => ⟨S1x256x256, .f32⟩
  | 46 => ⟨S256x256, .f32⟩
  | 47 => ⟨S100000x256, .f32⟩
  | 48 => ⟨S1x256, .f32⟩
  | 49 => ⟨S256, .f32⟩
  | 50 => ⟨S1x256, .f32⟩
  | 51 => ⟨S100000x256, .f32⟩
  | 52 => ⟨S100000x256, .f32⟩
  | 53 => ⟨S1x256x256, .f32⟩
  | 54 => ⟨S256x256, .f32⟩
  | 55 => ⟨S100000x256, .f32⟩
  | 56 => ⟨S100000x256, .f32⟩
  | 57 => ⟨S1x256, .f32⟩
  | 58 => ⟨S256, .f32⟩
  | 59 => ⟨S1x256, .f32⟩
  | 60 => ⟨S100000x256, .f32⟩
  | 61 => ⟨S100000x256, .f32⟩
  | 62 => ⟨S1x256x256, .f32⟩
  | 63 => ⟨S256x256, .f32⟩
  | 64 => ⟨S100000x256, .f32⟩
  | 65 => ⟨S1x256, .f32⟩
  | 66 => ⟨S256, .f32⟩
  | 67 => ⟨S1x256, .f32⟩
  | 68 => ⟨S100000x256, .f32⟩
  | 69 => ⟨S100000x256, .f32⟩
  | 70 => ⟨S1x256x256, .f32⟩
  | 71 => ⟨S256x256, .f32⟩
  | 72 => ⟨S100000x256, .f32⟩
  | 73 => ⟨S100000x256, .f32⟩
  | 74 => ⟨S1x256, .f32⟩
  | 75 => ⟨S256, .f32⟩
  | 76 => ⟨S1x256, .f32⟩
  | 77 => ⟨S100000x256, .f32⟩
  | 78 => ⟨S100000x256, .f32⟩
  | 79 => ⟨S1x256x256, .f32⟩
  | 80 => ⟨S256x256, .f32⟩
  | 81 => ⟨S100000x256, .f32⟩
  | 82 => ⟨S1x256, .f32⟩
  | 83 => ⟨S256, .f32⟩
  | 84 => ⟨S1x256, .f32⟩
  | 85 => ⟨S100000x256, .f32⟩
  | 86 => ⟨S100000x256, .f32⟩
  | 87 => ⟨S1x256x256, .f32⟩
  | 88 => ⟨S256x256, .f32⟩
  | 89 => ⟨S100000x256, .f32⟩
  | 90 => ⟨S100000x256, .f32⟩
  | 91 => ⟨S1x256, .f32⟩
  | 92 => ⟨S256, .f32⟩
  | 93 => ⟨S1x256, .f32⟩
  | 94 => ⟨S100000x256, .f32⟩
  | 95 => ⟨S100000x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S1x256_S100000x256_0_1 : S1x256.BroadcastsInDim S100000x256 (![0, 1] : Fin 2 → Fin S100000x256.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S100000x256 : S_.BroadcastsInDim S100000x256 (![] : Fin 0 → Fin S100000x256.rank)
  slices_S5x256x256_S1x256x256_0_0_0 : S5x256x256.Slices ![0, 0, 0] S1x256x256
  shapeCasts_S1x256x256_S256x256 : S1x256x256.ShapeCasts S256x256
  slices_S5x256_S1x256_0_0 : S5x256.Slices ![0, 0] S1x256
  shapeCasts_S1x256_S256 : S1x256.ShapeCasts S256
  slices_S5x256x256_S1x256x256_1_0_0 : S5x256x256.Slices ![1, 0, 0] S1x256x256
  slices_S5x256_S1x256_1_0 : S5x256.Slices ![1, 0] S1x256
  slices_S5x256x256_S1x256x256_2_0_0 : S5x256x256.Slices ![2, 0, 0] S1x256x256
  slices_S5x256_S1x256_2_0 : S5x256.Slices ![2, 0] S1x256
  slices_S5x256x256_S1x256x256_3_0_0 : S5x256x256.Slices ![3, 0, 0] S1x256x256
  slices_S5x256_S1x256_3_0 : S5x256.Slices ![3, 0] S1x256
  slices_S5x256x256_S1x256x256_4_0_0 : S5x256x256.Slices ![4, 0, 0] S1x256x256
  slices_S5x256_S1x256_4_0 : S5x256.Slices ![4, 0] S1x256
  dot_S800000x100_S100x256_S800000x256_1_0_0_1_n_n_wf : DotDims.WF S800000x100 S100x256 S800000x256 [1] [0] [0] [1] [] []
  dot_S100000x256_S256x256_S100000x256_1_0_0_1_n_n_wf : DotDims.WF S100000x256 S256x256 S100000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1

variable [Facts₀]

def dot_S800000x100_S100x256_S800000x256_1_0_0_1_n_n : DotDims S800000x100 S100x256 S800000x256 where
  lhsContracting := [1]
  rhsContracting := [0]
  lhsNonContracting := [0]
  rhsNonContracting := [1]
  lhsBatch := []
  rhsBatch := []
  wf := dot_S800000x100_S100x256_S800000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf

class Facts : Prop extends Facts₀ where

variable [Facts]
-- ==== Proof.Spec.lean ====
/-
  The function both programs compute, written over rows and coordinates on the extended reals.

  A node's feature row `v : Fin 256 → EReal` goes through affine maps `v ↦ v · W + b` (`aff`), residual layers
  `v ↦ v + ((v · W₁ + b₁) · W₂ + b₂)` (`res`), a stack of five of them (`stack`), and the combination
  `u ⊙ h + (m · W_out + b_out)` (`combine`); `xrow` is the whole chain on one node: the first stack on the aggregated
  message row `m`, the combination with the node's own row `h`, then the second stack. Every step acts on ONE row:
  row `i` of the result depends on row `i` of `m` and of `h` only, which is why a block of rows of the result is the
  same function of the same block of rows of the operands. `proj` is a plain matrix product with a bias added to every
  row, the form of both projections (edge attributes to features, node features to messages).
-/
import Idealize.ShloMosaic.Lib.ValueIdx
import Idealize.ShloMosaic.PureOps.Ideal

noncomputable section

open scoped BigOperators

namespace Cert.Spec

open Idealize.ShloMosaic Idealize.ShloMosaic.ValueIdx

abbrev Row := Fin 256 → EReal
abbrev Mat := Fin 256 → Fin 256 → EReal

/-- `v · W + b` for one row `v`: entry `j` is `Σ_k v k · W k j + b j`. -/
def aff {K N : ℕ} (W : Fin K → Fin N → EReal) (b : Fin N → EReal) (v : Fin K → EReal) : Fin N → EReal :=
  fun j => (∑ k : Fin K, v k * W k j) + b j

/-- One residual layer on a row: `v + ((v · W₁ + b₁) · W₂ + b₂)`. -/
def res (W1 : Mat) (b1 : Row) (W2 : Mat) (b2 : Row) (v : Row) : Row :=
  fun j => v j + aff W2 b2 (aff W1 b1 v) j

/-- Five residual layers, layer 0 first. -/
def stack (W1 : Fin 5 → Mat) (b1 : Fin 5 → Row) (W2 : Fin 5 → Mat) (b2 : Fin 5 → Row) (v : Row) : Row :=
  res (W1 4) (b1 4) (W2 4) (b2 4) (res (W1 3) (b1 3) (W2 3) (b2 3) (res (W1 2) (b1 2) (W2 2) (b2 2)
    (res (W1 1) (b1 1) (W2 1) (b2 1) (res (W1 0) (b1 0) (W2 0) (b2 0) v))))

/-- `u ⊙ h + (m · W_out + b_out)` on rows. -/
def combine (Wo : Mat) (bo u : Row) (m h : Row) : Row :=
  fun j => u j * h j + aff Wo bo m j

/-- The whole chain on one node: first stack on the message row, the combination with the node's row, second stack. -/
def xrow (rW1 : Fin 5 → Mat) (rb1 : Fin 5 → Row) (rW2 : Fin 5 → Mat) (rb2 : Fin 5 → Row) (Wo : Mat) (bo u : Row)
    (aW1 : Fin 5 → Mat) (ab1 : Fin 5 → Row) (aW2 : Fin 5 → Mat) (ab2 : Fin 5 → Row) (m h : Row) : Row :=
  stack aW1 ab1 aW2 ab2 (combine Wo bo u (stack rW1 rb1 rW2 rb2 m) h)

/-! ## Arrays read by coordinates -/

/-- An array of rank 2 given entry by entry. -/
def ofCoords2 {M N : ℕ} (f : Fin M → Fin N → EReal) : FVec Ideal ⟨2, ![M, N]⟩ .f32 := fun idx => f (idx 0) (idx 1)

theorem ofCoords2_ix2 {M N : ℕ} (f : Fin M → Fin N → EReal) (i : Fin M) (j : Fin N) : ofCoords2 f (ix2 i j) = f i j := rfl

/-- Row `i` of a matrix array. -/
def rowOf {M N : ℕ} (A : FVec Ideal ⟨2, ![M, N]⟩ .f32) (i : Fin M) : Fin N → EReal := fun k => A (ix2 i k)
/-- A matrix array by coordinates. -/
def matOf {K N : ℕ} (W : FVec Ideal ⟨2, ![K, N]⟩ .f32) : Fin K → Fin N → EReal := fun k j => W (ix2 k j)
/-- A vector array by its coordinate. -/
def vecOf {N : ℕ} (b : FVec Ideal ⟨1, ![N]⟩ .f32) : Fin N → EReal := fun j => b (ix1 j)
/-- The one row of a `[1, N]` array. -/
def row0 {N : ℕ} (b : FVec Ideal ⟨2, ![1, N]⟩ .f32) : Fin N → EReal := fun j => b (ix2 0 j)
/-- Matrix `l` of a stack of matrices `[L, K, N]`. -/
def layerMat {L K N : ℕ} (W : FVec Ideal ⟨3, ![L, K, N]⟩ .f32) (l : Fin L) : Fin K → Fin N → EReal := fun k j => W (ix3 l k j)
/-- Row `l` of a stack of vectors `[L, N]`. -/
def layerVec {L N : ℕ} (b : FVec Ideal ⟨2, ![L, N]⟩ .f32) (l : Fin L) : Fin N → EReal := fun j => b (ix2 l j)

/-- `A · W` with the bias row `b` added to every row. -/
def proj {M K N : ℕ} (A : FVec Ideal ⟨2, ![M, K]⟩ .f32) (W : FVec Ideal ⟨2, ![K, N]⟩ .f32) (b : Fin N → EReal) :
    FVec Ideal ⟨2, ![M, N]⟩ .f32 :=
  ofCoords2 fun i j => aff (matOf W) b (rowOf A i) j

/-- The chain applied to every row of `m` and `h` (any number of rows: a block of rows or the whole array). -/
def xOf {M : ℕ} (rW1 : Fin 5 → Mat) (rb1 : Fin 5 → Row) (rW2 : Fin 5 → Mat) (rb2 : Fin 5 → Row) (Wo : Mat) (bo u : Row)
    (aW1 : Fin 5 → Mat) (ab1 : Fin 5 → Row) (aW2 : Fin 5 → Mat) (ab2 : Fin 5 → Row)
    (m h : FVec Ideal ⟨2, ![M, 256]⟩ .f32) : FVec Ideal ⟨2, ![M, 256]⟩ .f32 :=
  ofCoords2 fun i j => xrow rW1 rb1 rW2 rb2 Wo bo u aW1 ab1 aW2 ab2 (rowOf m i) (rowOf h i) j

theorem proj_ix2 {M K N : ℕ} (A : FVec Ideal ⟨2, ![M, K]⟩ .f32) (W : FVec Ideal ⟨2, ![K, N]⟩ .f32) (b : Fin N → EReal)
    (i : Fin M) (j : Fin N) : proj A W b (ix2 i j) = (∑ k : Fin K, A (ix2 i k) * W (ix2 k j)) + b j := rfl

theorem xOf_ix2 {M : ℕ} (rW1 : Fin 5 → Mat) (rb1 : Fin 5 → Row) (rW2 : Fin 5 → Mat) (rb2 : Fin 5 → Row) (Wo : Mat) (bo u : Row)
    (aW1 : Fin 5 → Mat) (ab1 : Fin 5 → Row) (aW2 : Fin 5 → Mat) (ab2 : Fin 5 → Row)
    (m h : FVec Ideal ⟨2, ![M, 256]⟩ .f32) (i : Fin M) (j : Fin 256) :
    xOf rW1 rb1 rW2 rb2 Wo bo u aW1 ab1 aW2 ab2 m h (ix2 i j)
      = xrow rW1 rb1 rW2 rb2 Wo bo u aW1 ab1 aW2 ab2 (rowOf m i) (rowOf h i) j := rfl

/-- The reference adds the second bias after the skip connection, `(v + h₁ · W₂) + b₂`; the same row. -/
theorem res_assoc (W1 : Mat) (b1 : Row) (W2 : Mat) (b2 : Row) (v : Row) (j : Fin 256) :
    (v j + ∑ k : Fin 256, aff W1 b1 v k * W2 k j) + b2 j = res W1 b1 W2 b2 v j := by
  unfold res aff; exact add_assoc _ _ _

end Cert.Spec

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.ProjRegions.lean ====
/-
  The two projections, from blocks of rows to whole arrays.

  Each projection region walks a grid of row blocks: at point `t` it reads the block of rows
  `t · R … t · R + R - 1` of the left operand, the whole weight matrix and the whole one-row bias array,
  and writes the block of the same rows of the result, entry `(r, q)` of that block being
  `Σ_k x(r, k) · W(k, q) + b(0, q)`. Row `i` of the result therefore depends on row `i` of the left
  operand only, so the blocks written are the blocks of ONE array, `A · W` with the bias row added to
  every row; and since the blocks tile the rows (row `i` lies in block `i / R`), that array is what
  the result holds when the region ends, whatever the buffers held on entry.
-/
import proofs.«108374_j17257178595652_2_alg».proof.Proof.Gen.KernelIdeal.Frame
import proofs.«108374_j17257178595652_2_alg».proof.Proof.Spec
import proofs.«108374_j17257178595652_2_alg».proof.Proof.LibMatmulNN
import Idealize.ShloMosaic.Lib.Pipeline.Value
import Idealize.ShloMosaic.Lib.ValueIdx
import Idealize.ShloMosaic.Lib.ValueLayout

noncomputable section

open scoped BigOperators

namespace Cert.KernelIdeal.ProjValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-block access, as a constant function. -/
theorem zero_offsets : (![0, 0] : Fin 2 → Nat) = fun _ => 0 := funext fun a => by fin_cases a <;> rfl

/-! ## Region 0: edge attributes to features -/

/-- The body's stored value at `(r, q)`: row `r` of the left block against column `q` of the weights, plus the bias. -/
theorem pay0_apply (x0 : Vec Ideal S8000x100 .f32) (x1 : Vec Ideal S100x256 .f32) (x2 : Vec Ideal S1x256 .f32)
    (r : Fin 8000) (q : Fin 256) :
    k0_pay1 x0 x1 x2 (ix2 r q) = (∑ k : Fin 100, x0 (ix2 r k) * x1 (ix2 k q)) + x2 (ix2 0 q) := by
  unfold k0_pay1
  rw [addf_apply, Cert.LibMatmulNN.matmul_nn_apply _ rfl rfl rfl rfl rfl rfl, shapeCast_self,
    broadcastTo_apply x2 _ (ix2 r q) (ix2 0 q) (fun a => by match a with | ⟨0, _⟩ => rfl | ⟨1, _⟩ => rfl)]

/-- The blocks' index maps over the grid: the left operand's and the result's blocks are block `t` of the rows,
    the weights and the bias are read whole. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of a written block is the entry of `A · W + b` in the row of `A` that the block's row `r` is:
    for a left block `x0` whose row `r` is row `i` of `A`, the weights `W` and the bias array `B`. -/
theorem block0_entry (x0 : Vec Ideal S8000x100 .f32) (x1 : Vec Ideal S100x256 .f32) (x2 : Vec Ideal S1x256 .f32)
    (A : FVec Ideal S800000x100 .f32) (W : FVec Ideal S100x256 .f32) (B : FVec Ideal S1x256 .f32)
    (r : Fin 8000) (q : Fin 256) (i : Fin 800000)
    (hx0 : ∀ k : Fin 100, x0 (ix2 r k) = A (ix2 i k)) (hx1 : x1 = W) (hx2 : x2 = B) :
    k0_pay1 x0 x1 x2 (ix2 r q) = Cert.Spec.proj A W (Cert.Spec.row0 B) (ix2 i q) := by
  subst hx1 hx2
  rw [pay0_apply, Cert.Spec.proj_ix2]
  exact congrArg (· + x2 (ix2 0 q)) (Finset.sum_congr rfl fun k _ => by rw [hx0 k])

/-- What point `t` writes back is block `t` of `A · W + b` of the arrays the region finds: the left block's row `r`
    is row `8000 t + r` of `A`, where the result block's row `r` goes; the weights and the bias are read whole. -/
theorem flushed0 (c : Dev nD) (t : Fin cfg0.N) :
    (dat0 (F := Ideal) V c).flushed 3 t = ((cfg0.win 3).blk t).view.read (Elt Ideal)
      (Cert.Spec.proj (V c main_arg3 : FVec Ideal S800000x100 .f32) (V c main_arg5 : FVec Ideal S100x256 .f32) (Cert.Spec.row0 (V c main_v0 : FVec Ideal S1x256 .f32))) := by
  show (cfg0.win 3).cut (grid0.coords t) ((dat0 V c).after 3 t) = _
  rw [after0_3]
  unfold out0_3
  rw [View.canon_unit_zero zero_offsets]
  simp only [View.ld_unit_zero (S := S8000x100) zero_offsets, View.ld_unit_zero (S := S100x256) zero_offsets, View.ld_unit_zero (S := S1x256) zero_offsets]
  obtain ⟨e00, e01, e10, e11, e20, e21, e30, e31⟩ := index_maps0 t
  have ht : t.val < 100 := Nat.lt_of_lt_of_eq t.isLt N_0
  refine funext fun (j : S8000x256.Idx) => ?_
  obtain ⟨r, q, rfl⟩ : ∃ (r : Fin 8000) (q : Fin 256), j = ix2 r q := ⟨j 0, j 1, eq_ix2 j⟩
  have hr : r.val < 8000 := r.isLt
  show k0_pay1 (iblk0 V c 0 t) (iblk0 V c 1 t) (iblk0 V c 2 t) (ix2 r q)
    = Cert.Spec.proj (V c main_arg3 : FVec Ideal S800000x100 .f32) (V c main_arg5 : FVec Ideal S100x256 .f32) (Cert.Spec.row0 (V c main_v0 : FVec Ideal S1x256 .f32)) (((cfg0.win 3).blk t).view.emb (ix2 r q))
  have hi : ((cfg0.win 3).blk t).view.emb (ix2 r q) = ix2 (⟨t.val * 8000 + r.val, by omega⟩ : Fin 800000) q := by
    funext a; apply Fin.ext
    match a with
    | ⟨0, _⟩ => show win0_3.index t (0 : Fin 2) * 8000 + 1 * r.val = t.val * 8000 + r.val; omega
    | ⟨1, _⟩ => show win0_3.index t (1 : Fin 2) * 256 + 1 * q.val = q.val; omega
  refine (block0_entry (iblk0 V c 0 t) (iblk0 V c 1 t) (iblk0 V c 2 t) (V c main_arg3) (V c main_arg5) (V c main_v0) r q
    ⟨t.val * 8000 + r.val, by omega⟩ (fun k => ?_) ?_ ?_).trans (congrArg _ hi.symm)
  · show (V c main_arg3 : FVec Ideal S800000x100 .f32) (((cfg0.win 0).blk t).view.emb (ix2 r k)) = (V c main_arg3 : FVec Ideal S800000x100 .f32) (ix2 _ k)
    refine congrArg (V c main_arg3 : FVec Ideal S800000x100 .f32) (funext fun a => Fin.ext ?_)
    match a with
    | ⟨0, _⟩ => show win0_0.index t (0 : Fin 2) * 8000 + 1 * r.val = t.val * 8000 + r.val; omega
    | ⟨1, _⟩ => show win0_0.index t (1 : Fin 2) * 100 + 1 * k.val = k.val; omega
  · refine funext fun (y : S100x256.Idx) => ?_
    show (V c main_arg5 : FVec Ideal S100x256 .f32) (((cfg0.win 1).blk t).view.emb y) = (V c main_arg5 : FVec Ideal S100x256 .f32) y
    refine congrArg (V c main_arg5 : FVec Ideal S100x256 .f32) (funext fun a => Fin.ext ?_)
    match a with
    | ⟨0, _⟩ => show win0_1.index t (0 : Fin 2) * 100 + 1 * (y 0).val = (y 0).val; omega
    | ⟨1, _⟩ => show win0_1.index t (1 : Fin 2) * 256 + 1 * (y 1).val = (y 1).val; omega
  · refine funext fun (y : S1x256.Idx) => ?_
    show (V c main_v0 : FVec Ideal S1x256 .f32) (((cfg0.win 2).blk t).view.emb y) = (V c main_v0 : FVec Ideal S1x256 .f32) y
    refine congrArg (V c main_v0 : FVec Ideal S1x256 .f32) (funext fun a => Fin.ext ?_)
    match a with
    | ⟨0, _⟩ => show win0_2.index t (0 : Fin 2) * 1 + 1 * (y 0).val = (y 0).val; omega
    | ⟨1, _⟩ => show win0_2.index t (1 : Fin 2) * 256 + 1 * (y 1).val = (y 1).val; omega

/-- An index of the result lies in point `t`'s block iff each coordinate lies in the block's range on its axis. -/
theorem mem_block0 (t : Fin cfg0.N) (i : S800000x256.Idx) :
    i ∈ ((cfg0.win 3).blk t).view.set ↔ ∀ a : Fin 2, win0_3.index t a * S8000x256.size a ≤ (i a).val ∧ (i a).val < win0_3.index t a * S8000x256.size a + S8000x256.size a := by
  show i ∈ ((View.whole main_v1).slice (win0_3.rect t)).set ↔ _
  rw [View.set_slice_whole, Rect.mem_set_unit]
  exact Iff.rfl

/-- The blocks tile the rows: row `i` lies in the block of point `i / 8000`, which is written back. -/
theorem covered0 (i : S800000x256.Idx) :
    ∃ t : Fin cfg0.N, (cfg0.win 3).flush t = true ∧ i ∈ ((cfg0.win 3).blk t).view.set := by
  have hi0 : (i 0).val < 800000 := (i 0).isLt
  have hi1 : (i 1).val < 256 := (i 1).isLt
  have hN : cfg0.N = 100 := N_0
  let t : Fin cfg0.N := ⟨(i 0).val / 8000, by rw [hN]; omega⟩
  obtain ⟨-, -, -, -, -, -, e30, e31⟩ := index_maps0 t
  have e30' : win0_3.index t (0 : Fin 2) = (i 0).val / 8000 := e30
  refine ⟨t, flush0_3 t, ?_⟩
  rw [mem_block0]
  intro a
  match a with
  | ⟨0, _⟩ => show win0_3.index t (0 : Fin 2) * 8000 ≤ (i 0).val ∧ (i 0).val < win0_3.index t (0 : Fin 2) * 8000 + 8000; omega
  | ⟨1, _⟩ => show win0_3.index t (1 : Fin 2) * 256 ≤ (i 1).val ∧ (i 1).val < win0_3.index t (1 : Fin 2) * 256 + 256; omega

/-- Region 0's result array when the region ends: `edge_attr · W + b`, whatever the buffers held on entry. -/
theorem arr0 (c : Dev nD) :
    (Gen.dat0 (F := Ideal) V c).arrAt 3 cfg0.N
      = Cert.Spec.proj (V c main_arg3 : FVec Ideal S800000x100 .f32) (V c main_arg5 : FVec Ideal S100x256 .f32) (Cert.Spec.row0 (V c main_v0 : FVec Ideal S1x256 .f32)) :=
  (dat0 (F := Ideal) V c).arrAt_eq_of_cover 3 _ (fun t _ => flushed0 V c t) covered0

/-! ## Region 1: node features to messages -/

/-- The body's stored value at `(r, q)`: row `r` of the left block against column `q` of the weights, plus the bias. -/
theorem pay1_apply (x0 : Vec Ideal S5000x256 .f32) (x1 : Vec Ideal S256x256 .f32) (x2 : Vec Ideal S1x256 .f32)
    (r : Fin 5000) (q : Fin 256) :
    k1_pay1 x0 x1 x2 (ix2 r q) = (∑ k : Fin 256, x0 (ix2 r k) * x1 (ix2 k q)) + x2 (ix2 0 q) := by
  unfold k1_pay1
  rw [addf_apply, Cert.LibMatmulNN.matmul_nn_apply _ rfl rfl rfl rfl rfl rfl, shapeCast_self,
    broadcastTo_apply x2 _ (ix2 r q) (ix2 0 q) (fun a => by match a with | ⟨0, _⟩ => rfl | ⟨1, _⟩ => rfl)]

/-- The blocks' index maps over the grid: the left operand's and the result's blocks are block `t` of the rows,
    the weights and the bias are read whole. -/
theorem index_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of a written block is the entry of `A · W + b` in the row of `A` that the block's row `r` is:
    for a left block `x0` whose row `r` is row `i` of `A`, the weights `W` and the bias array `B`. -/
theorem block1_entry (x0 : Vec Ideal S5000x256 .f32) (x1 : Vec Ideal S256x256 .f32) (x2 : Vec Ideal S1x256 .f32)
    (A : FVec Ideal S100000x256 .f32) (W : FVec Ideal S256x256 .f32) (B : FVec Ideal S1x256 .f32)
    (r : Fin 5000) (q : Fin 256) (i : Fin 100000)
    (hx0 : ∀ k : Fin 256, x0 (ix2 r k) = A (ix2 i k)) (hx1 : x1 = W) (hx2 : x2 = B) :
    k1_pay1 x0 x1 x2 (ix2 r q) = Cert.Spec.proj A W (Cert.Spec.row0 B) (ix2 i q) := by
  subst hx1 hx2
  rw [pay1_apply, Cert.Spec.proj_ix2]
  exact congrArg (· + x2 (ix2 0 q)) (Finset.sum_congr rfl fun k _ => by rw [hx0 k])

/-- What point `t` writes back is block `t` of `A · W + b` of the arrays the region finds: the left block's row `r`
    is row `5000 t + r` of `A`, where the result block's row `r` goes; the weights and the bias are read whole. -/
theorem flushed1 (c : Dev nD) (t : Fin cfg1.N) :
    (dat1 (F := Ideal) V c).flushed 3 t = ((cfg1.win 3).blk t).view.read (Elt Ideal)
      (Cert.Spec.proj (V c main_arg0 : FVec Ideal S100000x256 .f32) (V c main_arg7 : FVec Ideal S256x256 .f32) (Cert.Spec.row0 (V c main_v2 : FVec Ideal S1x256 .f32))) := by
  show (cfg1.win 3).cut (grid1.coords t) ((dat1 V c).after 3 t) = _
  rw [after1_3]
  unfold out1_3
  rw [View.canon_unit_zero zero_offsets]
  simp only [View.ld_unit_zero (S := S5000x256) zero_offsets, View.ld_unit_zero (S := S256x256) zero_offsets, View.ld_unit_zero (S := S1x256) zero_offsets]
  obtain ⟨e00, e01, e10, e11, e20, e21, e30, e31⟩ := index_maps1 t
  have ht : t.val < 20 := Nat.lt_of_lt_of_eq t.isLt N_1
  refine funext fun (j : S5000x256.Idx) => ?_
  obtain ⟨r, q, rfl⟩ : ∃ (r : Fin 5000) (q : Fin 256), j = ix2 r q := ⟨j 0, j 1, eq_ix2 j⟩
  have hr : r.val < 5000 := r.isLt
  show k1_pay1 (iblk1 V c 0 t) (iblk1 V c 1 t) (iblk1 V c 2 t) (ix2 r q)
    = Cert.Spec.proj (V c main_arg0 : FVec Ideal S100000x256 .f32) (V c main_arg7 : FVec Ideal S256x256 .f32) (Cert.Spec.row0 (V c main_v2 : FVec Ideal S1x256 .f32)) (((cfg1.win 3).blk t).view.emb (ix2 r q))
  have hi : ((cfg1.win 3).blk t).view.emb (ix2 r q) = ix2 (⟨t.val * 5000 + r.val, by omega⟩ : Fin 100000) q := by
    funext a; apply Fin.ext
    match a with
    | ⟨0, _⟩ => show win1_3.index t (0 : Fin 2) * 5000 + 1 * r.val = t.val * 5000 + r.val; omega
    | ⟨1, _⟩ => show win1_3.index t (1 : Fin 2) * 256 + 1 * q.val = q.val; omega
  refine (block1_entry (iblk1 V c 0 t) (iblk1 V c 1 t) (iblk1 V c 2 t) (V c main_arg0) (V c main_arg7) (V c main_v2) r q
    ⟨t.val * 5000 + r.val, by omega⟩ (fun k => ?_) ?_ ?_).trans (congrArg _ hi.symm)
  · show (V c main_arg0 : FVec Ideal S100000x256 .f32) (((cfg1.win 0).blk t).view.emb (ix2 r k)) = (V c main_arg0 : FVec Ideal S100000x256 .f32) (ix2 _ k)
    refine congrArg (V c main_arg0 : FVec Ideal S100000x256 .f32) (funext fun a => Fin.ext ?_)
    match a with
    | ⟨0, _⟩ => show win1_0.index t (0 : Fin 2) * 5000 + 1 * r.val = t.val * 5000 + r.val; omega
    | ⟨1, _⟩ => show win1_0.index t (1 : Fin 2) * 256 + 1 * k.val = k.val; omega
  · refine funext fun (y : S256x256.Idx) => ?_
    show (V c main_arg7 : FVec Ideal S256x256 .f32) (((cfg1.win 1).blk t).view.emb y) = (V c main_arg7 : FVec Ideal S256x256 .f32) y
    refine congrArg (V c main_arg7 : FVec Ideal S256x256 .f32) (funext fun a => Fin.ext ?_)
    match a with
    | ⟨0, _⟩ => show win1_1.index t (0 : Fin 2) * 256 + 1 * (y 0).val = (y 0).val; omega
    | ⟨1, _⟩ => show win1_1.index t (1 : Fin 2) * 256 + 1 * (y 1).val = (y 1).val; omega
  · refine funext fun (y : S1x256.Idx) => ?_
    show (V c main_v2 : FVec Ideal S1x256 .f32) (((cfg1.win 2).blk t).view.emb y) = (V c main_v2 : FVec Ideal S1x256 .f32) y
    refine congrArg (V c main_v2 : FVec Ideal S1x256 .f32) (funext fun a => Fin.ext ?_)
    match a with
    | ⟨0, _⟩ => show win1_2.index t (0 : Fin 2) * 1 + 1 * (y 0).val = (y 0).val; omega
    | ⟨1, _⟩ => show win1_2.index t (1 : Fin 2) * 256 + 1 * (y 1).val = (y 1).val; omega

/-- An index of the result lies in point `t`'s block iff each coordinate lies in the block's range on its axis. -/
theorem mem_block1 (t : Fin cfg1.N) (i : S100000x256.Idx) :
    i ∈ ((cfg1.win 3).blk t).view.set ↔ ∀ a : Fin 2, win1_3.index t a * S5000x256.size a ≤ (i a).val ∧ (i a).val < win1_3.index t a * S5000x256.size a + S5000x256.size a := by
  show i ∈ ((View.whole main_v3).slice (win1_3.rect t)).set ↔ _
  rw [View.set_slice_whole, Rect.mem_set_unit]
  exact Iff.rfl

/-- The blocks tile the rows: row `i` lies in the block of point `i / 5000`, which is written back. -/
theorem covered1 (i : S100000x256.Idx) :
    ∃ t : Fin cfg1.N, (cfg1.win 3).flush t = true ∧ i ∈ ((cfg1.win 3).blk t).view.set := by
  have hi0 : (i 0).val < 100000 := (i 0).isLt
  have hi1 : (i 1).val < 256 := (i 1).isLt
  have hN : cfg1.N = 20 := N_1
  let t : Fin cfg1.N := ⟨(i 0).val / 5000, by rw [hN]; omega⟩
  obtain ⟨-, -, -, -, -, -, e30, e31⟩ := index_maps1 t
  have e30' : win1_3.index t (0 : Fin 2) = (i 0).val / 5000 := e30
  refine ⟨t, flush1_3 t, ?_⟩
  rw [mem_block1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 256 ≤ (i 1).val ∧ (i 1).val < win1_3.index t (1 : Fin 2) * 256 + 256; omega

/-- Region 1's result array when the region ends: `h · W + b`, whatever the buffers held on entry. -/
theorem arr1 (c : Dev nD) :
    (Gen.dat1 (F := Ideal) V c).arrAt 3 cfg1.N
      = Cert.Spec.proj (V c main_arg0 : FVec Ideal S100000x256 .f32) (V c main_arg7 : FVec Ideal S256x256 .f32) (Cert.Spec.row0 (V c main_v2 : FVec Ideal S1x256 .f32)) :=
  (dat1 (F := Ideal) V c).arrAt_eq_of_cover 3 _ (fun t _ => flushed1 V c t) covered1

end Cert.KernelIdeal.ProjValue

end
-- ==== Proof.FusedPayload.lean ====
/-
  The fused body on a block of 2000 rows is the specification's chain on every row.

  The body holds a block `m` of aggregated message rows and a block `h` of node rows, and computes, row by row,
  five residual layers `v ↦ v + ((v · W₁ + b₁) · W₂ + b₂)` on `m`, the combination `u ⊙ h + (m' · W_out + b_out)`,
  and five more residual layers. Each weight matrix is one `[1, 256, 256]` slab of a stack of five, each bias one
  `[1, 256]` row of a stack of five; a bias row is repeated over the 2000 rows before it is added. Every operation
  acts on the rows independently: a product of a block by a matrix multiplies each row by the matrix, a repeated bias
  adds the same row to each row, sums and products of blocks are taken entrywise. So a block given by its rows
  (`ofCoords2 f`, row `r` being `f r`) is carried to a block given by its rows, and the chain of operations is the
  chain of row functions `Spec.aff`, `Spec.res`, `Spec.combine`.

  The block that is written back is a composition of fourteen pieces whose boundaries fall inside layers (a piece may
  end on a product whose bias and skip connection the next piece adds). Each piece is read by rows, with the half layer
  an operand block carries named in the hypothesis, so that the composition closes layer by layer. No algebraic law of
  the extended reals is used: the kernel groups every layer as `v + ((·) + b₂)`, which is the specification's grouping.
-/
import proofs.«108374_j17257178595652_2_alg».proof.Proof.Gen.KernelIdeal.Frame
import proofs.«108374_j17257178595652_2_alg».proof.Proof.Spec
import proofs.«108374_j17257178595652_2_alg».proof.Proof.LibMatmulNN
import Idealize.ShloMosaic.Lib.Pipeline.Value
import Idealize.ShloMosaic.Lib.ValueIdx
import Idealize.ShloMosaic.Lib.ValueLayout

noncomputable section

open scoped BigOperators

namespace Cert.KernelIdeal.FusedValue

open Idealize.ShloMosaic Idealize.ShloMosaic.ValueIdx
open Cert.KernelIdeal Cert.KernelIdeal.Gen Cert.Spec

/-- A block of 2000 feature rows. -/
abbrev Blk := FVec Ideal S2000x256 .f32

/-- The matrix held by a `[1, 256, 256]` slab: entry `(i, j)` is the slab at `(0, i, j)`. -/
def slabMat (w : FVec Ideal S1x256x256 .f32) : Mat := fun i j => w (ix3 0 i j)

/-- `v · W` for one row, without a bias: entry `j` is `Σ_k v k · W k j`. -/
def lin (W : Mat) (v : Row) : Row := fun j => ∑ k : Fin 256, v k * W k j

theorem aff_eq_lin (W : Mat) (b v : Row) (j : Fin 256) : aff W b v j = lin W v j + b j := rfl

/-- A block is the array of its rows. -/
theorem blk_eq_rows (v : Blk) : v = ofCoords2 (fun r => rowOf v r) := by
  funext idx
  obtain ⟨r, c, rfl⟩ : ∃ (r : Fin 2000) (c : Fin 256), idx = ix2 r c := ⟨idx 0, idx 1, eq_ix2 idx⟩
  rfl

/-- Two blocks with the same rows are equal. -/
theorem blk_ext {v : Blk} {g : Fin 2000 → Row} (h : ∀ r c, v (ix2 r c) = g r c) : v = ofCoords2 g := by
  funext idx
  obtain ⟨r, c, rfl⟩ : ∃ (r : Fin 2000) (c : Fin 256), idx = ix2 r c := ⟨idx 0, idx 1, eq_ix2 idx⟩
  exact h r c

/-! ## Loads through the slab and row rectangles -/

/-- Slab `k` of a stack of five matrices, loaded as a `[1, 256, 256]` rectangle at offset `(k, 0, 0)`, holds matrix `k`. -/
theorem slab_ld (x : Vec Ideal S5x256x256 .f32) (k : Fin 5) (off : Fin 3 → ℕ) (hoff : off = ![k.val, 0, 0])
    (inb : ∀ a, off a + S1x256x256.size a ≤ S5x256x256.size a) :
    slabMat (View.ld (Val := Elt Ideal) (e' := .f32) x (Rect.unit (s := S5x256x256) off S1x256x256.size inb)) = layerMat x k := by
  subst hoff
  funext i j
  show x _ = x _
  refine congrArg x (funext fun a => Fin.ext ?_)
  match a with
  | ⟨0, _⟩ => show k.val + 1 * 0 = k.val; omega
  | ⟨1, _⟩ => show 0 + 1 * i.val = i.val; omega
  | ⟨2, _⟩ => show 0 + 1 * j.val = j.val; omega

/-- Row `k` of a stack of five bias rows, loaded as a `[1, 256]` rectangle at offset `(k, 0)`, is bias `k`. -/
theorem row_ld (x : Vec Ideal S5x256 .f32) (k : Fin 5) (off : Fin 2 → ℕ) (hoff : off = ![k.val, 0])
    (inb : ∀ a, off a + S1x256.size a ≤ S5x256.size a) :
    row0 (View.ld (Val := Elt Ideal) (e' := .f32) x (Rect.unit (s := S5x256) off S1x256.size inb)) = layerVec x k := by
  subst hoff
  funext j
  show x _ = x _
  refine congrArg x (funext fun a => Fin.ext ?_)
  match a with
  | ⟨0, _⟩ => show k.val + 1 * 0 = k.val; omega
  | ⟨1, _⟩ => show 0 + 1 * j.val = j.val; omega

/-! ## The layout operations of a layer, at an index -/

/-- A slab viewed as a `[256, 256]` matrix reads the slab's matrix. -/
theorem sc_slab (w : FVec Ideal S1x256x256 .f32) (h : S1x256x256.ShapeCasts S256x256) (i j : Fin 256) :
    shapeCast S256x256 w h (ix2 i j) = slabMat w i j :=
  shapeCast_1ab_ab_apply w h i j

/-- A bias `[1, 256]` flattened, restored and repeated over the 2000 rows reads the bias at the column. -/
theorem bias_apply (b : FVec Ideal S1x256 .f32) (h1 : S1x256.ShapeCasts S256) (h2 : S256.ShapeCasts S1x256)
    (h3 : S1x256.Broadcasts S2000x256) (r : Fin 2000) (c : Fin 256) :
    broadcastTo S2000x256 (shapeCast S1x256 (shapeCast S256 b h1) h2) h3 (ix2 r c) = row0 b c := by
  rw [broadcastTo_1b_ab_apply, shapeCast_a_1a_apply, shapeCast_1a_a_apply]
  rfl

/-- The same with the two casts already done. -/
theorem bcast_apply (b : FVec Ideal S1x256 .f32) (h3 : S1x256.Broadcasts S2000x256) (r : Fin 2000) (c : Fin 256) :
    broadcastTo S2000x256 b h3 (ix2 r c) = row0 b c :=
  broadcastTo_1b_ab_apply b h3 r c

/-- A bias flattened and restored is itself, read at its row. -/
theorem casts_row0 (b : FVec Ideal S1x256 .f32) (h1 : S1x256.ShapeCasts S256) (h2 : S256.ShapeCasts S1x256) :
    row0 (shapeCast S1x256 (shapeCast S256 b h1) h2) = row0 b := by
  funext c
  show shapeCast S1x256 (shapeCast S256 b h1) h2 (ix2 0 c) = b (ix2 0 c)
  rw [shapeCast_a_1a_apply, shapeCast_1a_a_apply]

/-- The kernel's matrix product of a block by a `[256, 256]` matrix into a zero accumulator, at `(r, c)`. -/
theorem mm_apply (A : Blk) (B : FVec Ideal S256x256 .f32) (r : Fin 2000) (c : Fin 256) :
    matmul dot_S2000x256_S256x256_S2000x256_1_0_0_1_n_n (some .fp32) A B (constant (F := Ideal) S2000x256 .f32 0x00000000#32) (ix2 r c)
      = ∑ k : Fin 256, A (ix2 r k) * B (ix2 k c) :=
  Cert.LibMatmulNN.matmul_nn_apply _ rfl rfl rfl rfl rfl rfl _ A B r c

/-! ## Rows of the block operations

Each operation of the fused body acts row by row: if the operand blocks are given by their rows, so is the result. -/

theorem rows_add {A B : Blk} {f g : Fin 2000 → Row} (hA : A = ofCoords2 f) (hB : B = ofCoords2 g) :
    addf A B = ofCoords2 (fun r c => f r c + g r c) := by
  subst hA hB; exact blk_ext fun _ _ => rfl

theorem rows_mul {A B : Blk} {f g : Fin 2000 → Row} (hA : A = ofCoords2 f) (hB : B = ofCoords2 g) :
    mulf A B = ofCoords2 (fun r c => f r c * g r c) := by
  subst hA hB; exact blk_ext fun _ _ => rfl

/-- One row repeated over the block. -/
theorem rows_bc (b : FVec Ideal S1x256 .f32) (h3 : S1x256.Broadcasts S2000x256) :
    (broadcastTo S2000x256 b h3 : Blk) = ofCoords2 (fun _ => row0 b) :=
  blk_ext fun r c => bcast_apply b h3 r c

/-- The product of a block by a matrix multiplies every row by the matrix. -/
theorem rows_mm {A : Blk} {f : Fin 2000 → Row} (hA : A = ofCoords2 f) (B : FVec Ideal S256x256 .f32) :
    matmul dot_S2000x256_S256x256_S2000x256_1_0_0_1_n_n (some .fp32) A B (constant (F := Ideal) S2000x256 .f32 0x00000000#32)
      = ofCoords2 (fun r => lin (matOf B) (f r)) := by
  subst hA; exact blk_ext fun r c => mm_apply _ B r c

/-- Product and bias: the affine map on every row. -/
theorem rows_aff {A : Blk} {f : Fin 2000 → Row} (hA : A = ofCoords2 f) (B : FVec Ideal S256x256 .f32)
    (b : FVec Ideal S1x256 .f32) (h3 : S1x256.Broadcasts S2000x256) :
    addf (matmul dot_S2000x256_S256x256_S2000x256_1_0_0_1_n_n (some .fp32) A B (constant (F := Ideal) S2000x256 .f32 0x00000000#32))
        (broadcastTo S2000x256 b h3)
      = ofCoords2 (fun r => aff (matOf B) (row0 b) (f r)) :=
  rows_add (rows_mm hA B) (rows_bc b h3)

/-- A residual layer of the kernel on a block is the residual layer on every row. -/
theorem rows_res {A : Blk} {f : Fin 2000 → Row} (hA : A = ofCoords2 f) (B1 B2 : FVec Ideal S256x256 .f32)
    (b1 b2 : FVec Ideal S1x256 .f32) (h3 h3' : S1x256.Broadcasts S2000x256) :
    addf A (addf (matmul dot_S2000x256_S256x256_S2000x256_1_0_0_1_n_n (some .fp32)
          (addf (matmul dot_S2000x256_S256x256_S2000x256_1_0_0_1_n_n (some .fp32) A B1 (constant (F := Ideal) S2000x256 .f32 0x00000000#32))
            (broadcastTo S2000x256 b1 h3))
          B2 (constant (F := Ideal) S2000x256 .f32 0x00000000#32))
        (broadcastTo S2000x256 b2 h3'))
      = ofCoords2 (fun r => res (matOf B1) (row0 b1) (matOf B2) (row0 b2) (f r)) :=
  rows_add hA (rows_aff (rows_aff hA B1 b1 h3) B2 b2 h3')

/-- A slab viewed as a matrix has the slab's matrix. -/
theorem matOf_sc (w : FVec Ideal S1x256x256 .f32) (h : S1x256x256.ShapeCasts S256x256) :
    matOf (shapeCast S256x256 w h) = slabMat w := by
  funext i j; exact sc_slab w h i j

/-- A `[1, 256]` row cast to its own shape keeps its row. -/
theorem self_row0 (b : FVec Ideal S1x256 .f32) (h : S1x256.ShapeCasts S1x256) : row0 (shapeCast S1x256 b h) = row0 b := by
  rw [shapeCast_self]

/-! ## The pieces the body was cut into, by rows

Each piece is read with the blocks it receives given by their rows. The cuts fall inside layers: a piece may end with a
product whose bias the next piece adds, so the hypotheses name the half layer a block carries. -/

theorem pay4_row0 (b : Vec Ideal S1x256 .f32) : row0 (k2_pay4 (F := Ideal) b) = row0 b := by
  unfold k2_pay4; exact casts_row0 b _ _

theorem pay8_mat (w : Vec Ideal S1x256x256 .f32) : matOf (k2_pay8 (F := Ideal) w) = slabMat w := by
  unfold k2_pay8; exact matOf_sc w _

theorem pay10_mat (w : Vec Ideal S1x256x256 .f32) : matOf (k2_pay10 (F := Ideal) w) = slabMat w := by
  unfold k2_pay10; exact matOf_sc w _

theorem pay11_mat (w : Vec Ideal S1x256x256 .f32) : matOf (k2_pay11 (F := Ideal) w) = slabMat w := by
  unfold k2_pay11; exact matOf_sc w _

theorem pay13_mat (w : Vec Ideal S1x256x256 .f32) : matOf (k2_pay13 (F := Ideal) w) = slabMat w := by
  unfold k2_pay13; exact matOf_sc w _

/-- First piece: layer 0 of the first stack on the message block. -/
theorem pay2_rows (v0 : Vec Ideal S2000x256 .f32) (w1 w2 : Vec Ideal S1x256x256 .f32) (b1 b2 : Vec Ideal S1x256 .f32) :
    k2_pay2 (F := Ideal) v0 w1 w2 b1 b2
      = ofCoords2 (fun r => res (slabMat w1) (row0 b1) (slabMat w2) (row0 b2) (rowOf v0 r)) := by
  unfold k2_pay2
  simp only [shapeCast_self]
  refine (rows_res (blk_eq_rows v0) _ _ _ _ _ _).trans ?_
  simp only [matOf_sc, casts_row0]

/-- Layer 1 up to its second product: the bias and the skip connection are added by the next piece. -/
theorem pay3_rows {v0 : Vec Ideal S2000x256 .f32} {w1 w2 : Vec Ideal S1x256x256 .f32} {b1 b2 : Vec Ideal S1x256 .f32}
    {g : Fin 2000 → Row} (h : k2_pay2 (F := Ideal) v0 w1 w2 b1 b2 = ofCoords2 g)
    (w1' w2' : Vec Ideal S1x256x256 .f32) (b1' : Vec Ideal S1x256 .f32) :
    k2_pay3 (F := Ideal) v0 w1 w2 b1 b2 w1' w2' b1'
      = ofCoords2 (fun r => lin (slabMat w2') (aff (slabMat w1') (row0 b1') (g r))) := by
  unfold k2_pay3
  simp only []
  refine (rows_mm (rows_aff h _ _ _) _).trans ?_
  simp only [matOf_sc, casts_row0]

/-- Second piece: the rest of layer 1 (bias and skip connection), then layer 2. -/
theorem pay5_rows {v18 v29 : Blk} {g : Fin 2000 → Row} {W1p W2p : Mat} {b1p : Row}
    (h18 : v18 = ofCoords2 g) (h29 : v29 = ofCoords2 (fun r => lin W2p (aff W1p b1p (g r))))
    (b2p : Vec Ideal S1x256 .f32) (w1 w2 : Vec Ideal S1x256x256 .f32) (b1 b2 : Vec Ideal S1x256 .f32) :
    k2_pay5 (F := Ideal) v18 v29 (k2_pay4 b2p) w1 w2 b1 b2
      = ofCoords2 (fun r => res (slabMat w1) (row0 b1) (slabMat w2) (row0 b2) (res W1p b1p W2p (row0 b2p) (g r))) := by
  unfold k2_pay5
  simp only []
  refine (rows_res (rows_add h18 (rows_add h29 (rows_bc _ _))) _ _ _ _ _ _).trans ?_
  simp only [matOf_sc, casts_row0, pay4_row0]
  rfl

/-- Layer 3 without its skip connection, from the second piece's block. -/
theorem pay6_rows {v18 v29 : Blk} {v32 : FVec Ideal S1x256 .f32} {w1 w2 : Vec Ideal S1x256x256 .f32} {b1 b2 : Vec Ideal S1x256 .f32}
    {g : Fin 2000 → Row} (h : k2_pay5 (F := Ideal) v18 v29 v32 w1 w2 b1 b2 = ofCoords2 g)
    (w1' w2' : Vec Ideal S1x256x256 .f32) (b1' b2' : Vec Ideal S1x256 .f32) :
    k2_pay6 (F := Ideal) v18 v29 v32 w1 w2 b1 b2 w1' w2' b1' b2'
      = ofCoords2 (fun r => aff (slabMat w2') (row0 b2') (aff (slabMat w1') (row0 b1') (g r))) := by
  unfold k2_pay6
  simp only []
  refine (rows_aff (rows_aff h _ _ _) _ _ _).trans ?_
  simp only [matOf_sc, casts_row0]

/-- Third piece: the skip connection of layer 3, layer 4, and the combination with the node block. -/
theorem pay7_rows {v52 v68 : Blk} {g : Fin 2000 → Row} {W1q W2q : Mat} {b1q b2q : Row}
    (h52 : v52 = ofCoords2 g) (h68 : v68 = ofCoords2 (fun r => aff W2q b2q (aff W1q b1q (g r))))
    (w1 w2 : Vec Ideal S1x256x256 .f32) (b1 b2 : Vec Ideal S1x256 .f32) (Wo : Vec Ideal S256x256 .f32)
    (bo u : Vec Ideal S1x256 .f32) (hh : Vec Ideal S2000x256 .f32) :
    k2_pay7 (F := Ideal) v52 v68 w1 w2 b1 b2 Wo bo u hh
      = ofCoords2 (fun r => combine (matOf Wo) (row0 bo) (row0 u)
          (res (slabMat w1) (row0 b1) (slabMat w2) (row0 b2) (res W1q b1q W2q b2q (g r))) (rowOf hh r)) := by
  unfold k2_pay7
  simp only []
  refine (rows_add (rows_mul (rows_bc _ _) (blk_eq_rows hh))
    (rows_aff (rows_res (rows_add h52 h68) _ _ _ _ _ _) Wo _ _)).trans ?_
  simp only [matOf_sc, casts_row0, self_row0]
  rfl

/-- Fourth piece: layers 0 and 1 of the second stack. -/
theorem pay9_rows {v98 : Blk} {g : Fin 2000 → Row} (h98 : v98 = ofCoords2 g)
    (wA w2 : Vec Ideal S1x256x256 .f32) (b1 b2 : Vec Ideal S1x256 .f32)
    (w1' w2' : Vec Ideal S1x256x256 .f32) (b1' b2' : Vec Ideal S1x256 .f32) :
    k2_pay9 (F := Ideal) v98 (k2_pay8 wA) w2 b1 b2 w1' w2' b1' b2'
      = ofCoords2 (fun r => res (slabMat w1') (row0 b1') (slabMat w2') (row0 b2')
          (res (slabMat wA) (row0 b1) (slabMat w2) (row0 b2) (g r))) := by
  unfold k2_pay9
  simp only []
  refine (rows_res (rows_res h98 _ _ _ _ _ _) _ _ _ _ _ _).trans ?_
  simp only [matOf_sc, casts_row0, pay8_mat]

/-- Fifth piece: layers 2 and 3 of the second stack. -/
theorem pay12_rows {v132 : Blk} {g : Fin 2000 → Row} (h132 : v132 = ofCoords2 g)
    (wA wB : Vec Ideal S1x256x256 .f32) (b1 b2 : Vec Ideal S1x256 .f32)
    (w1' w2' : Vec Ideal S1x256x256 .f32) (b1' b2' : Vec Ideal S1x256 .f32) :
    k2_pay12 (F := Ideal) v132 (k2_pay10 wA) (k2_pay11 wB) (constant (F := Ideal) S2000x256 .f32 0x00000000#32) b1 b2 w1' w2' b1' b2'
      = ofCoords2 (fun r => res (slabMat w1') (row0 b1') (slabMat w2') (row0 b2')
          (res (slabMat wA) (row0 b1) (slabMat wB) (row0 b2) (g r))) := by
  unfold k2_pay12
  simp only []
  refine (rows_res (rows_res h132 _ _ _ _ _ _) _ _ _ _ _ _).trans ?_
  simp only [matOf_sc, casts_row0, pay10_mat, pay11_mat]

/-- The first product of layer 4 of the second stack, from the fifth piece's block. -/
theorem pay14_rows {v132 : Blk} {v134 v136 : FVec Ideal S256x256 .f32} {cst : Blk} {b1 b2 : Vec Ideal S1x256 .f32}
    {w1' w2' : Vec Ideal S1x256x256 .f32} {b1' b2' : Vec Ideal S1x256 .f32} {g : Fin 2000 → Row}
    (h : k2_pay12 (F := Ideal) v132 v134 v136 cst b1 b2 w1' w2' b1' b2' = ofCoords2 g) (w : Vec Ideal S1x256x256 .f32) :
    k2_pay14 (F := Ideal) v132 v134 v136 cst b1 b2 w1' w2' b1' b2' w = ofCoords2 (fun r => lin (slabMat w) (g r)) := by
  unfold k2_pay14
  simp only []
  refine (rows_mm h _).trans ?_
  simp only [matOf_sc]

/-- Last piece: the rest of layer 4 of the second stack. -/
theorem pay1_rows {v166 v171 : Blk} {g : Fin 2000 → Row} {W1q : Mat}
    (h166 : v166 = ofCoords2 g) (h171 : v171 = ofCoords2 (fun r => lin W1q (g r)))
    (wB : Vec Ideal S1x256x256 .f32) (b1 b2 : Vec Ideal S1x256 .f32) :
    k2_pay1 (F := Ideal) v166 (k2_pay13 wB) v171 b1 b2
      = ofCoords2 (fun r => res W1q (row0 b1) (slabMat wB) (row0 b2) (g r)) := by
  unfold k2_pay1
  simp only []
  refine (rows_add h166 (rows_aff (rows_add h171 (rows_bc _ _)) _ _ _)).trans ?_
  simp only [matOf_sc, casts_row0, pay13_mat]
  rfl

/-! ## The block written back

The pieces are composed in the order the body runs them; every load is then read as the operand's matrix, bias row or
block, and what is left is the specification's chain on every row. -/

theorem zero_off2 : (![0, 0] : Fin 2 → ℕ) = fun _ => 0 := by
  funext a
  match a with
  | ⟨0, _⟩ => rfl
  | ⟨1, _⟩ => rfl

set_option maxHeartbeats 400000 in
theorem fused_eq (x0 x1 : Vec Ideal S2000x256 .f32) (x2 : Vec Ideal S5x256x256 .f32) (x3 : Vec Ideal S5x256 .f32) (x4 : Vec Ideal S5x256x256 .f32) (x5 : Vec Ideal S5x256 .f32) (x6 : Vec Ideal S256x256 .f32) (x7 x8 : Vec Ideal S1x256 .f32) (x9 : Vec Ideal S5x256x256 .f32) (x10 : Vec Ideal S5x256 .f32) (x11 : Vec Ideal S5x256x256 .f32) (x12 : Vec Ideal S5x256 .f32) :
    Gen.out2_13 (F := Ideal) x0 x1 x2 x3 x4 x5 x6 x7 x8 x9 x10 x11 x12
      = Cert.Spec.xOf (layerMat x2) (layerVec x3) (layerMat x4) (layerVec x5) (matOf x6) (row0 x7) (row0 x8)
          (layerMat x9) (layerVec x10) (layerMat x11) (layerVec x12) x0 x1 := by
  -- first stack
  have e2 := pay2_rows (View.ld (Val := Elt Ideal) (e' := .f32) x0 r2_0) (View.ld (Val := Elt Ideal) (e' := .f32) x2 r2_1) (View.ld (Val := Elt Ideal) (e' := .f32) x4 r2_1) (View.ld (Val := Elt Ideal) (e' := .f32) x3 r2_2) (View.ld (Val := Elt Ideal) (e' := .f32) x5 r2_2)
  have e3 := pay3_rows e2 (View.ld (Val := Elt Ideal) (e' := .f32) x2 r2_3) (View.ld (Val := Elt Ideal) (e' := .f32) x4 r2_3) (View.ld (Val := Elt Ideal) (e' := .f32) x3 r2_4)
  have e5 := pay5_rows e2 e3 (View.ld (Val := Elt Ideal) (e' := .f32) x5 r2_4) (View.ld (Val := Elt Ideal) (e' := .f32) x2 r2_5) (View.ld (Val := Elt Ideal) (e' := .f32) x4 r2_5) (View.ld (Val := Elt Ideal) (e' := .f32) x3 r2_6) (View.ld (Val := Elt Ideal) (e' := .f32) x5 r2_6)
  have e6 := pay6_rows e5 (View.ld (Val := Elt Ideal) (e' := .f32) x2 r2_7) (View.ld (Val := Elt Ideal) (e' := .f32) x4 r2_7) (View.ld (Val := Elt Ideal) (e' := .f32) x3 r2_8) (View.ld (Val := Elt Ideal) (e' := .f32) x5 r2_8)
  -- combination
  have e7 := pay7_rows e5 e6 (View.ld (Val := Elt Ideal) (e' := .f32) x2 r2_9) (View.ld (Val := Elt Ideal) (e' := .f32) x4 r2_9) (View.ld (Val := Elt Ideal) (e' := .f32) x3 r2_10) (View.ld (Val := Elt Ideal) (e' := .f32) x5 r2_10) (View.ld (Val := Elt Ideal) (e' := .f32) x6 r2_11) (View.ld (Val := Elt Ideal) (e' := .f32) x7 r2_12) (View.ld (Val := Elt Ideal) (e' := .f32) x8 r2_12) (View.ld (Val := Elt Ideal) (e' := .f32) x1 r2_0)
  -- second stack
  have e9 := pay9_rows e7 (View.ld (Val := Elt Ideal) (e' := .f32) x9 r2_1) (View.ld (Val := Elt Ideal) (e' := .f32) x11 r2_1) (View.ld (Val := Elt Ideal) (e' := .f32) x10 r2_2) (View.ld (Val := Elt Ideal) (e' := .f32) x12 r2_2) (View.ld (Val := Elt Ideal) (e' := .f32) x9 r2_3) (View.ld (Val := Elt Ideal) (e' := .f32) x11 r2_3) (View.ld (Val := Elt Ideal) (e' := .f32) x10 r2_4) (View.ld (Val := Elt Ideal) (e' := .f32) x12 r2_4)
  have e12 := pay12_rows e9 (View.ld (Val := Elt Ideal) (e' := .f32) x9 r2_5) (View.ld (Val := Elt Ideal) (e' := .f32) x11 r2_5) (View.ld (Val := Elt Ideal) (e' := .f32) x10 r2_6) (View.ld (Val := Elt Ideal) (e' := .f32) x12 r2_6) (View.ld (Val := Elt Ideal) (e' := .f32) x9 r2_7) (View.ld (Val := Elt Ideal) (e' := .f32) x11 r2_7) (View.ld (Val := Elt Ideal) (e' := .f32) x10 r2_8) (View.ld (Val := Elt Ideal) (e' := .f32) x12 r2_8)
  have e14 := pay14_rows e12 (View.ld (Val := Elt Ideal) (e' := .f32) x9 r2_9)
  have e1 := pay1_rows e12 e14 (View.ld (Val := Elt Ideal) (e' := .f32) x11 r2_9) (View.ld (Val := Elt Ideal) (e' := .f32) x10 r2_10) (View.ld (Val := Elt Ideal) (e' := .f32) x12 r2_10)
  -- the loads: slab k is matrix k, row k is bias k, a whole-block load is the block
  have s0 : ∀ X : Vec Ideal S5x256x256 .f32, slabMat (View.ld (Val := Elt Ideal) (e' := .f32) X r2_1) = layerMat X 0 := fun X => slab_ld X 0 _ rfl _
  have s1 : ∀ X : Vec Ideal S5x256x256 .f32, slabMat (View.ld (Val := Elt Ideal) (e' := .f32) X r2_3) = layerMat X 1 := fun X => slab_ld X 1 _ rfl _
  have s2 : ∀ X : Vec Ideal S5x256x256 .f32, slabMat (View.ld (Val := Elt Ideal) (e' := .f32) X r2_5) = layerMat X 2 := fun X => slab_ld X 2 _ rfl _
  have s3 : ∀ X : Vec Ideal S5x256x256 .f32, slabMat (View.ld (Val := Elt Ideal) (e' := .f32) X r2_7) = layerMat X 3 := fun X => slab_ld X 3 _ rfl _
  have s4 : ∀ X : Vec Ideal S5x256x256 .f32, slabMat (View.ld (Val := Elt Ideal) (e' := .f32) X r2_9) = layerMat X 4 := fun X => slab_ld X 4 _ rfl _
  have t0 : ∀ X : Vec Ideal S5x256 .f32, row0 (View.ld (Val := Elt Ideal) (e' := .f32) X r2_2) = layerVec X 0 := fun X => row_ld X 0 _ rfl _
  have t1 : ∀ X : Vec Ideal S5x256 .f32, row0 (View.ld (Val := Elt Ideal) (e' := .f32) X r2_4) = layerVec X 1 := fun X => row_ld X 1 _ rfl _
  have t2 : ∀ X : Vec Ideal S5x256 .f32, row0 (View.ld (Val := Elt Ideal) (e' := .f32) X r2_6) = layerVec X 2 := fun X => row_ld X 2 _ rfl _
  have t3 : ∀ X : Vec Ideal S5x256 .f32, row0 (View.ld (Val := Elt Ideal) (e' := .f32) X r2_8) = layerVec X 3 := fun X => row_ld X 3 _ rfl _
  have t4 : ∀ X : Vec Ideal S5x256 .f32, row0 (View.ld (Val := Elt Ideal) (e' := .f32) X r2_10) = layerVec X 4 := fun X => row_ld X 4 _ rfl _
  have u0 : ∀ X : Vec Ideal S2000x256 .f32, (View.ld (Val := Elt Ideal) (e' := .f32) X r2_0) = X := fun X => View.ld_unit_zero zero_off2 _ X
  have u1 : (View.ld (Val := Elt Ideal) (e' := .f32) x6 r2_11) = x6 := View.ld_unit_zero zero_off2 _ x6
  have u2 : ∀ X : Vec Ideal S1x256 .f32, (View.ld (Val := Elt Ideal) (e' := .f32) X r2_12) = X := fun X => View.ld_unit_zero zero_off2 _ X
  unfold Gen.out2_13
  rw [View.canon_unit_zero zero_off2]
  refine e1.trans ?_
  simp only [s0, s1, s2, s3, s4, t0, t1, t2, t3, t4, u0, u1, u2]
  rfl

end Cert.KernelIdeal.FusedValue

end
-- ==== Proof.KRun.lean ====
/-
  The idealized kernel's run with its final memory named. @main is three pallas regions among stretches of host
  operations; the generated frame certificate folds the buffer contents through them — `W1` after the first stretch,
  `W2` after the first region (its arrays at what the pipeline's write-backs leave), … `W6` after the last region —
  and ends with every buffer that outlives a region holding `W6`. Here that final read is kept whole: every weakly
  fair execution terminates, nothing faulting, and each such buffer ends at `W6`'s contents for it. The two results
  and the twenty arguments are among those buffers.
-/
import proofs.«108374_j17257178595652_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with every buffer that outlives a region at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- A buffer declared by @main (an argument, a host operation's result, a region's result) outlives every region. -/
theorem at_ref (b : Ref sig .tc) (hb : ¬ (Proc.devRef .tc b : DevRef τ sig).isScoped) :
    θ_run defs (onTc (τ := τ) (main (F := F))) ⟨m, fun _ => 0, ρ⟩ (fun r => ∀ c : Dev nD,
      r.2.mem ((c.tc : Thread nD τ).loc b) = W6 m ρ c (Proc.devRef .tc b)) :=
  (θ_run defs _ _).mono (fun _ h c => h c _ (mem_uc b hb)) (run_all m ρ)

end Cert.KernelIdeal.KRun

end
-- ==== Proof.MsgPass.lean ====
/-
  The message passing both programs leave to the host: edge `e` carries the feature row of its source node (a negative
  node number wrapped around once, as jnp indexing does), multiplied entry by entry with the edge's own row, and the
  products are summed into the row of the edge's target node, starting from zero. It is the same chain of host
  operations in the kernel's and in the reference's program, so it is carried as ONE function of the node rows `y`,
  the edge rows `g` and the edge list, and never opened: equal operands give equal messages.
-/
import proofs.«108374_j17257178595652_2_alg».proof.Proof.Gen.KernelIdeal
import Idealize.ShloMosaic.PureOps.Ideal

noncomputable section

namespace Cert.Msg

open Idealize.ShloMosaic Cert.KernelIdeal Cert.KernelIdeal.Gen

/-- The source nodes of the edges: row 0 of the edge list. -/
def srcOf (ei : Vec Ideal S2x800000 .i32) : Vec Ideal S800000 .i32 :=
  shapeCast _ (extractStridedSlice S1x800000 ![0, 0] ei slices_S2x800000_S1x800000_0_0) shapeCasts_S1x800000_S800000

/-- The target nodes of the edges: row 1 of the edge list. -/
def dstOf (ei : Vec Ideal S2x800000 .i32) : Vec Ideal S800000 .i32 :=
  shapeCast _ (extractStridedSlice S1x800000 ![1, 0] ei slices_S2x800000_S1x800000_1_0) shapeCasts_S1x800000_S800000

/-- Gather the source rows of `y`, multiply by `g`, sum into the target rows from zero. -/
def msgOf (y : FVec Ideal S100000x256 .f32) (g : FVec Ideal S800000x256 .f32) (ei : Vec Ideal S2x800000 .i32) :
    FVec Ideal S100000x256 .f32 :=
  Host.scatterAdd scatter_S100000x256_S800000x1_S800000x256_1_0_0_1
    (broadcastInDim S100000x256 ![] bcast_S_S100000x256 (constant (F := Ideal) S_ .f32 0x00000000#32))
    (broadcastInDim S800000x1 ![0] bcast_S800000_S800000x1_0 (dstOf ei))
    (mulf (Host.gather gather_S100000x256_S800000x1_S800000x256_1_0_n_n_0_1_1256 y
      (broadcastInDim S800000x1 ![0] bcast_S800000_S800000x1_0
        (select (cmpi .slt (srcOf ei) (broadcastInDim S800000 ![] bcast_S_S800000 (constantI S_ 32 0#32)))
          (addi (srcOf ei) (broadcastInDim S800000 ![] bcast_S_S800000 (constantI S_ 32 100000#32))) (srcOf ei)))) g)

end Cert.Msg

end
-- ==== Proof.KFold.lean ====
/-
  What each pallas region finds in its operands' arrays, and what the last boundary leaves in the two results, read
  back through the fold of buffer contents along @main. An argument that no host operation writes and no region
  produces still holds its launch contents at every boundary; a bias reshaped to one row is that reshape of the
  argument; the first projection's output reaches the end untouched; the second projection's output and the first's
  feed the host's message passing, whose result is the third region's first operand; and the third region's output is
  the first result.
-/
import proofs.«108374_j17257178595652_2_alg».proof.Proof.Gen.KernelIdeal.Frame
import proofs.«108374_j17257178595652_2_alg».proof.Proof.MsgPass

set_option maxRecDepth 16384

noncomputable section

namespace Cert.KernelIdeal.KFold

open Cert.KernelIdeal Cert.KernelIdeal.Gen
open Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## Arguments at the first region's entry -/

theorem W1_arg3 : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = m ((c : Thread nD τ).loc main_arg3) := rfl

theorem W1_arg5 : W1 m ρ c (Proc.devRef .tc main_arg5) = m ((c : Thread nD τ).loc main_arg5) :=
  calc W1 m ρ c (Proc.devRef .tc main_arg5)
    _ = W0 m ρ c (Proc.devRef .tc main_arg5) := StableHlo.after_of_forall_not_mem _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = m ((c : Thread nD τ).loc main_arg5) := rfl

/-- The first projection's bias row: the bias reshaped to `[1, 256]`. -/
theorem W1_v0 : W1 m ρ c (Proc.devRef .tc main_v0) = shapeCast S1x256 (m ((c : Thread nD τ).loc main_arg6)) shapeCasts_S256_S1x256 := by
  show StableHlo.after hostOps0 (W0 m ρ c) (Proc.devRef .tc main_v0) = _
  after_results
  rfl

/-! ## Arguments at the second region's entry -/

theorem W3_arg0 : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = m ((c : Thread nD τ).loc main_arg0) := rfl

theorem W3_arg7 : W3 m ρ c (Proc.devRef .tc main_arg7) = m ((c : Thread nD τ).loc main_arg7) :=
  calc W3 m ρ c (Proc.devRef .tc main_arg7)
    _ = W2 m ρ c (Proc.devRef .tc main_arg7) := StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = m ((c : Thread nD τ).loc main_arg7) := rfl

theorem W2_arg8 : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = m ((c : Thread nD τ).loc main_arg8) := rfl

/-- The second projection's bias row. -/
theorem W3_v2 : W3 m ρ c (Proc.devRef .tc main_v2) = shapeCast S1x256 (m ((c : Thread nD τ).loc main_arg8)) shapeCasts_S256_S1x256 := by
  show StableHlo.after hostOps1 (W2 m ρ c) (Proc.devRef .tc main_v2) = _
  after_results
  rw [W2_arg8]
  rfl

/-! ## The two projections' outputs after the second region -/

/-- The second projection's output array is what its pipeline's write-backs leave. -/
theorem W4_v3 : W4 m ρ c (Proc.devRef .tc main_v3) = (dat1 (V3 m ρ) c).arrAt 3 cfg1.N := W4_arr m ρ c 3

/-- The first projection's output array passes the second stretch and the second region untouched. -/
theorem W4_v1 : W4 m ρ c (Proc.devRef .tc main_v1) = (dat0 (V1 m ρ) c).arrAt 3 cfg0.N :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = (dat0 (V1 m ρ) c).arrAt 3 cfg0.N := W2_arr m ρ c 3

theorem W4_arg1 : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = m ((c : Thread nD τ).loc main_arg1) := rfl

theorem W4_arg14 : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = m ((c : Thread nD τ).loc main_arg14) := rfl

theorem W4_arg15 : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = m ((c : Thread nD τ).loc main_arg15) := rfl

/-! ## The third region's entry -/

-- an operand the third region only reads ends as launched, and at the region's exit it still holds what the region found
theorem W5_arg0 : W5 m ρ c (Proc.devRef .tc main_arg0) = m ((c : Thread nD τ).loc main_arg0) :=
  ((W6_arr m ρ c 1).trans (((dat2 (V5 m ρ) c).arrAt_in 1 rfl _).trans (A_eq2 (V5 m ρ) c 1))).symm.trans (W6_main_arg0 m ρ c)
theorem W5_arg9 : W5 m ρ c (Proc.devRef .tc main_arg9) = m ((c : Thread nD τ).loc main_arg9) :=
  ((W6_arr m ρ c 2).trans (((dat2 (V5 m ρ) c).arrAt_in 2 rfl _).trans (A_eq2 (V5 m ρ) c 2))).symm.trans (W6_main_arg9 m ρ c)
theorem W5_arg10 : W5 m ρ c (Proc.devRef .tc main_arg10) = m ((c : Thread nD τ).loc main_arg10) :=
  ((W6_arr m ρ c 3).trans (((dat2 (V5 m ρ) c).arrAt_in 3 rfl _).trans (A_eq2 (V5 m ρ) c 3))).symm.trans (W6_main_arg10 m ρ c)
theorem W5_arg11 : W5 m ρ c (Proc.devRef .tc main_arg11) = m ((c : Thread nD τ).loc main_arg11) :=
  ((W6_arr m ρ c 4).trans (((dat2 (V5 m ρ) c).arrAt_in 4 rfl _).trans (A_eq2 (V5 m ρ) c 4))).symm.trans (W6_main_arg11 m ρ c)
theorem W5_arg12 : W5 m ρ c (Proc.devRef .tc main_arg12) = m ((c : Thread nD τ).loc main_arg12) :=
  ((W6_arr m ρ c 5).trans (((dat2 (V5 m ρ) c).arrAt_in 5 rfl _).trans (A_eq2 (V5 m ρ) c 5))).symm.trans (W6_main_arg12 m ρ c)
theorem W5_arg13 : W5 m ρ c (Proc.devRef .tc main_arg13) = m ((c : Thread nD τ).loc main_arg13) :=
  ((W6_arr m ρ c 6).trans (((dat2 (V5 m ρ) c).arrAt_in 6 rfl _).trans (A_eq2 (V5 m ρ) c 6))).symm.trans (W6_main_arg13 m ρ c)
theorem W5_arg16 : W5 m ρ c (Proc.devRef .tc main_arg16) = m ((c : Thread nD τ).loc main_arg16) :=
  ((W6_arr m ρ c 9).trans (((dat2 (V5 m ρ) c).arrAt_in 9 rfl _).trans (A_eq2 (V5 m ρ) c 9))).symm.trans (W6_main_arg16 m ρ c)
theorem W5_arg17 : W5 m ρ c (Proc.devRef .tc main_arg17) = m ((c : Thread nD τ).loc main_arg17) :=
  ((W6_arr m ρ c 10).trans (((dat2 (V5 m ρ) c).arrAt_in 10 rfl _).trans (A_eq2 (V5 m ρ) c 10))).symm.trans (W6_main_arg17 m ρ c)
theorem W5_arg18 : W5 m ρ c (Proc.devRef .tc main_arg18) = m ((c : Thread nD τ).loc main_arg18) :=
  ((W6_arr m ρ c 11).trans (((dat2 (V5 m ρ) c).arrAt_in 11 rfl _).trans (A_eq2 (V5 m ρ) c 11))).symm.trans (W6_main_arg18 m ρ c)
theorem W5_arg19 : W5 m ρ c (Proc.devRef .tc main_arg19) = m ((c : Thread nD τ).loc main_arg19) :=
  ((W6_arr m ρ c 12).trans (((dat2 (V5 m ρ) c).arrAt_in 12 rfl _).trans (A_eq2 (V5 m ρ) c 12))).symm.trans (W6_main_arg19 m ρ c)

/-- The scale row `u` reshaped to `[1, 256]`. -/
theorem W5_v19 : W5 m ρ c (Proc.devRef .tc main_v19) = shapeCast S1x256 (m ((c : Thread nD τ).loc main_arg15)) shapeCasts_S256_S1x256 := by
  show StableHlo.after hostOps2 (W4 m ρ c) (Proc.devRef .tc main_v19) = _
  after_results
  rw [W4_arg15]
  rfl

/-- The output bias reshaped to `[1, 256]`. -/
theorem W5_v20 : W5 m ρ c (Proc.devRef .tc main_v20) = shapeCast S1x256 (m ((c : Thread nD τ).loc main_arg14)) shapeCasts_S256_S1x256 := by
  show StableHlo.after hostOps2 (W4 m ρ c) (Proc.devRef .tc main_v20) = _
  after_results
  rw [W4_arg14]
  rfl

set_option maxHeartbeats 1000000 in
/-- The aggregated messages: the host's message passing over the two projections' outputs and the edge list. -/
theorem W5_v18 : W5 m ρ c (Proc.devRef .tc main_v18)
    = Cert.Msg.msgOf (W4 m ρ c (Proc.devRef .tc main_v3)) (W4 m ρ c (Proc.devRef .tc main_v1)) (m ((c : Thread nD τ).loc main_arg1)) := by
  show StableHlo.after hostOps2 (W4 m ρ c) (Proc.devRef .tc main_v18) = _
  simp only [hostOps2]
  after_results_simp
  rw [W4_arg1]
  rfl

/-! ## The two results at the last boundary -/

/-- The first result is what the third region's pipeline leaves in its output array. -/
theorem W6_v21 : W6 m ρ c (Proc.devRef .tc main_v21) = (dat2 (V5 m ρ) c).arrAt 13 cfg2.N := W6_arr m ρ c 13

/-- The second result is the first projection's output, untouched since the first region. -/
theorem W6_v1 : W6 m ρ c (Proc.devRef .tc main_v1) = (dat0 (V1 m ρ) c).arrAt 3 cfg0.N :=
  calc W6 m ρ c (Proc.devRef .tc main_v1)
    _ = W5 m ρ c (Proc.devRef .tc main_v1) := W6_of_ne m ρ c main_v1 (by decide)
    _ = W4 m ρ c (Proc.devRef .tc main_v1) := StableHlo.after_of_forall_not_mem _ _ (List.forall_iff_forall_mem.mp (by
      simp only [hostOps2, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = (dat0 (V1 m ρ) c).arrAt 3 cfg0.N := W4_v1 m ρ c

end Cert.KernelIdeal.KFold

end
-- ==== Proof.FusedArray.lean ====
/-
  The third pallas region from blocks to the array. Its grid has 50 points; point `t` reads rows
  `2000 t … 2000 t + 1999` of the aggregated messages and of the node features, reads every weight array whole, and
  writes back rows `2000 t … 2000 t + 1999` of the output. The chain of residual layers acts on each row by itself, so
  what point `t` writes back is rows `2000 t …` of ONE whole-array function of the operands, the blocks tile the
  output, and the output array ends holding that function. The body's own equation — the block written back is the
  row function of the loaded blocks — is taken here as a hypothesis.
-/
import proofs.«108374_j17257178595652_2_alg».proof.Proof.Gen.KernelIdeal.Frame
import proofs.«108374_j17257178595652_2_alg».proof.Proof.Spec
import Idealize.ShloMosaic.Lib.Pipeline.Value
import Idealize.ShloMosaic.Lib.ValueIdx

set_option maxRecDepth 16384

noncomputable section

namespace Cert.KernelIdeal.FusedArray

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The printed index maps over the grid: the two row-blocked operands move with the output, along rows only; every
    other operand stays at its one block. -/
theorem idx_facts : ∀ t : Fin cfg2.N,
    win2_0.index t (0 : Fin 2) = win2_13.index t (0 : Fin 2) ∧ win2_0.index t (1 : Fin 2) = 0
    ∧ win2_1.index t (0 : Fin 2) = win2_13.index t (0 : Fin 2) ∧ win2_1.index t (1 : Fin 2) = 0
    ∧ win2_13.index t (1 : Fin 2) = 0 ∧ win2_13.index t (0 : Fin 2) ≤ 49
    ∧ (∀ a : Fin 3, win2_2.index t a = 0)
    ∧ (∀ a : Fin 2, win2_3.index t a = 0)
    ∧ (∀ a : Fin 3, win2_4.index t a = 0)
    ∧ (∀ a : Fin 2, win2_5.index t a = 0)
    ∧ (∀ a : Fin 2, win2_6.index t a = 0)
    ∧ (∀ a : Fin 2, win2_7.index t a = 0)
    ∧ (∀ a : Fin 2, win2_8.index t a = 0)
    ∧ (∀ a : Fin 3, win2_9.index t a = 0)
    ∧ (∀ a : Fin 2, win2_10.index t a = 0)
    ∧ (∀ a : Fin 3, win2_11.index t a = 0)
    ∧ (∀ a : Fin 2, win2_12.index t a = 0) :=
  (by decide +kernel : ∀ t : Fin grid2.N, _)

/-- Every block of rows is some point's. -/
theorem idx_onto : ∀ q : Fin 50, ∃ t : Fin cfg2.N, win2_13.index t = ![q.val, 0] :=
  (by decide +kernel : ∀ q : Fin 50, ∃ t : Fin grid2.N, win2_13.index t = ![q.val, 0])

/-- Window 2 is fetched whole: its block is the array. -/
theorem blk2_apply (t : Fin cfg2.N) (y : S5x256x256.Idx) : iblk2 V c 2 t y = V c main_arg9 y := by
  show V c main_arg9 (((cfg2.win 2).blk t).view.emb y) = V c main_arg9 y
  obtain ⟨-, -, -, -, -, -, e2, e3, e4, e5, e6, e7, e8, e9, e10, e11, e12⟩ := idx_facts t
  refine congrArg _ (funext fun a => Fin.ext ?_)
  match a with
  | ⟨0, _⟩ => show win2_2.index t (0 : Fin 3) * 5 + 1 * (y 0).val = (y 0).val; rw [e2 0]; omega
  | ⟨1, _⟩ => show win2_2.index t (1 : Fin 3) * 256 + 1 * (y 1).val = (y 1).val; rw [e2 1]; omega
  | ⟨2, _⟩ => show win2_2.index t (2 : Fin 3) * 256 + 1 * (y 2).val = (y 2).val; rw [e2 2]; omega

/-- Window 3 is fetched whole: its block is the array. -/
theorem blk3_apply (t : Fin cfg2.N) (y : S5x256.Idx) : iblk2 V c 3 t y = V c main_arg10 y := by
  show V c main_arg10 (((cfg2.win 3).blk t).view.emb y) = V c main_arg10 y
  obtain ⟨-, -, -, -, -, -, e2, e3, e4, e5, e6, e7, e8, e9, e10, e11, e12⟩ := idx_facts t
  refine congrArg _ (funext fun a => Fin.ext ?_)
  match a with
  | ⟨0, _⟩ => show win2_3.index t (0 : Fin 2) * 5 + 1 * (y 0).val = (y 0).val; rw [e3 0]; omega
  | ⟨1, _⟩ => show win2_3.index t (1 : Fin 2) * 256 + 1 * (y 1).val = (y 1).val; rw [e3 1]; omega

/-- Window 4 is fetched whole: its block is the array. -/
theorem blk4_apply (t : Fin cfg2.N) (y : S5x256x256.Idx) : iblk2 V c 4 t y = V c main_arg11 y := by
  show V c main_arg11 (((cfg2.win 4).blk t).view.emb y) = V c main_arg11 y
  obtain ⟨-, -, -, -, -, -, e2, e3, e4, e5, e6, e7, e8, e9, e10, e11, e12⟩ := idx_facts t
  refine congrArg _ (funext fun a => Fin.ext ?_)
  match a with
  | ⟨0, _⟩ => show win2_4.index t (0 : Fin 3) * 5 + 1 * (y 0).val = (y 0).val; rw [e4 0]; omega
  | ⟨1, _⟩ => show win2_4.index t (1 : Fin 3) * 256 + 1 * (y 1).val = (y 1).val; rw [e4 1]; omega
  | ⟨2, _⟩ => show win2_4.index t (2 : Fin 3) * 256 + 1 * (y 2).val = (y 2).val; rw [e4 2]; omega

/-- Window 5 is fetched whole: its block is the array. -/
theorem blk5_apply (t : Fin cfg2.N) (y : S5x256.Idx) : iblk2 V c 5 t y = V c main_arg12 y := by
  show V c main_arg12 (((cfg2.win 5).blk t).view.emb y) = V c main_arg12 y
  obtain ⟨-, -, -, -, -, -, e2, e3, e4, e5, e6, e7, e8, e9, e10, e11, e12⟩ := idx_facts t
  refine congrArg _ (funext fun a => Fin.ext ?_)
  match a with
  | ⟨0, _⟩ => show win2_5.index t (0 : Fin 2) * 5 + 1 * (y 0).val = (y 0).val; rw [e5 0]; omega
  | ⟨1, _⟩ => show win2_5.index t (1 : Fin 2) * 256 + 1 * (y 1).val = (y 1).val; rw [e5 1]; omega

/-- Window 6 is fetched whole: its block is the array. -/
theorem blk6_apply (t : Fin cfg2.N) (y : S256x256.Idx) : iblk2 V c 6 t y = V c main_arg13 y := by
  show V c main_arg13 (((cfg2.win 6).blk t).view.emb y) = V c main_arg13 y
  obtain ⟨-, -, -, -, -, -, e2, e3, e4, e5, e6, e7, e8, e9, e10, e11, e12⟩ := idx_facts t
  refine congrArg _ (funext fun a => Fin.ext ?_)
  match a with
  | ⟨0, _⟩ => show win2_6.index t (0 : Fin 2) * 256 + 1 * (y 0).val = (y 0).val; rw [e6 0]; omega
  | ⟨1, _⟩ => show win2_6.index t (1 : Fin 2) * 256 + 1 * (y 1).val = (y 1).val; rw [e6 1]; omega

/-- Window 7 is fetched whole: its block is the array. -/
theorem blk7_apply (t : Fin cfg2.N) (y : S1x256.Idx) : iblk2 V c 7 t y = V c main_v20 y := by
  show V c main_v20 (((cfg2.win 7).blk t).view.emb y) = V c main_v20 y
  obtain ⟨-, -, -, -, -, -, e2, e3, e4, e5, e6, e7, e8, e9, e10, e11, e12⟩ := idx_facts t
  refine congrArg _ (funext fun a => Fin.ext ?_)
  match a with
  | ⟨0, _⟩ => show win2_7.index t (0 : Fin 2) * 1 + 1 * (y 0).val = (y 0).val; rw [e7 0]; omega
  | ⟨1, _⟩ => show win2_7.index t (1 : Fin 2) * 256 + 1 * (y 1).val = (y 1).val; rw [e7 1]; omega

/-- Window 8 is fetched whole: its block is the array. -/
theorem blk8_apply (t : Fin cfg2.N) (y : S1x256.Idx) : iblk2 V c 8 t y = V c main_v19 y := by
  show V c main_v19 (((cfg2.win 8).blk t).view.emb y) = V c main_v19 y
  obtain ⟨-, -, -, -, -, -, e2, e3, e4, e5, e6, e7, e8, e9, e10, e11, e12⟩ := idx_facts t
  refine congrArg _ (funext fun a => Fin.ext ?_)
  match a with
  | ⟨0, _⟩ => show win2_8.index t (0 : Fin 2) * 1 + 1 * (y 0).val = (y 0).val; rw [e8 0]; omega
  | ⟨1, _⟩ => show win2_8.index t (1 : Fin 2) * 256 + 1 * (y 1).val = (y 1).val; rw [e8 1]; omega

/-- Window 9 is fetched whole: its block is the array. -/
theorem blk9_apply (t : Fin cfg2.N) (y : S5x256x256.Idx) : iblk2 V c 9 t y = V c main_arg16 y := by
  show V c main_arg16 (((cfg2.win 9).blk t).view.emb y) = V c main_arg16 y
  obtain ⟨-, -, -, -, -, -, e2, e3, e4, e5, e6, e7, e8, e9, e10, e11, e12⟩ := idx_facts t
  refine congrArg _ (funext fun a => Fin.ext ?_)
  match a with
  | ⟨0, _⟩ => show win2_9.index t (0 : Fin 3) * 5 + 1 * (y 0).val = (y 0).val; rw [e9 0]; omega
  | ⟨1, _⟩ => show win2_9.index t (1 : Fin 3) * 256 + 1 * (y 1).val = (y 1).val; rw [e9 1]; omega
  | ⟨2, _⟩ => show win2_9.index t (2 : Fin 3) * 256 + 1 * (y 2).val = (y 2).val; rw [e9 2]; omega

/-- Window 10 is fetched whole: its block is the array. -/
theorem blk10_apply (t : Fin cfg2.N) (y : S5x256.Idx) : iblk2 V c 10 t y = V c main_arg17 y := by
  show V c main_arg17 (((cfg2.win 10).blk t).view.emb y) = V c main_arg17 y
  obtain ⟨-, -, -, -, -, -, e2, e3, e4, e5, e6, e7, e8, e9, e10, e11, e12⟩ := idx_facts t
  refine congrArg _ (funext fun a => Fin.ext ?_)
  match a with
  | ⟨0, _⟩ => show win2_10.index t (0 : Fin 2) * 5 + 1 * (y 0).val = (y 0).val; rw [e10 0]; omega
  | ⟨1, _⟩ => show win2_10.index t (1 : Fin 2) * 256 + 1 * (y 1).val = (y 1).val; rw [e10 1]; omega

/-- Window 11 is fetched whole: its block is the array. -/
theorem blk11_apply (t : Fin cfg2.N) (y : S5x256x256.Idx) : iblk2 V c 11 t y = V c main_arg18 y := by
  show V c main_arg18 (((cfg2.win 11).blk t).view.emb y) = V c main_arg18 y
  obtain ⟨-, -, -, -, -, -, e2, e3, e4, e5, e6, e7, e8, e9, e10, e11, e12⟩ := idx_facts t
  refine congrArg _ (funext fun a => Fin.ext ?_)
  match a with
  | ⟨0, _⟩ => show win2_11.index t (0 : Fin 3) * 5 + 1 * (y 0).val = (y 0).val; rw [e11 0]; omega
  | ⟨1, _⟩ => show win2_11.index t (1 : Fin 3) * 256 + 1 * (y 1).val = (y 1).val; rw [e11 1]; omega
  | ⟨2, _⟩ => show win2_11.index t (2 : Fin 3) * 256 + 1 * (y 2).val = (y 2).val; rw [e11 2]; omega

/-- Window 12 is fetched whole: its block is the array. -/
theorem blk12_apply (t : Fin cfg2.N) (y : S5x256.Idx) : iblk2 V c 12 t y = V c main_arg19 y := by
  show V c main_arg19 (((cfg2.win 12).blk t).view.emb y) = V c main_arg19 y
  obtain ⟨-, -, -, -, -, -, e2, e3, e4, e5, e6, e7, e8, e9, e10, e11, e12⟩ := idx_facts t
  refine congrArg _ (funext fun a => Fin.ext ?_)
  match a with
  | ⟨0, _⟩ => show win2_12.index t (0 : Fin 2) * 5 + 1 * (y 0).val = (y 0).val; rw [e12 0]; omega
  | ⟨1, _⟩ => show win2_12.index t (1 : Fin 2) * 256 + 1 * (y 1).val = (y 1).val; rw [e12 1]; omega

theorem rd2 (t : Fin cfg2.N) : layerMat (iblk2 V c 2 t : Vec Ideal S5x256x256 .f32) = layerMat (V c main_arg9 : Vec Ideal S5x256x256 .f32) :=
  funext fun l => funext fun k => funext fun j => blk2_apply V c t (ix3 l k j)

theorem rd3 (t : Fin cfg2.N) : layerVec (iblk2 V c 3 t : Vec Ideal S5x256 .f32) = layerVec (V c main_arg10 : Vec Ideal S5x256 .f32) :=
  funext fun l => funext fun j => blk3_apply V c t (ix2 l j)

theorem rd4 (t : Fin cfg2.N) : layerMat (iblk2 V c 4 t : Vec Ideal S5x256x256 .f32) = layerMat (V c main_arg11 : Vec Ideal S5x256x256 .f32) :=
  funext fun l => funext fun k => funext fun j => blk4_apply V c t (ix3 l k j)

theorem rd5 (t : Fin cfg2.N) : layerVec (iblk2 V c 5 t : Vec Ideal S5x256 .f32) = layerVec (V c main_arg12 : Vec Ideal S5x256 .f32) :=
  funext fun l => funext fun j => blk5_apply V c t (ix2 l j)

theorem rd6 (t : Fin cfg2.N) : matOf (iblk2 V c 6 t : Vec Ideal S256x256 .f32) = matOf (V c main_arg13 : Vec Ideal S256x256 .f32) :=
  funext fun k => funext fun j => blk6_apply V c t (ix2 k j)

theorem rd7 (t : Fin cfg2.N) : row0 (iblk2 V c 7 t : Vec Ideal S1x256 .f32) = row0 (V c main_v20 : Vec Ideal S1x256 .f32) :=
  funext fun j => blk7_apply V c t (ix2 0 j)

theorem rd8 (t : Fin cfg2.N) : row0 (iblk2 V c 8 t : Vec Ideal S1x256 .f32) = row0 (V c main_v19 : Vec Ideal S1x256 .f32) :=
  funext fun j => blk8_apply V c t (ix2 0 j)

theorem rd9 (t : Fin cfg2.N) : layerMat (iblk2 V c 9 t : Vec Ideal S5x256x256 .f32) = layerMat (V c main_arg16 : Vec Ideal S5x256x256 .f32) :=
  funext fun l => funext fun k => funext fun j => blk9_apply V c t (ix3 l k j)

theorem rd10 (t : Fin cfg2.N) : layerVec (iblk2 V c 10 t : Vec Ideal S5x256 .f32) = layerVec (V c main_arg17 : Vec Ideal S5x256 .f32) :=
  funext fun l => funext fun j => blk10_apply V c t (ix2 l j)

theorem rd11 (t : Fin cfg2.N) : layerMat (iblk2 V c 11 t : Vec Ideal S5x256x256 .f32) = layerMat (V c main_arg18 : Vec Ideal S5x256x256 .f32) :=
  funext fun l => funext fun k => funext fun j => blk11_apply V c t (ix3 l k j)

theorem rd12 (t : Fin cfg2.N) : layerVec (iblk2 V c 12 t : Vec Ideal S5x256 .f32) = layerVec (V c main_arg19 : Vec Ideal S5x256 .f32) :=
  funext fun l => funext fun j => blk12_apply V c t (ix2 l j)

/-- Row `r` of point `t`'s block of the messages is row `2000 t + r` of the array: the row the output's block has there. -/
theorem row0_eq (t : Fin cfg2.N) (r : Fin 2000) (cc : Fin 256) :
    rowOf (iblk2 V c 0 t : Vec Ideal S2000x256 .f32) r
      = rowOf (V c main_v18 : Vec Ideal S100000x256 .f32) ((((cfg2.win 13).blk t).view.emb (ix2 r cc) : S100000x256.Idx) 0) := by
  funext k
  show V c main_v18 (((cfg2.win 0).blk t).view.emb (ix2 r k)) = V c main_v18 (ix2 ((((cfg2.win 13).blk t).view.emb (ix2 r cc) : S100000x256.Idx) 0) k)
  obtain ⟨e0, e1, -⟩ := idx_facts t
  refine congrArg _ (funext fun a => Fin.ext ?_)
  match a with
  | ⟨0, _⟩ => show win2_0.index t (0 : Fin 2) * 2000 + 1 * r.val = win2_13.index t (0 : Fin 2) * 2000 + 1 * r.val; rw [e0]
  | ⟨1, _⟩ => show win2_0.index t (1 : Fin 2) * 256 + 1 * k.val = k.val; rw [e1]; omega

/-- The same for the node features. -/
theorem row1_eq (t : Fin cfg2.N) (r : Fin 2000) (cc : Fin 256) :
    rowOf (iblk2 V c 1 t : Vec Ideal S2000x256 .f32) r
      = rowOf (V c main_arg0 : Vec Ideal S100000x256 .f32) ((((cfg2.win 13).blk t).view.emb (ix2 r cc) : S100000x256.Idx) 0) := by
  funext k
  show V c main_arg0 (((cfg2.win 1).blk t).view.emb (ix2 r k)) = V c main_arg0 (ix2 ((((cfg2.win 13).blk t).view.emb (ix2 r cc) : S100000x256.Idx) 0) k)
  obtain ⟨-, -, e0, e1, -⟩ := idx_facts t
  refine congrArg _ (funext fun a => Fin.ext ?_)
  match a with
  | ⟨0, _⟩ => show win2_1.index t (0 : Fin 2) * 2000 + 1 * r.val = win2_13.index t (0 : Fin 2) * 2000 + 1 * r.val; rw [e0]
  | ⟨1, _⟩ => show win2_1.index t (1 : Fin 2) * 256 + 1 * k.val = k.val; rw [e1]; omega

/-- A column inside the output's block is the same column of the array. -/
theorem col_eq (t : Fin cfg2.N) (r : Fin 2000) (cc : Fin 256) :
    ((((cfg2.win 13).blk t).view.emb (ix2 r cc) : S100000x256.Idx) 1) = cc := by
  obtain ⟨-, -, -, -, e, -⟩ := idx_facts t
  apply Fin.ext
  show win2_13.index t (1 : Fin 2) * 256 + 1 * cc.val = cc.val
  rw [e]; omega

/-- The whole-array function the output ends holding. -/
def G : Vec Ideal S100000x256 .f32 :=
  xOf (layerMat (V c main_arg9 : Vec Ideal S5x256x256 .f32)) (layerVec (V c main_arg10 : Vec Ideal S5x256 .f32))
    (layerMat (V c main_arg11 : Vec Ideal S5x256x256 .f32)) (layerVec (V c main_arg12 : Vec Ideal S5x256 .f32))
    (matOf (V c main_arg13 : Vec Ideal S256x256 .f32)) (row0 (V c main_v20 : Vec Ideal S1x256 .f32)) (row0 (V c main_v19 : Vec Ideal S1x256 .f32))
    (layerMat (V c main_arg16 : Vec Ideal S5x256x256 .f32)) (layerVec (V c main_arg17 : Vec Ideal S5x256 .f32))
    (layerMat (V c main_arg18 : Vec Ideal S5x256x256 .f32)) (layerVec (V c main_arg19 : Vec Ideal S5x256 .f32))
    (V c main_v18 : Vec Ideal S100000x256 .f32) (V c main_arg0 : Vec Ideal S100000x256 .f32)

/-- WHAT POINT `t` WRITES BACK is block `t` of `G`. -/
theorem flushed_eq (hpay : ∀ (x0 x1 : Vec Ideal S2000x256 .f32) (x2 : Vec Ideal S5x256x256 .f32) (x3 : Vec Ideal S5x256 .f32)
      (x4 : Vec Ideal S5x256x256 .f32) (x5 : Vec Ideal S5x256 .f32) (x6 : Vec Ideal S256x256 .f32) (x7 x8 : Vec Ideal S1x256 .f32)
      (x9 : Vec Ideal S5x256x256 .f32) (x10 : Vec Ideal S5x256 .f32) (x11 : Vec Ideal S5x256x256 .f32) (x12 : Vec Ideal S5x256 .f32),
      out2_13 (F := Ideal) x0 x1 x2 x3 x4 x5 x6 x7 x8 x9 x10 x11 x12
        = xOf (layerMat x2) (layerVec x3) (layerMat x4) (layerVec x5) (matOf x6) (row0 x7) (row0 x8) (layerMat x9) (layerVec x10)
            (layerMat x11) (layerVec x12) x0 x1)
    (t : Fin cfg2.N) :
    (dat2 (F := Ideal) V c).flushed 13 t = ((cfg2.win 13).blk t).view.read (Elt Ideal) (G V c) := by
  show (cfg2.win 13).cut (grid2.coords t) ((dat2 V c).after 13 t) = _
  rw [after2_13]
  rw [hpay (iblk2 V c 0 t) (iblk2 V c 1 t) (iblk2 V c 2 t) (iblk2 V c 3 t) (iblk2 V c 4 t) (iblk2 V c 5 t) (iblk2 V c 6 t)
    (iblk2 V c 7 t) (iblk2 V c 8 t) (iblk2 V c 9 t) (iblk2 V c 10 t) (iblk2 V c 11 t) (iblk2 V c 12 t)]
  funext j
  obtain ⟨r, cc, rfl⟩ : ∃ (r : Fin 2000) (cc : Fin 256), j = ix2 r cc := ⟨j 0, j 1, eq_ix2 j⟩
  show xrow (layerMat (iblk2 V c 2 t : Vec Ideal S5x256x256 .f32)) (layerVec (iblk2 V c 3 t : Vec Ideal S5x256 .f32))
      (layerMat (iblk2 V c 4 t : Vec Ideal S5x256x256 .f32)) (layerVec (iblk2 V c 5 t : Vec Ideal S5x256 .f32))
      (matOf (iblk2 V c 6 t : Vec Ideal S256x256 .f32)) (row0 (iblk2 V c 7 t : Vec Ideal S1x256 .f32)) (row0 (iblk2 V c 8 t : Vec Ideal S1x256 .f32))
      (layerMat (iblk2 V c 9 t : Vec Ideal S5x256x256 .f32)) (layerVec (iblk2 V c 10 t : Vec Ideal S5x256 .f32))
      (layerMat (iblk2 V c 11 t : Vec Ideal S5x256x256 .f32)) (layerVec (iblk2 V c 12 t : Vec Ideal S5x256 .f32))
      (rowOf (iblk2 V c 0 t : Vec Ideal S2000x256 .f32) r) (rowOf (iblk2 V c 1 t : Vec Ideal S2000x256 .f32) r) cc
    = xrow (layerMat (V c main_arg9 : Vec Ideal S5x256x256 .f32)) (layerVec (V c main_arg10 : Vec Ideal S5x256 .f32))
      (layerMat (V c main_arg11 : Vec Ideal S5x256x256 .f32)) (layerVec (V c main_arg12 : Vec Ideal S5x256 .f32))
      (matOf (V c main_arg13 : Vec Ideal S256x256 .f32)) (row0 (V c main_v20 : Vec Ideal S1x256 .f32)) (row0 (V c main_v19 : Vec Ideal S1x256 .f32))
      (layerMat (V c main_arg16 : Vec Ideal S5x256x256 .f32)) (layerVec (V c main_arg17 : Vec Ideal S5x256 .f32))
      (layerMat (V c main_arg18 : Vec Ideal S5x256x256 .f32)) (layerVec (V c main_arg19 : Vec Ideal S5x256 .f32))
      (rowOf (V c main_v18 : Vec Ideal S100000x256 .f32) ((((cfg2.win 13).blk t).view.emb (ix2 r cc) : S100000x256.Idx) 0))
      (rowOf (V c main_arg0 : Vec Ideal S100000x256 .f32) ((((cfg2.win 13).blk t).view.emb (ix2 r cc) : S100000x256.Idx) 0))
      ((((cfg2.win 13).blk t).view.emb (ix2 r cc) : S100000x256.Idx) 1)
  rw [rd2 V c t, rd3 V c t, rd4 V c t, rd5 V c t, rd6 V c t, rd7 V c t, rd8 V c t, rd9 V c t, rd10 V c t, rd11 V c t, rd12 V c t,
    row0_eq V c t r cc, row1_eq V c t r cc, col_eq t r cc]

/-- An index of the output array is in point `t`'s block iff each coordinate is in the block's range on its axis. -/
theorem mem_blk (t : Fin cfg2.N) (i : S100000x256.Idx) :
    i ∈ ((cfg2.win 13).blk t).view.set ↔ ∀ a : Fin 2, win2_13.index t a * S2000x256.size a ≤ (i a).val ∧ (i a).val < win2_13.index t a * S2000x256.size a + S2000x256.size a := by
  show i ∈ ((View.whole main_v21).slice (win2_13.rect t)).set ↔ _
  rw [View.set_slice_whole, Rect.mem_set_unit]
  exact Iff.rfl

/-- The blocks of rows tile the output: row `i` is in the block of point `i / 2000`. -/
theorem cover (i : S100000x256.Idx) : ∃ t : Fin cfg2.N, (cfg2.win 13).flush t = true ∧ i ∈ ((cfg2.win 13).blk t).view.set := by
  have hi0 : (i 0).val < 100000 := (i 0).isLt
  have hi1 : (i 1).val < 256 := (i 1).isLt
  obtain ⟨t, ht⟩ := idx_onto ⟨(i 0).val / 2000, by omega⟩
  have q0 : win2_13.index t (0 : Fin 2) = (i 0).val / 2000 := congrFun ht 0
  have q1 : win2_13.index t (1 : Fin 2) = 0 := congrFun ht 1
  refine ⟨t, flush2_13 t, ?_⟩
  rw [mem_blk]
  intro a
  match a with
  | ⟨0, _⟩ => show win2_13.index t (0 : Fin 2) * 2000 ≤ (i 0).val ∧ (i 0).val < win2_13.index t (0 : Fin 2) * 2000 + 2000; omega
  | ⟨1, _⟩ => show win2_13.index t (1 : Fin 2) * 256 ≤ (i 1).val ∧ (i 1).val < win2_13.index t (1 : Fin 2) * 256 + 256; omega

/-- THE OUTPUT ARRAY after the region: `G` of what the region found in its operands. -/
theorem arr2 (hpay : ∀ (x0 x1 : Vec Ideal S2000x256 .f32) (x2 : Vec Ideal S5x256x256 .f32) (x3 : Vec Ideal S5x256 .f32)
      (x4 : Vec Ideal S5x256x256 .f32) (x5 : Vec Ideal S5x256 .f32) (x6 : Vec Ideal S256x256 .f32) (x7 x8 : Vec Ideal S1x256 .f32)
      (x9 : Vec Ideal S5x256x256 .f32) (x10 : Vec Ideal S5x256 .f32) (x11 : Vec Ideal S5x256x256 .f32) (x12 : Vec Ideal S5x256 .f32),
      out2_13 (F := Ideal) x0 x1 x2 x3 x4 x5 x6 x7 x8 x9 x10 x11 x12
        = xOf (layerMat x2) (layerVec x3) (layerMat x4) (layerVec x5) (matOf x6) (row0 x7) (row0 x8) (layerMat x9) (layerVec x10)
            (layerMat x11) (layerVec x12) x0 x1) :
    (dat2 (F := Ideal) V c).arrAt 13 cfg2.N = G V c :=
  (dat2 (F := Ideal) V c).arrAt_eq_of_cover 13 (G V c) (fun t _ => flushed_eq V c hpay t) (cover)

end Cert.KernelIdeal.FusedArray

end
-- ==== Proof.Results.lean ====
/-
  The two results as functions of the argument arrays. The second result is the edge projection
  `edge_attr · W_d2f + b_d2f`. The first is the chain of residual layers applied, node by node, to the aggregated
  messages — the node projection `h · W_i + b_i` gathered along the edges, weighted by the edge projection and summed
  at the targets — and to the node's own features.
-/
import proofs.«108374_j17257178595652_2_alg».proof.Proof.Spec
import proofs.«108374_j17257178595652_2_alg».proof.Proof.MsgPass

noncomputable section

namespace Cert.Results

open Idealize.ShloMosaic Cert.KernelIdeal Cert.Spec

/-- The edge projection. -/
def gFn (ea : Vec Ideal S800000x100 .f32) (Wd : Vec Ideal S100x256 .f32) (bd : Vec Ideal S256 .f32) : Vec Ideal S800000x256 .f32 :=
  proj ea Wd (vecOf bd)

/-- The node projection. -/
def yFn (h : Vec Ideal S100000x256 .f32) (Wi : Vec Ideal S256x256 .f32) (bi : Vec Ideal S256 .f32) : Vec Ideal S100000x256 .f32 :=
  proj h Wi (vecOf bi)

/-- The node features after message passing and both stacks of residual layers. -/
def xFn (h : Vec Ideal S100000x256 .f32) (ei : Vec Ideal S2x800000 .i32) (ea : Vec Ideal S800000x100 .f32)
    (Wd : Vec Ideal S100x256 .f32) (bd : Vec Ideal S256 .f32) (Wi : Vec Ideal S256x256 .f32) (bi : Vec Ideal S256 .f32)
    (rW1 : Vec Ideal S5x256x256 .f32) (rb1 : Vec Ideal S5x256 .f32) (rW2 : Vec Ideal S5x256x256 .f32) (rb2 : Vec Ideal S5x256 .f32)
    (Wo : Vec Ideal S256x256 .f32) (bo u : Vec Ideal S256 .f32)
    (aW1 : Vec Ideal S5x256x256 .f32) (ab1 : Vec Ideal S5x256 .f32) (aW2 : Vec Ideal S5x256x256 .f32) (ab2 : Vec Ideal S5x256 .f32) :
    Vec Ideal S100000x256 .f32 :=
  xOf (layerMat rW1) (layerVec rb1) (layerMat rW2) (layerVec rb2) (matOf Wo) (vecOf bo) (vecOf u)
    (layerMat aW1) (layerVec ab1) (layerMat aW2) (layerVec ab2) (Cert.Msg.msgOf (yFn h Wi bi) (gFn ea Wd bd) ei) h

end Cert.Results

end
-- ==== Proof.KValue.lean ====
/-
  The idealized kernel's two results as functions of its arguments. The run ends with every buffer at the last
  boundary's contents; the second result there is the first region's output, the edge projection of the launch
  arrays; the first result is the third region's output, the chain of residual layers over the aggregated messages —
  which the host computed from the two projections' outputs — and the node features.
-/
import proofs.«108374_j17257178595652_2_alg».proof.Proof.KRun
import proofs.«108374_j17257178595652_2_alg».proof.Proof.KFold
import proofs.«108374_j17257178595652_2_alg».proof.Proof.FusedArray
import proofs.«108374_j17257178595652_2_alg».proof.Proof.Results
import Idealize.ShloMosaic.Lib.ValueLayout

set_option maxRecDepth 16384

noncomputable section

namespace Cert.KernelIdeal.KValue

open Cert.KernelIdeal Cert.KernelIdeal.Gen Cert.Spec Cert.Results Cert.KernelIdeal.KFold
open Idealize.ShloMosaic Idealize.ShloMosaic.TcCoe Idealize.ShloMosaic.ValueIdx Idealize.SL.Sem

/-- A vector reshaped to one row, read back as that row, is the vector. -/
theorem row0_reshape (x : Vec Ideal S256 .f32) : row0 (shapeCast S1x256 x shapeCasts_S256_S1x256) = vecOf x :=
  funext fun j => shapeCast_a_1a_apply x shapeCasts_S256_S1x256 0 j

variable (m : (ℓ : Loc nD τ sig) → Buf (Elt Ideal) ℓ) (ρ : Dev nD → PrngReg) (c : Dev nD)

/-- The first projection's output array is the edge projection of the launch arrays. -/
theorem g_arr (harr0 : ∀ (V : (c : Dev nD) → (b : Ref sig .tc) → Buf (Elt Ideal) ((c : Thread nD τ).loc b)) (c : Dev nD),
      (dat0 (F := Ideal) V c).arrAt 3 cfg0.N
        = proj (V c main_arg3 : Vec Ideal S800000x100 .f32) (V c main_arg5 : Vec Ideal S100x256 .f32) (row0 (V c main_v0 : Vec Ideal S1x256 .f32))) :
    (dat0 (V1 m ρ) c).arrAt 3 cfg0.N = gFn (m ((c : Thread nD τ).loc main_arg3)) (m ((c : Thread nD τ).loc main_arg5)) (m ((c : Thread nD τ).loc main_arg6)) := by
  rw [harr0 (V1 m ρ) c]
  have e3 : V1 m ρ c main_arg3 = (m ((c : Thread nD τ).loc main_arg3)) := W1_arg3 m ρ c
  have e5 : V1 m ρ c main_arg5 = (m ((c : Thread nD τ).loc main_arg5)) := W1_arg5 m ρ c
  have e0 : V1 m ρ c main_v0 = shapeCast S1x256 (m ((c : Thread nD τ).loc main_arg6)) shapeCasts_S256_S1x256 := W1_v0 m ρ c
  rw [e3, e5, e0, row0_reshape]
  rfl

/-- The second projection's output array is the node projection of the launch arrays. -/
theorem y_arr (harr1 : ∀ (V : (c : Dev nD) → (b : Ref sig .tc) → Buf (Elt Ideal) ((c : Thread nD τ).loc b)) (c : Dev nD),
      (dat1 (F := Ideal) V c).arrAt 3 cfg1.N
        = proj (V c main_arg0 : Vec Ideal S100000x256 .f32) (V c main_arg7 : Vec Ideal S256x256 .f32) (row0 (V c main_v2 : Vec Ideal S1x256 .f32))) :
    (dat1 (V3 m ρ) c).arrAt 3 cfg1.N = yFn (m ((c : Thread nD τ).loc main_arg0)) (m ((c : Thread nD τ).loc main_arg7)) (m ((c : Thread nD τ).loc main_arg8)) := by
  rw [harr1 (V3 m ρ) c]
  have e0 : V3 m ρ c main_arg0 = (m ((c : Thread nD τ).loc main_arg0)) := W3_arg0 m ρ c
  have e7 : V3 m ρ c main_arg7 = (m ((c : Thread nD τ).loc main_arg7)) := W3_arg7 m ρ c
  have e2 : V3 m ρ c main_v2 = shapeCast S1x256 (m ((c : Thread nD τ).loc main_arg8)) shapeCasts_S256_S1x256 := W3_v2 m ρ c
  rw [e0, e7, e2, row0_reshape]
  rfl

/-- The second result. -/
theorem g_val (harr0 : ∀ (V : (c : Dev nD) → (b : Ref sig .tc) → Buf (Elt Ideal) ((c : Thread nD τ).loc b)) (c : Dev nD),
      (dat0 (F := Ideal) V c).arrAt 3 cfg0.N
        = proj (V c main_arg3 : Vec Ideal S800000x100 .f32) (V c main_arg5 : Vec Ideal S100x256 .f32) (row0 (V c main_v0 : Vec Ideal S1x256 .f32))) :
    W6 m ρ c (Proc.devRef .tc main_v1) = gFn (m ((c : Thread nD τ).loc main_arg3)) (m ((c : Thread nD τ).loc main_arg5)) (m ((c : Thread nD τ).loc main_arg6)) :=
  (W6_v1 m ρ c).trans (g_arr m ρ c harr0)

/-- The first result. -/
theorem x_val (harr0 : ∀ (V : (c : Dev nD) → (b : Ref sig .tc) → Buf (Elt Ideal) ((c : Thread nD τ).loc b)) (c : Dev nD),
      (dat0 (F := Ideal) V c).arrAt 3 cfg0.N
        = proj (V c main_arg3 : Vec Ideal S800000x100 .f32) (V c main_arg5 : Vec Ideal S100x256 .f32) (row0 (V c main_v0 : Vec Ideal S1x256 .f32)))
    (harr1 : ∀ (V : (c : Dev nD) → (b : Ref sig .tc) → Buf (Elt Ideal) ((c : Thread nD τ).loc b)) (c : Dev nD),
      (dat1 (F := Ideal) V c).arrAt 3 cfg1.N
        = proj (V c main_arg0 : Vec Ideal S100000x256 .f32) (V c main_arg7 : Vec Ideal S256x256 .f32) (row0 (V c main_v2 : Vec Ideal S1x256 .f32)))
    (hpay : ∀ (x0 x1 : Vec Ideal S2000x256 .f32) (x2 : Vec Ideal S5x256x256 .f32) (x3 : Vec Ideal S5x256 .f32)
      (x4 : Vec Ideal S5x256x256 .f32) (x5 : Vec Ideal S5x256 .f32) (x6 : Vec Ideal S256x256 .f32) (x7 x8 : Vec Ideal S1x256 .f32)
      (x9 : Vec Ideal S5x256x256 .f32) (x10 : Vec Ideal S5x256 .f32) (x11 : Vec Ideal S5x256x256 .f32) (x12 : Vec Ideal S5x256 .f32),
      out2_13 (F := Ideal) x0 x1 x2 x3 x4 x5 x6 x7 x8 x9 x10 x11 x12
        = xOf (layerMat x2) (layerVec x3) (layerMat x4) (layerVec x5) (matOf x6) (row0 x7) (row0 x8) (layerMat x9) (layerVec x10)
            (layerMat x11) (layerVec x12) x0 x1) :
    W6 m ρ c (Proc.devRef .tc main_v21)
      = xFn (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  rw [W6_v21, Cert.KernelIdeal.FusedArray.arr2 (V5 m ρ) c hpay]
  unfold Cert.KernelIdeal.FusedArray.G
  have e0 : V5 m ρ c main_arg0 = (m ((c : Thread nD τ).loc main_arg0)) := W5_arg0 m ρ c
  have e9 : V5 m ρ c main_arg9 = (m ((c : Thread nD τ).loc main_arg9)) := W5_arg9 m ρ c
  have e10 : V5 m ρ c main_arg10 = (m ((c : Thread nD τ).loc main_arg10)) := W5_arg10 m ρ c
  have e11 : V5 m ρ c main_arg11 = (m ((c : Thread nD τ).loc main_arg11)) := W5_arg11 m ρ c
  have e12 : V5 m ρ c main_arg12 = (m ((c : Thread nD τ).loc main_arg12)) := W5_arg12 m ρ c
  have e13 : V5 m ρ c main_arg13 = (m ((c : Thread nD τ).loc main_arg13)) := W5_arg13 m ρ c
  have e16 : V5 m ρ c main_arg16 = (m ((c : Thread nD τ).loc main_arg16)) := W5_arg16 m ρ c
  have e17 : V5 m ρ c main_arg17 = (m ((c : Thread nD τ).loc main_arg17)) := W5_arg17 m ρ c
  have e18 : V5 m ρ c main_arg18 = (m ((c : Thread nD τ).loc main_arg18)) := W5_arg18 m ρ c
  have e19 : V5 m ρ c main_arg19 = (m ((c : Thread nD τ).loc main_arg19)) := W5_arg19 m ρ c
  have ev19 : V5 m ρ c main_v19 = shapeCast S1x256 (m ((c : Thread nD τ).loc main_arg15)) shapeCasts_S256_S1x256 := W5_v19 m ρ c
  have ev20 : V5 m ρ c main_v20 = shapeCast S1x256 (m ((c : Thread nD τ).loc main_arg14)) shapeCasts_S256_S1x256 := W5_v20 m ρ c
  have ev18 : V5 m ρ c main_v18 = Cert.Msg.msgOf (yFn (m ((c : Thread nD τ).loc main_arg0)) (m ((c : Thread nD τ).loc main_arg7)) (m ((c : Thread nD τ).loc main_arg8))) (gFn (m ((c : Thread nD τ).loc main_arg3)) (m ((c : Thread nD τ).loc main_arg5)) (m ((c : Thread nD τ).loc main_arg6))) (m ((c : Thread nD τ).loc main_arg1)) := by
    refine (W5_v18 m ρ c).trans ?_
    rw [W4_v3, W4_v1, y_arr m ρ c harr1, g_arr m ρ c harr0]
  rw [e0, e9, e10, e11, e12, e13, e16, e17, e18, e19, ev19, ev20, ev18, row0_reshape, row0_reshape]
  rfl

/-- THE RUN, READ: every weakly fair execution of the idealized kernel terminates, nothing faulting, with the first
    result at the chain of residual layers over the aggregated messages, the second at the edge projection, and the
    arguments as launched. -/
theorem run (harr0 : ∀ (V : (c : Dev nD) → (b : Ref sig .tc) → Buf (Elt Ideal) ((c : Thread nD τ).loc b)) (c : Dev nD),
      (dat0 (F := Ideal) V c).arrAt 3 cfg0.N
        = proj (V c main_arg3 : Vec Ideal S800000x100 .f32) (V c main_arg5 : Vec Ideal S100x256 .f32) (row0 (V c main_v0 : Vec Ideal S1x256 .f32)))
    (harr1 : ∀ (V : (c : Dev nD) → (b : Ref sig .tc) → Buf (Elt Ideal) ((c : Thread nD τ).loc b)) (c : Dev nD),
      (dat1 (F := Ideal) V c).arrAt 3 cfg1.N
        = proj (V c main_arg0 : Vec Ideal S100000x256 .f32) (V c main_arg7 : Vec Ideal S256x256 .f32) (row0 (V c main_v2 : Vec Ideal S1x256 .f32)))
    (hpay : ∀ (x0 x1 : Vec Ideal S2000x256 .f32) (x2 : Vec Ideal S5x256x256 .f32) (x3 : Vec Ideal S5x256 .f32)
      (x4 : Vec Ideal S5x256x256 .f32) (x5 : Vec Ideal S5x256 .f32) (x6 : Vec Ideal S256x256 .f32) (x7 x8 : Vec Ideal S1x256 .f32)
      (x9 : Vec Ideal S5x256x256 .f32) (x10 : Vec Ideal S5x256 .f32) (x11 : Vec Ideal S5x256x256 .f32) (x12 : Vec Ideal S5x256 .f32),
      out2_13 (F := Ideal) x0 x1 x2 x3 x4 x5 x6 x7 x8 x9 x10 x11 x12
        = xOf (layerMat x2) (layerVec x3) (layerMat x4) (layerVec x5) (matOf x6) (row0 x7) (row0 x8) (layerMat x9) (layerVec x10)
            (layerMat x11) (layerVec x12) x0 x1) :
    θ_run defs (onTc (τ := τ) (main (F := Ideal))) ⟨m, fun _ => 0, ρ⟩ (fun r => ∀ c : Dev nD,
      r.2.mem ((c.tc : Thread nD τ).loc main_v21) = xFn (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_v1) = gFn (m ((c.tc : Thread nD τ).loc main_arg3)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨(h c _ (mem_uc main_v21 (by decide))).trans (x_val m ρ c harr0 harr1 hpay),
     (h c _ (mem_uc main_v1 (by decide))).trans (g_val m ρ c harr0),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c),
     (h c _ (mem_uc main_arg14 (by decide))).trans (W6_main_arg14 m ρ c),
     (h c _ (mem_uc main_arg15 (by decide))).trans (W6_main_arg15 m ρ c),
     (h c _ (mem_uc main_arg16 (by decide))).trans (W6_main_arg16 m ρ c),
     (h c _ (mem_uc main_arg17 (by decide))).trans (W6_main_arg17 m ρ c),
     (h c _ (mem_uc main_arg18 (by decide))).trans (W6_main_arg18 m ρ c),
     (h c _ (mem_uc main_arg19 (by decide))).trans (W6_main_arg19 m ρ c)⟩)
    (Cert.KernelIdeal.KRun.run_all m ρ)

end Cert.KernelIdeal.KValue

end
-- ==== Proof.LibHostMatmulNN.lean ====
/-
  A host program's matrix product `A · B` and a vector broadcast along the rows of a matrix, read at an index on the
  extended reals.

  `stablehlo.dot_general` of an `[M, K]` by a `[K, N]` operand — the left operand's last axis contracted with the right
  operand's first, no batch axes (jnp `x @ W`; dimension numbers `[1] x [0]`, free axes `[0]` and `[1]`) — is, at
  `(i, j)`, the sum over `k : Fin K` of `A(i, k) · B(k, j)`: the host's schedule of the additions does not matter on
  the extended reals. Stated for ANY record of dimension numbers with those six lists (each hypothesis closed by `rfl`
  at a printed record); imports only the Idealize library. `stablehlo.broadcast_in_dim` of a vector `[b]` to `[a, b]` along axis 1 (jnp `broadcast_to` of a
  bias or of one row of features to every row) reads, at `(p, c)`, the vector at `c`.
-/
import Idealize.ShloMosaic.Lib.ValueIdx
import Idealize.ShloMosaic.Lib.Pipeline.Value
import Idealize.ShloMosaic.PureOps.Ideal.Laws

noncomputable section

open scoped BigOperators

namespace Cert.LibHostMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- The host's `A · B`, at `(i, j)`, is `Σ_k A[i, k] · B[k, j]`. -/
theorem hostDot_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    Host.dotGeneral d prec A B (ix2 i j) = ∑ k : Fin K, A (ix2 i k) * B (ix2 k j) := by
  have hr := contr_rank d hlc
  have hs := contr_size d hlc
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

/-- A vector `[b]` broadcast to `[a, b]` along the rows reads, at `(p, c)`, the vector at `c`. -/
theorem broadcastInDim_b_ab_apply {α : Type} {a b : ℕ} (dims : Fin 1 → Fin 2)
    (h : (⟨1, ![b]⟩ : Shape).BroadcastsInDim ⟨2, ![a, b]⟩ dims) (hd : dims 0 = 1)
    (v : (⟨1, ![b]⟩ : Shape).Idx → α) (p : Fin a) (c : Fin b) :
    broadcastInDim ⟨2, ![a, b]⟩ dims h v (ix2 p c) = v (ix1 c) := by
  refine broadcastInDim_apply dims h v (ix2 p c) (ix1 c) fun ax => ?_
  match ax with
  | ⟨0, _⟩ =>
    show c.val = if b = 1 then 0 else (ix2 p c (dims 0)).val
    rw [hd]
    show c.val = if b = 1 then 0 else c.val
    split
    · have := c.isLt; omega
    · rfl

end Cert.LibHostMatmulNN

end
-- ==== Proof.RefValue.lean ====
/-
  The reference program's two results are the specification's whole-array forms.

  Its first result is a matrix product with a bias row added to every row, `proj`. Its second result is, row by row,
  the chain `xrow`: five residual layers on the aggregated message row, the combination with the node's own row, five
  more residual layers. The program writes a layer as `(v + h₁ · W₂) + b₂` where the specification has
  `v + (h₁ · W₂ + b₂)`; addition of extended reals is associative, so the two agree with no finiteness assumption.
  Each layer's matrices are one slab of a stack `[5, 256, 256]` and its bias one row of `[5, 256]`; a bias is laid
  along every row by two broadcasts, `[256] → [1, 256] → [rows, 256]`.
-/
import proofs.«108374_j17257178595652_2_alg».proof.Proof.Gen.ReferenceIdeal.Run
import proofs.«108374_j17257178595652_2_alg».proof.Proof.Spec
import proofs.«108374_j17257178595652_2_alg».proof.Proof.LibHostMatmulNN
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.RefValue

open Cert.ReferenceIdeal Cert.ReferenceIdeal.Gen Cert.ReferenceIdeal.Value Idealize.ShloMosaic
  Idealize.ShloMosaic.StableHlo Idealize.ShloMosaic.ValueIdx

/-! ## A bias laid along every row -/

/-- A one-row matrix broadcast down `a` rows reads, at `(p, c)`, the row at `(0, c)`. -/
theorem bcast_1b_ab_apply {α : Type} {a b : ℕ} (dims : Fin 2 → Fin 2)
    (h : (⟨2, ![1, b]⟩ : Shape).BroadcastsInDim ⟨2, ![a, b]⟩ dims) (hd1 : dims 1 = 1)
    (v : (⟨2, ![1, b]⟩ : Shape).Idx → α) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ =>
    show (0 : ℕ) = if (1 : ℕ) = 1 then 0 else _
    rw [if_pos rfl]
  | ⟨1, _⟩ =>
    show c.val = if b = 1 then 0 else (ix2 p c (dims 1)).val
    rw [hd1]
    show c.val = if b = 1 then 0 else c.val
    split
    · have := c.isLt; omega
    · rfl

/-- A vector `[b]` made a one-row matrix and then laid along `a` rows reads, at `(p, c)`, the vector at `c`. -/
theorem biasRows_apply {α : Type} {a b : ℕ} (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [bcast_1b_ab_apply ![0, 1] h2 rfl, Cert.LibHostMatmulNN.broadcastInDim_b_ab_apply ![1] h1 rfl]

/-! ## A matrix product plus a bias on every row is `proj` -/

/-- The host's `A · W` plus the bias `b` laid along every row is `proj A W b`. -/
theorem hostProj_eq {M K N : ℕ} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (h1 : (⟨1, ![N]⟩ : Shape).BroadcastsInDim ⟨2, ![1, N]⟩ ![1])
    (h2 : (⟨2, ![1, N]⟩ : Shape).BroadcastsInDim ⟨2, ![M, N]⟩ ![0, 1])
    (A : FVec Ideal ⟨2, ![M, K]⟩ .f32) (W : FVec Ideal ⟨2, ![K, N]⟩ .f32) (b : FVec Ideal ⟨1, ![N]⟩ .f32) :
    addf (Host.dotGeneral d prec A W)
        (broadcastInDim ⟨2, ![M, N]⟩ ![0, 1] h2 (broadcastInDim ⟨2, ![1, N]⟩ ![1] h1 b))
      = Cert.Spec.proj A W (Cert.Spec.vecOf b) := by
  funext j
  obtain ⟨i, c, rfl⟩ : ∃ (i : Fin M) (c : Fin N), j = ix2 i c := ⟨j 0, j 1, eq_ix2 j⟩
  rw [addf_apply, Cert.LibHostMatmulNN.hostDot_nn_apply d hlc hrc hln hrn hlb hrb, biasRows_apply,
    Cert.Spec.proj_ix2]
  rfl

/-! ## One slab of a stack of matrices, one row of a stack of vectors -/

/-- Slab `o` of a stack `[5, 256, 256]`: the slice `[o, o + 1)` along the first axis with its unit axis dropped. -/
def sliceMat (o : ℕ) (W : FVec Ideal S5x256x256 .f32) (hs : S5x256x256.Slices ![o, 0, 0] S1x256x256) :
    FVec Ideal S256x256 .f32 :=
  shapeCast S256x256 (extractStridedSlice S1x256x256 ![o, 0, 0] W hs) shapeCasts_S1x256x256_S256x256

/-- Row `o` of a stack `[5, 256]`: the slice `[o, o + 1)` along the first axis with its unit axis dropped. -/
def sliceVec (o : ℕ) (b : FVec Ideal S5x256 .f32) (hs : S5x256.Slices ![o, 0] S1x256) : FVec Ideal S256 .f32 :=
  shapeCast S256 (extractStridedSlice S1x256 ![o, 0] b hs) shapeCasts_S1x256_S256

/-- Slab `o` read at `(i, j)` is the stack at `(o, i, j)`. -/
theorem sliceMat_apply (o : ℕ) (k : Fin 5) (hk : k.val = o) (W : FVec Ideal S5x256x256 .f32)
    (hs : S5x256x256.Slices ![o, 0, 0] S1x256x256) (i j : Fin 256) :
    sliceMat o W hs (ix2 i j) = W (ix3 k i j) := by
  unfold sliceMat
  rw [shapeCast_1ab_ab_apply]
  exact extractStridedSlice_apply _ _ _ _ _ (fun ax => by
    match ax with
    | ⟨0, _⟩ => show k.val = o + 0; omega
    | ⟨1, _⟩ => exact (Nat.zero_add _).symm
    | ⟨2, _⟩ => exact (Nat.zero_add _).symm)

/-- Row `o` read at `j` is the stack at `(o, j)`. -/
theorem sliceVec_apply (o : ℕ) (k : Fin 5) (hk : k.val = o) (b : FVec Ideal S5x256 .f32)
    (hs : S5x256.Slices ![o, 0] S1x256) (j : Fin 256) :
    sliceVec o b hs (ix1 j) = b (ix2 k j) := by
  unfold sliceVec
  rw [shapeCast_1a_a_apply]
  exact slice2_axis0_apply o b hs (0 : Fin 1) j k (by show k.val = o + 0; omega)

theorem matOf_sliceMat (o : ℕ) (k : Fin 5) (hk : k.val = o) (W : FVec Ideal S5x256x256 .f32)
    (hs : S5x256x256.Slices ![o, 0, 0] S1x256x256) : Cert.Spec.matOf (sliceMat o W hs) = Cert.Spec.layerMat W k :=
  funext fun i => funext fun j => sliceMat_apply o k hk W hs i j

theorem vecOf_sliceVec (o : ℕ) (k : Fin 5) (hk : k.val = o) (b : FVec Ideal S5x256 .f32)
    (hs : S5x256.Slices ![o, 0] S1x256) : Cert.Spec.vecOf (sliceVec o b hs) = Cert.Spec.layerVec b k :=
  funext fun j => sliceVec_apply o k hk b hs j

/-! ## One residual layer on a whole array -/

/-- One residual layer as the program writes it on a whole array `x`: `(x + (x · W₁ + b₁) · W₂) + b₂` with layer
`o`'s slabs and bias rows. -/
def hostLayer (o : ℕ) (hs3 : S5x256x256.Slices ![o, 0, 0] S1x256x256) (hs2 : S5x256.Slices ![o, 0] S1x256)
    (W1 : FVec Ideal S5x256x256 .f32) (b1 : FVec Ideal S5x256 .f32) (W2 : FVec Ideal S5x256x256 .f32)
    (b2 : FVec Ideal S5x256 .f32) (x : FVec Ideal S100000x256 .f32) : FVec Ideal S100000x256 .f32 :=
  addf (addf x (Host.dotGeneral dot_S100000x256_S256x256_S100000x256_1_0_0_1_n_n none (addf (Host.dotGeneral dot_S100000x256_S256x256_S100000x256_1_0_0_1_n_n none x (sliceMat o W1 hs3)) (broadcastInDim S100000x256 ![0, 1] bcast_S1x256_S100000x256_0_1 (broadcastInDim S1x256 ![1] bcast_S256_S1x256_1 (sliceVec o b1 hs2)))) (sliceMat o W2 hs3))) (broadcastInDim S100000x256 ![0, 1] bcast_S1x256_S100000x256_0_1 (broadcastInDim S1x256 ![1] bcast_S256_S1x256_1 (sliceVec o b2 hs2)))

/-- Row `i` of a layer's result is the specification's residual layer on row `i` of its operand. -/
theorem hostLayer_eq (o : ℕ) (k : Fin 5) (hk : k.val = o) (hs3 : S5x256x256.Slices ![o, 0, 0] S1x256x256)
    (hs2 : S5x256.Slices ![o, 0] S1x256) (W1 : FVec Ideal S5x256x256 .f32) (b1 : FVec Ideal S5x256 .f32)
    (W2 : FVec Ideal S5x256x256 .f32) (b2 : FVec Ideal S5x256 .f32) (x : FVec Ideal S100000x256 .f32) :
    hostLayer o hs3 hs2 W1 b1 W2 b2 x
      = Cert.Spec.ofCoords2 fun i j => Cert.Spec.res (Cert.Spec.layerMat W1 k) (Cert.Spec.layerVec b1 k)
          (Cert.Spec.layerMat W2 k) (Cert.Spec.layerVec b2 k) (Cert.Spec.rowOf x i) j := by
  funext idx
  obtain ⟨i, j, rfl⟩ : ∃ (i : Fin 100000) (j : Fin 256), idx = ix2 i j := ⟨idx 0, idx 1, eq_ix2 idx⟩
  unfold hostLayer
  rw [hostProj_eq dot_S100000x256_S256x256_S100000x256_1_0_0_1_n_n rfl rfl rfl rfl rfl rfl none bcast_S256_S1x256_1 bcast_S1x256_S100000x256_0_1]
  rw [addf_apply, addf_apply, Cert.LibHostMatmulNN.hostDot_nn_apply dot_S100000x256_S256x256_S100000x256_1_0_0_1_n_n rfl rfl rfl rfl rfl rfl, biasRows_apply,
    Cert.Spec.ofCoords2_ix2, ← Cert.Spec.res_assoc, ← matOf_sliceMat o k hk W1 hs3, ← matOf_sliceMat o k hk W2 hs3,
    ← vecOf_sliceVec o k hk b1 hs2, ← vecOf_sliceVec o k hk b2 hs2]
  rfl

/-! ## The combination with the node's own row -/

/-- `u ⊙ h + (y · W_out + b_out)` as the program writes it on whole arrays. -/
def hostCombine (u : FVec Ideal S256 .f32) (h : FVec Ideal S100000x256 .f32) (Wo : FVec Ideal S256x256 .f32)
    (bo : FVec Ideal S256 .f32) (y : FVec Ideal S100000x256 .f32) : FVec Ideal S100000x256 .f32 :=
  addf (mulf (broadcastInDim S100000x256 ![0, 1] bcast_S1x256_S100000x256_0_1 (broadcastInDim S1x256 ![1] bcast_S256_S1x256_1 u)) h) (addf (Host.dotGeneral dot_S100000x256_S256x256_S100000x256_1_0_0_1_n_n none y Wo) (broadcastInDim S100000x256 ![0, 1] bcast_S1x256_S100000x256_0_1 (broadcastInDim S1x256 ![1] bcast_S256_S1x256_1 bo)))

theorem hostCombine_eq (u : FVec Ideal S256 .f32) (h : FVec Ideal S100000x256 .f32) (Wo : FVec Ideal S256x256 .f32)
    (bo : FVec Ideal S256 .f32) (y : FVec Ideal S100000x256 .f32) :
    hostCombine u h Wo bo y
      = Cert.Spec.ofCoords2 fun i j => Cert.Spec.combine (Cert.Spec.matOf Wo) (Cert.Spec.vecOf bo) (Cert.Spec.vecOf u)
          (Cert.Spec.rowOf y i) (Cert.Spec.rowOf h i) j := by
  funext idx
  obtain ⟨i, j, rfl⟩ : ∃ (i : Fin 100000) (j : Fin 256), idx = ix2 i j := ⟨idx 0, idx 1, eq_ix2 idx⟩
  unfold hostCombine
  rw [hostProj_eq dot_S100000x256_S256x256_S100000x256_1_0_0_1_n_n rfl rfl rfl rfl rfl rfl none bcast_S256_S1x256_1 bcast_S1x256_S100000x256_0_1,
    addf_apply, mulf_apply, biasRows_apply, Cert.Spec.proj_ix2]
  rfl

/-- A row of an array given by rows is that row. -/
theorem rowOf_ofCoords2 {M N : ℕ} (f : Fin M → Fin N → EReal) (i : Fin M) :
    Cert.Spec.rowOf (Cert.Spec.ofCoords2 f) i = f i := rfl

/-! ## The whole chain on whole arrays -/

section Chain
variable (rW1 : FVec Ideal S5x256x256 .f32) (rb1 : FVec Ideal S5x256 .f32) (rW2 : FVec Ideal S5x256x256 .f32)
  (rb2 : FVec Ideal S5x256 .f32) (Wo : FVec Ideal S256x256 .f32) (bo u : FVec Ideal S256 .f32)
  (aW1 : FVec Ideal S5x256x256 .f32) (ab1 : FVec Ideal S5x256 .f32) (aW2 : FVec Ideal S5x256x256 .f32)
  (ab2 : FVec Ideal S5x256 .f32) (m h : FVec Ideal S100000x256 .f32)

/-- Five layers, layer 0 innermost. -/
def hostStack (W1 : FVec Ideal S5x256x256 .f32) (b1 : FVec Ideal S5x256 .f32) (W2 : FVec Ideal S5x256x256 .f32)
    (b2 : FVec Ideal S5x256 .f32) (x : FVec Ideal S100000x256 .f32) : FVec Ideal S100000x256 .f32 :=
  hostLayer 4 slices_S5x256x256_S1x256x256_4_0_0 slices_S5x256_S1x256_4_0 W1 b1 W2 b2 (hostLayer 3 slices_S5x256x256_S1x256x256_3_0_0 slices_S5x256_S1x256_3_0 W1 b1 W2 b2
    (hostLayer 2 slices_S5x256x256_S1x256x256_2_0_0 slices_S5x256_S1x256_2_0 W1 b1 W2 b2 (hostLayer 1 slices_S5x256x256_S1x256x256_1_0_0 slices_S5x256_S1x256_1_0 W1 b1 W2 b2
      (hostLayer 0 slices_S5x256x256_S1x256x256_0_0_0 slices_S5x256_S1x256_0_0 W1 b1 W2 b2 x))))

theorem hostStack_eq (W1 : FVec Ideal S5x256x256 .f32) (b1 : FVec Ideal S5x256 .f32) (W2 : FVec Ideal S5x256x256 .f32)
    (b2 : FVec Ideal S5x256 .f32) (x : FVec Ideal S100000x256 .f32) :
    hostStack W1 b1 W2 b2 x
      = Cert.Spec.ofCoords2 fun i j => Cert.Spec.stack (Cert.Spec.layerMat W1) (Cert.Spec.layerVec b1)
          (Cert.Spec.layerMat W2) (Cert.Spec.layerVec b2) (Cert.Spec.rowOf x i) j := by
  unfold hostStack
  rw [hostLayer_eq 0 0 rfl, hostLayer_eq 1 1 rfl, hostLayer_eq 2 2 rfl, hostLayer_eq 3 3 rfl, hostLayer_eq 4 4 rfl]
  simp only [rowOf_ofCoords2]
  rfl

/-- The program's chain on whole arrays is the specification's chain on every row. -/
theorem hostChain_eq :
    hostStack aW1 ab1 aW2 ab2 (hostCombine u h Wo bo (hostStack rW1 rb1 rW2 rb2 m))
      = Cert.Spec.xOf (Cert.Spec.layerMat rW1) (Cert.Spec.layerVec rb1) (Cert.Spec.layerMat rW2) (Cert.Spec.layerVec rb2)
          (Cert.Spec.matOf Wo) (Cert.Spec.vecOf bo) (Cert.Spec.vecOf u) (Cert.Spec.layerMat aW1) (Cert.Spec.layerVec ab1)
          (Cert.Spec.layerMat aW2) (Cert.Spec.layerVec ab2) m h := by
  rw [hostStack_eq rW1, hostCombine_eq, hostStack_eq aW1]
  simp only [rowOf_ofCoords2]
  rfl

end Chain

variable (V0 : Valuation τ sig (Elt Ideal))

/-- The edge projection: the reference's first result is `proj` of the edge attributes. -/
theorem ref_g :
    addf (Host.dotGeneral (φ₁ := .f32) (φ₂ := .f32) dot_S800000x100_S100x256_S800000x256_1_0_0_1_n_n none (V0 (Proc.devRef .tc main_arg3) : FVec Ideal S800000x100 .f32) (V0 (Proc.devRef .tc main_arg5) : FVec Ideal S100x256 .f32)) (broadcastInDim S800000x256 ![0, 1] bcast_S1x256_S800000x256_0_1 (broadcastInDim S1x256 ![1] bcast_S256_S1x256_1 (V0 (Proc.devRef .tc main_arg6) : FVec Ideal S256 .f32)))
      = Cert.Spec.proj (V0 (Proc.devRef .tc main_arg3) : FVec Ideal S800000x100 .f32) (V0 (Proc.devRef .tc main_arg5) : FVec Ideal S100x256 .f32) (Cert.Spec.vecOf (V0 (Proc.devRef .tc main_arg6) : FVec Ideal S256 .f32)) :=
  hostProj_eq dot_S800000x100_S100x256_S800000x256_1_0_0_1_n_n rfl rfl rfl rfl rfl rfl none
    bcast_S256_S1x256_1 bcast_S1x256_S800000x256_0_1 _ _ _

/-- The node projection, the operand of the gather inside the aggregated message array. -/
theorem ref_y :
    addf (Host.dotGeneral (φ₁ := .f32) (φ₂ := .f32) dot_S100000x256_S256x256_S100000x256_1_0_0_1_n_n none (V0 (Proc.devRef .tc main_arg0) : FVec Ideal S100000x256 .f32) (V0 (Proc.devRef .tc main_arg7) : FVec Ideal S256x256 .f32)) (broadcastInDim S100000x256 ![0, 1] bcast_S1x256_S100000x256_0_1 (broadcastInDim S1x256 ![1] bcast_S256_S1x256_1 (V0 (Proc.devRef .tc main_arg8) : FVec Ideal S256 .f32)))
      = Cert.Spec.proj (V0 (Proc.devRef .tc main_arg0) : FVec Ideal S100000x256 .f32) (V0 (Proc.devRef .tc main_arg7) : FVec Ideal S256x256 .f32) (Cert.Spec.vecOf (V0 (Proc.devRef .tc main_arg8) : FVec Ideal S256 .f32)) :=
  hostProj_eq dot_S100000x256_S256x256_S100000x256_1_0_0_1_n_n rfl rfl rfl rfl rfl rfl none
    bcast_S256_S1x256_1 bcast_S1x256_S100000x256_0_1 _ _ _

/-! ## The program's named stages, one layer each -/

theorem v39_eq : res_main_v39 V0 = hostLayer 0 slices_S5x256x256_S1x256x256_0_0_0 slices_S5x256_S1x256_0_0 (V0 (Proc.devRef .tc main_arg9) : FVec Ideal S5x256x256 .f32) (V0 (Proc.devRef .tc main_arg10) : FVec Ideal S5x256 .f32) (V0 (Proc.devRef .tc main_arg11) : FVec Ideal S5x256x256 .f32) (V0 (Proc.devRef .tc main_arg12) : FVec Ideal S5x256 .f32) (res_main_v22 V0) := by
  unfold res_main_v39 hostLayer sliceMat sliceVec
  rfl

theorem v56_eq : res_main_v56 V0 = hostLayer 1 slices_S5x256x256_S1x256x256_1_0_0 slices_S5x256_S1x256_1_0 (V0 (Proc.devRef .tc main_arg9) : FVec Ideal S5x256x256 .f32) (V0 (Proc.devRef .tc main_arg10) : FVec Ideal S5x256 .f32) (V0 (Proc.devRef .tc main_arg11) : FVec Ideal S5x256x256 .f32) (V0 (Proc.devRef .tc main_arg12) : FVec Ideal S5x256 .f32) (res_main_v39 V0) := by
  unfold res_main_v56 hostLayer sliceMat sliceVec
  rfl

theorem v73_eq : res_main_v73 V0 = hostLayer 2 slices_S5x256x256_S1x256x256_2_0_0 slices_S5x256_S1x256_2_0 (V0 (Proc.devRef .tc main_arg9) : FVec Ideal S5x256x256 .f32) (V0 (Proc.devRef .tc main_arg10) : FVec Ideal S5x256 .f32) (V0 (Proc.devRef .tc main_arg11) : FVec Ideal S5x256x256 .f32) (V0 (Proc.devRef .tc main_arg12) : FVec Ideal S5x256 .f32) (res_main_v56 V0) := by
  unfold res_main_v73 hostLayer sliceMat sliceVec
  rfl

theorem v90_eq : res_main_v90 V0 = hostLayer 3 slices_S5x256x256_S1x256x256_3_0_0 slices_S5x256_S1x256_3_0 (V0 (Proc.devRef .tc main_arg9) : FVec Ideal S5x256x256 .f32) (V0 (Proc.devRef .tc main_arg10) : FVec Ideal S5x256 .f32) (V0 (Proc.devRef .tc main_arg11) : FVec Ideal S5x256x256 .f32) (V0 (Proc.devRef .tc main_arg12) : FVec Ideal S5x256 .f32) (res_main_v73 V0) := by
  unfold res_main_v90 hostLayer sliceMat sliceVec
  rfl

theorem v115_eq : res_main_v115 V0 = hostCombine (V0 (Proc.devRef .tc main_arg15) : FVec Ideal S256 .f32) (V0 (Proc.devRef .tc main_arg0) : FVec Ideal S100000x256 .f32) (V0 (Proc.devRef .tc main_arg13) : FVec Ideal S256x256 .f32) (V0 (Proc.devRef .tc main_arg14) : FVec Ideal S256 .f32) (hostLayer 4 slices_S5x256x256_S1x256x256_4_0_0 slices_S5x256_S1x256_4_0 (V0 (Proc.devRef .tc main_arg9) : FVec Ideal S5x256x256 .f32) (V0 (Proc.devRef .tc main_arg10) : FVec Ideal S5x256 .f32) (V0 (Proc.devRef .tc main_arg11) : FVec Ideal S5x256x256 .f32) (V0 (Proc.devRef .tc main_arg12) : FVec Ideal S5x256 .f32) (res_main_v90 V0)) := by
  unfold res_main_v115 hostCombine hostLayer sliceMat sliceVec
  rfl

theorem v132_eq : res_main_v132 V0 = hostLayer 0 slices_S5x256x256_S1x256x256_0_0_0 slices_S5x256_S1x256_0_0 (V0 (Proc.devRef .tc main_arg16) : FVec Ideal S5x256x256 .f32) (V0 (Proc.devRef .tc main_arg17) : FVec Ideal S5x256 .f32) (V0 (Proc.devRef .tc main_arg18) : FVec Ideal S5x256x256 .f32) (V0 (Proc.devRef .tc main_arg19) : FVec Ideal S5x256 .f32) (res_main_v115 V0) := by
  unfold res_main_v132 hostLayer sliceMat sliceVec
  rfl

theorem v149_eq : res_main_v149 V0 = hostLayer 1 slices_S5x256x256_S1x256x256_1_0_0 slices_S5x256_S1x256_1_0 (V0 (Proc.devRef .tc main_arg16) : FVec Ideal S5x256x256 .f32) (V0 (Proc.devRef .tc main_arg17) : FVec Ideal S5x256 .f32) (V0 (Proc.devRef .tc main_arg18) : FVec Ideal S5x256x256 .f32) (V0 (Proc.devRef .tc main_arg19) : FVec Ideal S5x256 .f32) (res_main_v132 V0) := by
  unfold res_main_v149 hostLayer sliceMat sliceVec
  rfl

theorem v166_eq : res_main_v166 V0 = hostLayer 2 slices_S5x256x256_S1x256x256_2_0_0 slices_S5x256_S1x256_2_0 (V0 (Proc.devRef .tc main_arg16) : FVec Ideal S5x256x256 .f32) (V0 (Proc.devRef .tc main_arg17) : FVec Ideal S5x256 .f32) (V0 (Proc.devRef .tc main_arg18) : FVec Ideal S5x256x256 .f32) (V0 (Proc.devRef .tc main_arg19) : FVec Ideal S5x256 .f32) (res_main_v149 V0) := by
  unfold res_main_v166 hostLayer sliceMat sliceVec
  rfl

theorem v183_eq : res_main_v183 V0 = hostLayer 3 slices_S5x256x256_S1x256x256_3_0_0 slices_S5x256_S1x256_3_0 (V0 (Proc.devRef .tc main_arg16) : FVec Ideal S5x256x256 .f32) (V0 (Proc.devRef .tc main_arg17) : FVec Ideal S5x256 .f32) (V0 (Proc.devRef .tc main_arg18) : FVec Ideal S5x256x256 .f32) (V0 (Proc.devRef .tc main_arg19) : FVec Ideal S5x256 .f32) (res_main_v166 V0) := by
  unfold res_main_v183 hostLayer sliceMat sliceVec
  rfl

/-- The node update: the reference's second result is the chain `xrow` on every row of the aggregated messages and of
the node features. -/
theorem ref_x :
    addf (addf (res_main_v183 V0) (Host.dotGeneral (φ₁ := .f32) (φ₂ := .f32) dot_S100000x256_S256x256_S100000x256_1_0_0_1_n_n none (addf (Host.dotGeneral (φ₁ := .f32) (φ₂ := .f32) dot_S100000x256_S256x256_S100000x256_1_0_0_1_n_n none (res_main_v183 V0) (shapeCast _ (extractStridedSlice S1x256x256 ![4, 0, 0] (V0 (Proc.devRef .tc main_arg16) : FVec Ideal S5x256x256 .f32) slices_S5x256x256_S1x256x256_4_0_0) shapeCasts_S1x256x256_S256x256)) (broadcastInDim S100000x256 ![0, 1] bcast_S1x256_S100000x256_0_1 (broadcastInDim S1x256 ![1] bcast_S256_S1x256_1 (shapeCast _ (extractStridedSlice S1x256 ![4, 0] (V0 (Proc.devRef .tc main_arg17) : FVec Ideal S5x256 .f32) slices_S5x256_S1x256_4_0) shapeCasts_S1x256_S256)))) (shapeCast _ (extractStridedSlice S1x256x256 ![4, 0, 0] (V0 (Proc.devRef .tc main_arg18) : FVec Ideal S5x256x256 .f32) slices_S5x256x256_S1x256x256_4_0_0) shapeCasts_S1x256x256_S256x256))) (broadcastInDim S100000x256 ![0, 1] bcast_S1x256_S100000x256_0_1 (broadcastInDim S1x256 ![1] bcast_S256_S1x256_1 (shapeCast _ (extractStridedSlice S1x256 ![4, 0] (V0 (Proc.devRef .tc main_arg19) : FVec Ideal S5x256 .f32) slices_S5x256_S1x256_4_0) shapeCasts_S1x256_S256)))
      = Cert.Spec.xOf (Cert.Spec.layerMat (V0 (Proc.devRef .tc main_arg9) : FVec Ideal S5x256x256 .f32)) (Cert.Spec.layerVec (V0 (Proc.devRef .tc main_arg10) : FVec Ideal S5x256 .f32)) (Cert.Spec.layerMat (V0 (Proc.devRef .tc main_arg11) : FVec Ideal S5x256x256 .f32)) (Cert.Spec.layerVec (V0 (Proc.devRef .tc main_arg12) : FVec Ideal S5x256 .f32))
          (Cert.Spec.matOf (V0 (Proc.devRef .tc main_arg13) : FVec Ideal S256x256 .f32)) (Cert.Spec.vecOf (V0 (Proc.devRef .tc main_arg14) : FVec Ideal S256 .f32)) (Cert.Spec.vecOf (V0 (Proc.devRef .tc main_arg15) : FVec Ideal S256 .f32))
          (Cert.Spec.layerMat (V0 (Proc.devRef .tc main_arg16) : FVec Ideal S5x256x256 .f32)) (Cert.Spec.layerVec (V0 (Proc.devRef .tc main_arg17) : FVec Ideal S5x256 .f32)) (Cert.Spec.layerMat (V0 (Proc.devRef .tc main_arg18) : FVec Ideal S5x256x256 .f32)) (Cert.Spec.layerVec (V0 (Proc.devRef .tc main_arg19) : FVec Ideal S5x256 .f32))
          (res_main_v22 V0) (V0 (Proc.devRef .tc main_arg0) : FVec Ideal S100000x256 .f32) := by
  have e : addf (addf (res_main_v183 V0) (Host.dotGeneral (φ₁ := .f32) (φ₂ := .f32) dot_S100000x256_S256x256_S100000x256_1_0_0_1_n_n none (addf (Host.dotGeneral (φ₁ := .f32) (φ₂ := .f32) dot_S100000x256_S256x256_S100000x256_1_0_0_1_n_n none (res_main_v183 V0) (shapeCast _ (extractStridedSlice S1x256x256 ![4, 0, 0] (V0 (Proc.devRef .tc main_arg16) : FVec Ideal S5x256x256 .f32) slices_S5x256x256_S1x256x256_4_0_0) shapeCasts_S1x256x256_S256x256)) (broadcastInDim S100000x256 ![0, 1] bcast_S1x256_S100000x256_0_1 (broadcastInDim S1x256 ![1] bcast_S256_S1x256_1 (shapeCast _ (extractStridedSlice S1x256 ![4, 0] (V0 (Proc.devRef .tc main_arg17) : FVec Ideal S5x256 .f32) slices_S5x256_S1x256_4_0) shapeCasts_S1x256_S256)))) (shapeCast _ (extractStridedSlice S1x256x256 ![4, 0, 0] (V0 (Proc.devRef .tc main_arg18) : FVec Ideal S5x256x256 .f32) slices_S5x256x256_S1x256x256_4_0_0) shapeCasts_S1x256x256_S256x256))) (broadcastInDim S100000x256 ![0, 1] bcast_S1x256_S100000x256_0_1 (broadcastInDim S1x256 ![1] bcast_S256_S1x256_1 (shapeCast _ (extractStridedSlice S1x256 ![4, 0] (V0 (Proc.devRef .tc main_arg19) : FVec Ideal S5x256 .f32) slices_S5x256_S1x256_4_0) shapeCasts_S1x256_S256)))
      = hostLayer 4 slices_S5x256x256_S1x256x256_4_0_0 slices_S5x256_S1x256_4_0 (V0 (Proc.devRef .tc main_arg16) : FVec Ideal S5x256x256 .f32) (V0 (Proc.devRef .tc main_arg17) : FVec Ideal S5x256 .f32) (V0 (Proc.devRef .tc main_arg18) : FVec Ideal S5x256x256 .f32) (V0 (Proc.devRef .tc main_arg19) : FVec Ideal S5x256 .f32) (res_main_v183 V0) := by
    unfold hostLayer sliceMat sliceVec
    rfl
  rw [e, v183_eq, v166_eq, v149_eq, v132_eq, v115_eq, v90_eq, v73_eq, v56_eq, v39_eq]
  exact hostChain_eq _ _ _ _ _ _ _ _ _ _ _ _ _

/-- The two results of the reference's run, as the specification's forms. -/
theorem val_g : val4 V0 (no_index (Proc.devRef .tc main_v7))
      = Cert.Spec.proj (V0 (Proc.devRef .tc main_arg3) : FVec Ideal S800000x100 .f32) (V0 (Proc.devRef .tc main_arg5) : FVec Ideal S100x256 .f32) (Cert.Spec.vecOf (V0 (Proc.devRef .tc main_arg6) : FVec Ideal S256 .f32)) :=
  (val4_main_v7 V0).trans (ref_g V0)

theorem val_x : val4 V0 (no_index (Proc.devRef .tc main_v200))
      = Cert.Spec.xOf (Cert.Spec.layerMat (V0 (Proc.devRef .tc main_arg9) : FVec Ideal S5x256x256 .f32)) (Cert.Spec.layerVec (V0 (Proc.devRef .tc main_arg10) : FVec Ideal S5x256 .f32)) (Cert.Spec.layerMat (V0 (Proc.devRef .tc main_arg11) : FVec Ideal S5x256x256 .f32)) (Cert.Spec.layerVec (V0 (Proc.devRef .tc main_arg12) : FVec Ideal S5x256 .f32))
          (Cert.Spec.matOf (V0 (Proc.devRef .tc main_arg13) : FVec Ideal S256x256 .f32)) (Cert.Spec.vecOf (V0 (Proc.devRef .tc main_arg14) : FVec Ideal S256 .f32)) (Cert.Spec.vecOf (V0 (Proc.devRef .tc main_arg15) : FVec Ideal S256 .f32))
          (Cert.Spec.layerMat (V0 (Proc.devRef .tc main_arg16) : FVec Ideal S5x256x256 .f32)) (Cert.Spec.layerVec (V0 (Proc.devRef .tc main_arg17) : FVec Ideal S5x256 .f32)) (Cert.Spec.layerMat (V0 (Proc.devRef .tc main_arg18) : FVec Ideal S5x256x256 .f32)) (Cert.Spec.layerVec (V0 (Proc.devRef .tc main_arg19) : FVec Ideal S5x256 .f32))
          (res_main_v22 V0) (V0 (Proc.devRef .tc main_arg0) : FVec Ideal S100000x256 .f32) :=
  (val4_main_v200 V0).trans (ref_x V0)

end Cert.ReferenceIdeal.RefValue

end
-- ==== Proof.RValue.lean ====
/-
  The idealized reference's two results as the same functions of its arguments. Its aggregated message array is the
  host's message passing applied to its own two projections — the very chain of host operations the kernel's program
  runs between its regions — so it is the shared function of the two projections and the edge list; the chain of
  residual layers over it is the first result, the edge projection the second.
-/
import proofs.«108374_j17257178595652_2_alg».proof.Proof.RefValue
import proofs.«108374_j17257178595652_2_alg».proof.Proof.Results

set_option maxRecDepth 16384

noncomputable section

namespace Cert.ReferenceIdeal.RValue

open Cert.ReferenceIdeal Cert.ReferenceIdeal.Gen Cert.ReferenceIdeal.Value Cert.ReferenceIdeal.RefValue
open Idealize.ShloMosaic Idealize.ShloMosaic.TcCoe Idealize.ShloMosaic.StableHlo Idealize.SL.Sem

section
variable (V0 : Valuation τ sig (Elt Ideal))

set_option maxHeartbeats 1000000 in
/-- The aggregated messages are the shared message passing of the two projections and the edge list. -/
theorem msg_eq : res_main_v22 V0
    = Cert.Msg.msgOf (Cert.Results.yFn (V0 (Proc.devRef .tc main_arg0) : FVec Ideal S100000x256 .f32) (V0 (Proc.devRef .tc main_arg7) : FVec Ideal S256x256 .f32) (V0 (Proc.devRef .tc main_arg8) : FVec Ideal S256 .f32)) (Cert.Results.gFn (V0 (Proc.devRef .tc main_arg3) : FVec Ideal S800000x100 .f32) (V0 (Proc.devRef .tc main_arg5) : FVec Ideal S100x256 .f32) (V0 (Proc.devRef .tc main_arg6) : FVec Ideal S256 .f32)) (V0 (Proc.devRef .tc main_arg1) : Vec Ideal S2x800000 .i32) := by
  unfold res_main_v22 res_main_v1
  rw [ref_y V0, ref_g V0]
  rfl

/-- The chain over the aggregated messages is the first result's function. -/
theorem x_fn :
    Cert.Spec.xOf (Cert.Spec.layerMat (V0 (Proc.devRef .tc main_arg9) : FVec Ideal S5x256x256 .f32)) (Cert.Spec.layerVec (V0 (Proc.devRef .tc main_arg10) : FVec Ideal S5x256 .f32)) (Cert.Spec.layerMat (V0 (Proc.devRef .tc main_arg11) : FVec Ideal S5x256x256 .f32)) (Cert.Spec.layerVec (V0 (Proc.devRef .tc main_arg12) : FVec Ideal S5x256 .f32))
      (Cert.Spec.matOf (V0 (Proc.devRef .tc main_arg13) : FVec Ideal S256x256 .f32)) (Cert.Spec.vecOf (V0 (Proc.devRef .tc main_arg14) : FVec Ideal S256 .f32)) (Cert.Spec.vecOf (V0 (Proc.devRef .tc main_arg15) : FVec Ideal S256 .f32))
      (Cert.Spec.layerMat (V0 (Proc.devRef .tc main_arg16) : FVec Ideal S5x256x256 .f32)) (Cert.Spec.layerVec (V0 (Proc.devRef .tc main_arg17) : FVec Ideal S5x256 .f32)) (Cert.Spec.layerMat (V0 (Proc.devRef .tc main_arg18) : FVec Ideal S5x256x256 .f32)) (Cert.Spec.layerVec (V0 (Proc.devRef .tc main_arg19) : FVec Ideal S5x256 .f32))
      (res_main_v22 V0) (V0 (Proc.devRef .tc main_arg0) : FVec Ideal S100000x256 .f32)
    = Cert.Results.xFn (V0 (Proc.devRef .tc main_arg0) : FVec Ideal S100000x256 .f32) (V0 (Proc.devRef .tc main_arg1) : Vec Ideal S2x800000 .i32) (V0 (Proc.devRef .tc main_arg3) : FVec Ideal S800000x100 .f32) (V0 (Proc.devRef .tc main_arg5) : FVec Ideal S100x256 .f32) (V0 (Proc.devRef .tc main_arg6) : FVec Ideal S256 .f32) (V0 (Proc.devRef .tc main_arg7) : FVec Ideal S256x256 .f32) (V0 (Proc.devRef .tc main_arg8) : FVec Ideal S256 .f32) (V0 (Proc.devRef .tc main_arg9) : FVec Ideal S5x256x256 .f32) (V0 (Proc.devRef .tc main_arg10) : FVec Ideal S5x256 .f32) (V0 (Proc.devRef .tc main_arg11) : FVec Ideal S5x256x256 .f32) (V0 (Proc.devRef .tc main_arg12) : FVec Ideal S5x256 .f32) (V0 (Proc.devRef .tc main_arg13) : FVec Ideal S256x256 .f32) (V0 (Proc.devRef .tc main_arg14) : FVec Ideal S256 .f32) (V0 (Proc.devRef .tc main_arg15) : FVec Ideal S256 .f32) (V0 (Proc.devRef .tc main_arg16) : FVec Ideal S5x256x256 .f32) (V0 (Proc.devRef .tc main_arg17) : FVec Ideal S5x256 .f32) (V0 (Proc.devRef .tc main_arg18) : FVec Ideal S5x256x256 .f32) (V0 (Proc.devRef .tc main_arg19) : FVec Ideal S5x256 .f32) := by
  rw [msg_eq]
  rfl
end

variable (m : (ℓ : Loc nD τ sig) → Buf (Elt Ideal) ℓ) (ρ : Dev nD → PrngReg)

/-- THE RUN, READ: every weakly fair execution of the idealized reference terminates, nothing faulting, with its two
    results at the same functions of its arguments, the arguments as launched. -/
theorem run : θ_run defs (onTc (τ := τ) (main (F := Ideal))) ⟨m, fun _ => 0, ρ⟩ (fun r => ∀ c : Dev nD,
      r.2.mem ((c.tc : Thread nD τ).loc main_v200) = Cert.Results.xFn (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_v7) = Cert.Results.gFn (m ((c.tc : Thread nD τ).loc main_arg3)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c =>
    ⟨(h c).1.trans ((ref_x (launchContents m c)).trans (x_fn (launchContents m c))),
     (h c).2.1.trans (ref_g (launchContents m c)),
     (h c).2.2⟩)
    (Cert.ReferenceIdeal.Value.run (F := Ideal) m ρ)

end Cert.ReferenceIdeal.RValue

end
-- ==== Proof.lean ====
/-
  The certificate of a message-passing layer with two stacks of residual layers: the kernel's three pallas regions
  (the edge projection, the node projection, and the fused chain of residual layers on blocks of rows) with the host's
  gather, product and scatter-add between them, against the plain jnp program.

  Over the extended reals both programs compute the same two functions of the arguments. The second result is the
  edge projection `edge_attr · W_d2f + b_d2f`: a blocked matrix product with the bias added to every row in the
  kernel, one matrix product and a broadcast bias in the reference — the same sums. The first result is, node by node,
  five residual layers `v ↦ v + ((v · W₁ + b₁) · W₂ + b₂)` on the node's aggregated message row, the combination
  `u ⊙ h + (m · W_out + b_out)` with the node's own row, and five more residual layers. Each of these acts on one row
  by itself, so the kernel's blocks of 2000 rows are blocks of rows of the one whole-array function; the aggregated
  messages are, in both programs, the same chain of host operations applied to the two projections, so they are equal
  because the projections are. The only law of arithmetic used is the associativity of addition (the reference adds
  a layer's second bias after the skip connection, the kernel before it); it holds for all extended reals, so the
  finiteness of the inputs is never needed. The kernel's idealization rewrote nothing, so it preserves the kernel
  trivially; the three frames are the generated frame certificates and the reference's generated run.
-/
import proofs.«108374_j17257178595652_2_alg».proof.Defs
import proofs.«108374_j17257178595652_2_alg».proof.Proof.Gen.Kernel
import proofs.«108374_j17257178595652_2_alg».proof.Proof.Gen.Kernel.Skeleton
import proofs.«108374_j17257178595652_2_alg».proof.Proof.Gen.Kernel.Launch
import proofs.«108374_j17257178595652_2_alg».proof.Proof.Gen.Kernel.Points
import proofs.«108374_j17257178595652_2_alg».proof.Proof.Gen.Kernel.Frame
import proofs.«108374_j17257178595652_2_alg».proof.Proof.Gen.KernelIdeal
import proofs.«108374_j17257178595652_2_alg».proof.Proof.Gen.KernelIdeal.Skeleton
import proofs.«108374_j17257178595652_2_alg».proof.Proof.Gen.KernelIdeal.Launch
import proofs.«108374_j17257178595652_2_alg».proof.Proof.Gen.KernelIdeal.Points
import proofs.«108374_j17257178595652_2_alg».proof.Proof.Gen.KernelIdeal.Frame
import proofs.«108374_j17257178595652_2_alg».proof.Proof.Gen.ReferenceIdeal
import proofs.«108374_j17257178595652_2_alg».proof.Proof.Gen.Pre_finite_inputs
import proofs.«108374_j17257178595652_2_alg».proof.Proof.Gen.ReferenceIdeal.Run
import proofs.«108374_j17257178595652_2_alg».proof.Proof.ProjRegions
import proofs.«108374_j17257178595652_2_alg».proof.Proof.FusedPayload
import proofs.«108374_j17257178595652_2_alg».proof.Proof.KValue
import proofs.«108374_j17257178595652_2_alg».proof.Proof.RValue
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments the two idealized programs end with the same two results: each is the
    same function of its own arguments, and the arguments agree. -/
theorem algebraic : Cert.algebraic_KernelIdeal_ReferenceIdeal := by
  intro m ρ m' ρ' _ hagree
  refine ⟨_, _, Cert.KernelIdeal.KValue.run m ρ (fun V c => Cert.KernelIdeal.ProjValue.arr0 V c)
    (fun V c => Cert.KernelIdeal.ProjValue.arr1 V c) Cert.KernelIdeal.FusedValue.fused_eq, ?_⟩
  refine (θ_run Cert.ReferenceIdeal.defs _ _).mono (fun _ h c => ?_) (Cert.ReferenceIdeal.RValue.run m' ρ')
  obtain ⟨hx, hg, ha⟩ := h c
  obtain ⟨a0, a1, a2, a3, a4, a5, a6, a7, a8, a9, a10, a11, a12, a13, a14, a15, a16, a17, a18, a19⟩ := hagree c
  refine ⟨hx.trans ?_, hg.trans ?_, ha⟩
  · rw [a0, a1, a3, a5, a6, a7, a8, a9, a10, a11, a12, a13, a14, a15, a16, a17, a18, a19]
  · rw [a3, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
